-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S1024x1024 : Shape := ⟨2, ![1024, 1024]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 5
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1, .f32⟩
  | .local _ .vmem, ⟨25, _⟩ => ⟨S1024x1, .f32⟩
  | .local _ .vmem, ⟨26, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_22 : BitVec 32 := 0#32
  let v42 : BitVec 1 := Scalar.cmpi .ne v41 c0_i32_22
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_22 : BitVec 32 := 0#32
  let v42 : BitVec 1 := Scalar.cmpi .ne v41 c0_i32_22
  v42

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_cst : Ref sig .tc := ⟨.hbm, 44, rfl⟩
abbrev main_call1_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call2_cst : Ref sig .tc := ⟨.hbm, 65, rfl⟩
abbrev main_call2_v0 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x1024 : S_.BroadcastsInDim S4096x1024 (![] : Fin 0 → Fin S4096x1024.rank)
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Kernel.R0Runs.lean ====
/-
  Region 0 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.Kernel.Launch
import proofs.«180055_j73289321939109_2_alg».proof.Proof.Gen.Kernel.Skeleton
import proofs.«180055_j73289321939109_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The key block is the last one": the condition of the write-out branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the key block is not the last one the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
/-- The three carried buffers: the running reference point, the running denominator, the running numerator. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1024 .f32 := scM0_2.view

end Cert.Kernel.Hand

end
-- ==== Proof.Kernel.R0RunB.lean ====
/-
  Region 0, a point whose key block is neither the first nor the last: the body reads the query block, the key
  block and the three carried buffers, and leaves the carried buffers at the folded values; the output window's
  buffer is not touched.
-/
import proofs.«180055_j73289321939109_2_alg».proof.Proof.Kernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun0_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R0RunA.lean ====
/-
  Region 0, a point whose key block is the first one: the body first overwrites the three carried buffers whole
  (the initial reference point, a zero denominator, a zero numerator), so it needs nothing of what they held; it
  then folds the key block in as at every point. The output window's buffer is not touched.
-/
import proofs.«180055_j73289321939109_2_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun0_A (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R0RunC.lean ====
/-
  Region 0, a point whose key block is the last one: after folding the key block into the carried buffers the body
  divides the running numerator by the running denominator, cuts the quotient off below at zero and stores it into the
  output window's buffer, whole.
-/
import proofs.«180055_j73289321939109_2_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun0_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.Kernel.Hand

end
-- ==== Proof.Kernel.R0Frame.lean ====
/-
  Region 0: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest0 (c : Dev nD) : sProp 𝕄 :=
  iprop(Pipeline.scopedRestBut (Ix := Unit) (Name := ℕ) (U := UR sig nD τ) (Lvl := ℕ) (Val := Elt F) spec0 c [cc0_scratch0, cc0_scratch1, cc0_scratch2] ∗ ∃ r, prngReg c r)

/-- The class invariant with the three carried buffers taken out as owned memrefs. -/
theorem PhiA0_eq (c : Dev nD) :
    (Pipeline.ΦA spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ Rest0 (F := F) c) := by
  unfold Pipeline.ΦA
  rw [Pipeline.scopedRest_split_of_list spec0 c [cc0_scratch0, cc0_scratch1, cc0_scratch2] (by decide) (by decide)]
  simp only [scM0_0, scM0_1, scM0_2, owns_whole, bigSepL, Rest0]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the four buffers -/

/-- One staging buffer of the output window, through which its contents are stated. -/
abbrev VO0_2 : View sig .tc .vmem S1024x1024 .bf16 := (Memref.whole cc0_stg2_0 : Memref sig .tc .vmem S1024x1024 .bf16).view

theorem scover0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1.Idx) :
    ∃ pc ∈ (kernelRun0_A (F := F) c i arg2 harg2 arg3 harg3 arg4 harg4 arg5 harg5 arg6 harg6 arg7 harg7 hc0 hc1 x0 x1).2.1, y ∈ pc.1.set :=
  View.cover_of_tiledL (kernelRun0_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1 .f32 :=
  VS0_0.read (Elt F) (VS0_0.writes (Elt F) VS0_0.junk (kernelRun0_A (F := F) c i arg2 harg2 arg3 harg3 arg4 harg4 arg5 harg5 arg6 harg6 arg7 harg7 hc0 hc1 x0 x1).2.1)

theorem scover0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1.Idx) :
    ∃ pc ∈ (kernelRun0_A (F := F) c i arg2 harg2 arg3 harg3 arg4 harg4 arg5 harg5 arg6 harg6 arg7 harg7 hc0 hc1 x0 x1).2.2.1, y ∈ pc.1.set :=
  View.cover_of_tiledL (kernelRun0_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1 .f32 :=
  VS0_1.read (Elt F) (VS0_1.writes (Elt F) VS0_1.junk (kernelRun0_A (F := F) c i arg2 harg2 arg3 harg3 arg4 harg4 arg5 harg5 arg6 harg6 arg7 harg7 hc0 hc1 x0 x1).2.2.1)

theorem scover0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1024.Idx) :
    ∃ pc ∈ (kernelRun0_A (F := F) c i arg2 harg2 arg3 harg3 arg4 harg4 arg5 harg5 arg6 harg6 arg7 harg7 hc0 hc1 x0 x1).2.2.2.1, y ∈ pc.1.set :=
  View.cover_of_tiledL (kernelRun0_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1024 .f32 :=
  VS0_2.read (Elt F) (VS0_2.writes (Elt F) VS0_2.junk (kernelRun0_A (F := F) c i arg2 harg2 arg3 harg3 arg4 harg4 arg5 harg5 arg6 harg6 arg7 harg7 hc0 hc1 x0 x1).2.2.2.1)

/-- The output window's buffer after the case (idle here: a placeholder nothing consults). -/
def out0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1024 .bf16 :=
  VO0_2.read (Elt F) (VO0_2.writes (Elt F) VO0_2.junk (kernelRun0_A (F := F) c i arg2 harg2 arg3 harg3 arg4 harg4 arg5 harg5 arg6 harg6 arg7 harg7 hc0 hc1 x0 x1).1)

theorem scover0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_B (F := F) c i arg2 harg2 arg3 harg3 arg4 harg4 arg5 harg5 arg6 harg6 arg7 harg7 hc0 hc1 x0 x1 xs0 xs1 xs2).2.1, y ∈ pc.1.set :=
  View.cover_of_tiledL (kernelRun0_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_B (F := F) c i arg2 harg2 arg3 harg3 arg4 harg4 arg5 harg5 arg6 harg6 arg7 harg7 hc0 hc1 x0 x1 xs0 xs1 xs2).2.1)

theorem scover0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_B (F := F) c i arg2 harg2 arg3 harg3 arg4 harg4 arg5 harg5 arg6 harg6 arg7 harg7 hc0 hc1 x0 x1 xs0 xs1 xs2).2.2.1, y ∈ pc.1.set :=
  View.cover_of_tiledL (kernelRun0_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_B (F := F) c i arg2 harg2 arg3 harg3 arg4 harg4 arg5 harg5 arg6 harg6 arg7 harg7 hc0 hc1 x0 x1 xs0 xs1 xs2).2.2.1)

theorem scover0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_B (F := F) c i arg2 harg2 arg3 harg3 arg4 harg4 arg5 harg5 arg6 harg6 arg7 harg7 hc0 hc1 x0 x1 xs0 xs1 xs2).2.2.2.1, y ∈ pc.1.set :=
  View.cover_of_tiledL (kernelRun0_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO0_2.read (Elt F) (VO0_2.writes (Elt F) VO0_2.junk (kernelRun0_B (F := F) c i arg2 harg2 arg3 harg3 arg4 harg4 arg5 harg5 arg6 harg6 arg7 harg7 hc0 hc1 x0 x1 xs0 xs1 xs2).1)

theorem scover0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_C (F := F) c i arg2 harg2 arg3 harg3 arg4 harg4 arg5 harg5 arg6 harg6 arg7 harg7 hc0 hc1 x0 x1 xs0 xs1 xs2).2.1, y ∈ pc.1.set :=
  View.cover_of_tiledL (kernelRun0_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_C (F := F) c i arg2 harg2 arg3 harg3 arg4 harg4 arg5 harg5 arg6 harg6 arg7 harg7 hc0 hc1 x0 x1 xs0 xs1 xs2).2.1)

theorem scover0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_C (F := F) c i arg2 harg2 arg3 harg3 arg4 harg4 arg5 harg5 arg6 harg6 arg7 harg7 hc0 hc1 x0 x1 xs0 xs1 xs2).2.2.1, y ∈ pc.1.set :=
  View.cover_of_tiledL (kernelRun0_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_C (F := F) c i arg2 harg2 arg3 harg3 arg4 harg4 arg5 harg5 arg6 harg6 arg7 harg7 hc0 hc1 x0 x1 xs0 xs1 xs2).2.2.1)

theorem scover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_C (F := F) c i arg2 harg2 arg3 harg3 arg4 harg4 arg5 harg5 arg6 harg6 arg7 harg7 hc0 hc1 x0 x1 xs0 xs1 xs2).2.2.2.1, y ∈ pc.1.set :=
  View.cover_of_tiledL (kernelRun0_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_C (F := F) c i arg2 harg2 arg3 harg3 arg4 harg4 arg5 harg5 arg6 harg6 arg7 harg7 hc0 hc1 x0 x1 xs0 xs1 xs2).2.2.2.1)

theorem cover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_C (F := F) c i arg2 harg2 arg3 harg3 arg4 harg4 arg5 harg5 arg6 harg6 arg7 harg7 hc0 hc1 x0 x1 xs0 xs1 xs2).1, y ∈ pc.1.set :=
  View.cover_of_tiledL (kernelRun0_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO0_2.read (Elt F) (VO0_2.writes (Elt F) VO0_2.junk (kernelRun0_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out0 : Type := Vec F S1024x1024 .bf16 × Vec F S1024x1 .f32 × Vec F S1024x1 .f32 × Vec F S1024x1024 .f32

/-- The four buffers after a point of case A. -/
def caseA0 (c : Dev nD) (t : Fin cfg0.N) (h0 : t.val % 8 = 0) (h1 : ¬t.val % 8 = 7) : Out0 (F := F) :=
  (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t))

/-- The four buffers after a point of case B. -/
def caseB0 (c : Dev nD) (t : Fin cfg0.N) (h0 : ¬t.val % 8 = 0) (h1 : ¬t.val % 8 = 7) (prev : Out0 (F := F)) : Out0 (F := F) :=
  (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2)

/-- The four buffers after a point of case C. -/
def caseC0 (c : Dev nD) (t : Fin cfg0.N) (h0 : ¬t.val % 8 = 0) (h1 : t.val % 8 = 7) (prev : Out0 (F := F)) : Out0 (F := F) :=
  (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2)

/-- The recursion over the grid: a first key block starts afresh, the others continue from the point before. -/
def outsAt0 (c : Dev nD) : (n : ℕ) → n < cfg0.N → Out0 (F := F)
  | 0, hn => caseA0 V c ⟨0, hn⟩ (Nat.zero_mod _) (by show ¬ (0 % 8 = 7); decide)
  | n + 1, hn =>
    if h0 : (n + 1) % 8 = 0 then
      if h1 : (n + 1) % 8 = 7 then False.elim (by omega)
      else caseA0 V c ⟨n + 1, hn⟩ h0 h1
    else
      if h1 : (n + 1) % 8 = 7 then caseC0 V c ⟨n + 1, hn⟩ h0 h1 (outsAt0 c n (Nat.lt_of_succ_lt hn))
      else caseB0 V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = caseA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = caseB0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS0 (c : Dev nD) : (n : ℕ) → n ≤ cfg0.N → sProp 𝕄
  | 0, _ => Pipeline.ΦA spec0 c
  | n + 1, hn => iprop(owns (c : Thread nD τ) scM0_0 fullShare (outsAt0 V c n hn).2.1 ∗ owns (c : Thread nD τ) scM0_1 fullShare (outsAt0 V c n hn).2.2.1
      ∗ owns (c : Thread nD τ) scM0_2 fullShare (outsAt0 V c n hn).2.2.2 ∗ Rest0 (F := F) c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (outsAt0 V c n hn).2.1 ∗ owns (c : Thread nD τ) scM0_1 fullShare (outsAt0 V c n hn).2.2.1
      ∗ owns (c : Thread nD τ) scM0_2 fullShare (outsAt0 V c n hn).2.2.2 ∗ Rest0 (F := F) c) := rfl

theorem PhiS0_pos (c : Dev nD) (n : ℕ) (h : n ≤ cfg0.N) (hz : n ≠ 0) :
    PhiS0 V c n h = iprop(owns (c : Thread nD τ) scM0_0 fullShare (outsAt0 V c (n - 1) (by omega)).2.1 ∗ owns (c : Thread nD τ) scM0_1 fullShare (outsAt0 V c (n - 1) (by omega)).2.2.1
      ∗ owns (c : Thread nD τ) scM0_2 fullShare (outsAt0 V c (n - 1) (by omega)).2.2.2 ∗ Rest0 (F := F) c) := by
  cases n with
  | zero => exact absurd rfl hz
  | succ n => rfl

/-! ## The pipeline's proof data -/

/-- The arrays as the region finds them; each input's buffer at its block; the output's buffer and the invariant by the
    recursion above; the one array behind both input windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.Kernel.R0Body.lean ====
/-
  Region 0: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.Kernel.R0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold caseA0 sout0_A_0 sout0_A_1 sout0_A_2; (try dsimp only)
      by_cases hz : t.val = 0
      · rw [PhiS0_castSucc V c t, PhiS0_zero V c _ _ hz, PhiA0_eq]
        iintro ⟨⟨HS0, HS1, HS2, HR⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact HR
        isplitl [Ho]; · iexact Ho
        isplitl [H0]; · iexact H0
        isplitl [H1]; · iexact H1
        iexists _; iexact H2
      · rw [PhiS0_castSucc V c t, PhiS0_pos V c _ _ hz]
        iintro ⟨⟨HS0, HS1, HS2, HR⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold caseC0 out0_C_2 sout0_C_0 sout0_C_1 sout0_C_2; (try dsimp only)
      rw [PhiS0_castSucc V c t, PhiS0_pos V c _ _ hz]
      iintro ⟨⟨HS0, HS1, HS2, HR⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        isplitl [HS2]
        · unfold owns; iexists _; isplitr
          swap; · iexact HS2
          ipureintro; exact View.read_writes_of_cover _ _ _ _ _ (scover0_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold caseB0 sout0_B_0 sout0_B_1 sout0_B_2; (try dsimp only)
      rw [PhiS0_castSucc V c t, PhiS0_pos V c _ _ hz]
      iintro ⟨⟨HS0, HS1, HS2, HR⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        isplitl [HS2]
        · unfold owns; iexists _; isplitr
          swap; · iexact HS2
          ipureintro; exact View.read_writes_of_cover _ _ _ _ _ (scover0_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the carried buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨HS0, HS1, HS2, HR⟩
  isplitl [HS0]; · iexists _; iexact HS0
  isplitl [HS1]; · iexists _; iexact HS1
  isplitl [HS2]; · iexists _; iexact HS2
  iexact HR

end Cert.Kernel.Hand

end
-- ==== Proof.Kernel.R1Runs.lean ====
/-
  Region 1 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.Kernel.Launch
import proofs.«180055_j73289321939109_2_alg».proof.Proof.Gen.Kernel.Skeleton
import proofs.«180055_j73289321939109_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The key block is the last one": the condition of the write-out branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the key block is not the last one the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
/-- The three carried buffers: the running reference point, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.Kernel.Hand

end
-- ==== Proof.Kernel.R1RunB.lean ====
/-
  Region 1, a point whose key block is neither the first nor the last: the body reads the query block, the key
  block and the three carried buffers, and leaves the carried buffers at the folded values; the output window's
  buffer is not touched.
-/
import proofs.«180055_j73289321939109_2_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R1RunA.lean ====
/-
  Region 1, a point whose key block is the first one: the body first overwrites the three carried buffers whole
  (the initial reference point, a zero denominator, a zero numerator), so it needs nothing of what they held; it
  then folds the key block in as at every point. The output window's buffer is not touched.
-/
import proofs.«180055_j73289321939109_2_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R1RunC.lean ====
/-
  Region 1, a point whose key block is the last one: after folding the key block into the carried buffers the body
  divides the running numerator by the running denominator, cuts the quotient off below at zero and stores it into the
  output window's buffer, whole.
-/
import proofs.«180055_j73289321939109_2_alg».proof.Proof.Kernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.Kernel.Hand

end
-- ==== Proof.Kernel.R1Frame.lean ====
/-
  Region 1: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

/-- The class invariant with the three carried buffers taken out as owned memrefs. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 (F := F) c) := by
  unfold Pipeline.ΦA
  rw [Pipeline.scopedRest_split_of_list spec1 c [cc1_scratch0, cc1_scratch1, cc1_scratch2] (by decide) (by decide)]
  simp only [scM1_0, scM1_1, scM1_2, owns_whole, bigSepL, Rest1]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the four buffers -/

/-- One staging buffer of the output window, through which its contents are stated. -/
abbrev VO1_2 : View sig .tc .vmem S1024x1024 .bf16 := (Memref.whole cc1_stg2_0 : Memref sig .tc .vmem S1024x1024 .bf16).view

theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1.Idx) :
    ∃ pc ∈ (kernelRun1_A (F := F) c i arg2 harg2 arg3 harg3 arg4 harg4 arg5 harg5 arg6 harg6 arg7 harg7 hc0 hc1 x0 x1).2.1, y ∈ pc.1.set :=
  View.cover_of_tiledL (kernelRun1_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1 .f32 :=
  VS1_0.read (Elt F) (VS1_0.writes (Elt F) VS1_0.junk (kernelRun1_A (F := F) c i arg2 harg2 arg3 harg3 arg4 harg4 arg5 harg5 arg6 harg6 arg7 harg7 hc0 hc1 x0 x1).2.1)

theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1.Idx) :
    ∃ pc ∈ (kernelRun1_A (F := F) c i arg2 harg2 arg3 harg3 arg4 harg4 arg5 harg5 arg6 harg6 arg7 harg7 hc0 hc1 x0 x1).2.2.1, y ∈ pc.1.set :=
  View.cover_of_tiledL (kernelRun1_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1 .f32 :=
  VS1_1.read (Elt F) (VS1_1.writes (Elt F) VS1_1.junk (kernelRun1_A (F := F) c i arg2 harg2 arg3 harg3 arg4 harg4 arg5 harg5 arg6 harg6 arg7 harg7 hc0 hc1 x0 x1).2.2.1)

theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1024.Idx) :
    ∃ pc ∈ (kernelRun1_A (F := F) c i arg2 harg2 arg3 harg3 arg4 harg4 arg5 harg5 arg6 harg6 arg7 harg7 hc0 hc1 x0 x1).2.2.2.1, y ∈ pc.1.set :=
  View.cover_of_tiledL (kernelRun1_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1024 .f32 :=
  VS1_2.read (Elt F) (VS1_2.writes (Elt F) VS1_2.junk (kernelRun1_A (F := F) c i arg2 harg2 arg3 harg3 arg4 harg4 arg5 harg5 arg6 harg6 arg7 harg7 hc0 hc1 x0 x1).2.2.2.1)

/-- The output window's buffer after the case (idle here: a placeholder nothing consults). -/
def out1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1024 .bf16 :=
  VO1_2.read (Elt F) (VO1_2.writes (Elt F) VO1_2.junk (kernelRun1_A (F := F) c i arg2 harg2 arg3 harg3 arg4 harg4 arg5 harg5 arg6 harg6 arg7 harg7 hc0 hc1 x0 x1).1)

theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_B (F := F) c i arg2 harg2 arg3 harg3 arg4 harg4 arg5 harg5 arg6 harg6 arg7 harg7 hc0 hc1 x0 x1 xs0 xs1 xs2).2.1, y ∈ pc.1.set :=
  View.cover_of_tiledL (kernelRun1_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B (F := F) c i arg2 harg2 arg3 harg3 arg4 harg4 arg5 harg5 arg6 harg6 arg7 harg7 hc0 hc1 x0 x1 xs0 xs1 xs2).2.1)

theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_B (F := F) c i arg2 harg2 arg3 harg3 arg4 harg4 arg5 harg5 arg6 harg6 arg7 harg7 hc0 hc1 x0 x1 xs0 xs1 xs2).2.2.1, y ∈ pc.1.set :=
  View.cover_of_tiledL (kernelRun1_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B (F := F) c i arg2 harg2 arg3 harg3 arg4 harg4 arg5 harg5 arg6 harg6 arg7 harg7 hc0 hc1 x0 x1 xs0 xs1 xs2).2.2.1)

theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_B (F := F) c i arg2 harg2 arg3 harg3 arg4 harg4 arg5 harg5 arg6 harg6 arg7 harg7 hc0 hc1 x0 x1 xs0 xs1 xs2).2.2.2.1, y ∈ pc.1.set :=
  View.cover_of_tiledL (kernelRun1_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO1_2.read (Elt F) (VO1_2.writes (Elt F) VO1_2.junk (kernelRun1_B (F := F) c i arg2 harg2 arg3 harg3 arg4 harg4 arg5 harg5 arg6 harg6 arg7 harg7 hc0 hc1 x0 x1 xs0 xs1 xs2).1)

theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_C (F := F) c i arg2 harg2 arg3 harg3 arg4 harg4 arg5 harg5 arg6 harg6 arg7 harg7 hc0 hc1 x0 x1 xs0 xs1 xs2).2.1, y ∈ pc.1.set :=
  View.cover_of_tiledL (kernelRun1_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C (F := F) c i arg2 harg2 arg3 harg3 arg4 harg4 arg5 harg5 arg6 harg6 arg7 harg7 hc0 hc1 x0 x1 xs0 xs1 xs2).2.1)

theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_C (F := F) c i arg2 harg2 arg3 harg3 arg4 harg4 arg5 harg5 arg6 harg6 arg7 harg7 hc0 hc1 x0 x1 xs0 xs1 xs2).2.2.1, y ∈ pc.1.set :=
  View.cover_of_tiledL (kernelRun1_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C (F := F) c i arg2 harg2 arg3 harg3 arg4 harg4 arg5 harg5 arg6 harg6 arg7 harg7 hc0 hc1 x0 x1 xs0 xs1 xs2).2.2.1)

theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_C (F := F) c i arg2 harg2 arg3 harg3 arg4 harg4 arg5 harg5 arg6 harg6 arg7 harg7 hc0 hc1 x0 x1 xs0 xs1 xs2).2.2.2.1, y ∈ pc.1.set :=
  View.cover_of_tiledL (kernelRun1_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C (F := F) c i arg2 harg2 arg3 harg3 arg4 harg4 arg5 harg5 arg6 harg6 arg7 harg7 hc0 hc1 x0 x1 xs0 xs1 xs2).2.2.2.1)

theorem cover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_C (F := F) c i arg2 harg2 arg3 harg3 arg4 harg4 arg5 harg5 arg6 harg6 arg7 harg7 hc0 hc1 x0 x1 xs0 xs1 xs2).1, y ∈ pc.1.set :=
  View.cover_of_tiledL (kernelRun1_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO1_2.read (Elt F) (VO1_2.writes (Elt F) VO1_2.junk (kernelRun1_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out1 : Type := Vec F S1024x1024 .bf16 × Vec F S1024x1 .f32 × Vec F S1024x1 .f32 × Vec F S1024x1024 .f32

/-- The four buffers after a point of case A. -/
def caseA1 (c : Dev nD) (t : Fin cfg1.N) (h0 : t.val % 8 = 0) (h1 : ¬t.val % 8 = 7) : Out1 (F := F) :=
  (out1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t))

/-- The four buffers after a point of case B. -/
def caseB1 (c : Dev nD) (t : Fin cfg1.N) (h0 : ¬t.val % 8 = 0) (h1 : ¬t.val % 8 = 7) (prev : Out1 (F := F)) : Out1 (F := F) :=
  (out1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2)

/-- The four buffers after a point of case C. -/
def caseC1 (c : Dev nD) (t : Fin cfg1.N) (h0 : ¬t.val % 8 = 0) (h1 : t.val % 8 = 7) (prev : Out1 (F := F)) : Out1 (F := F) :=
  (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2)

/-- The recursion over the grid: a first key block starts afresh, the others continue from the point before. -/
def outsAt1 (c : Dev nD) : (n : ℕ) → n < cfg1.N → Out1 (F := F)
  | 0, hn => caseA1 V c ⟨0, hn⟩ (Nat.zero_mod _) (by show ¬ (0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ Rest1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ Rest1 (F := F) c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ Rest1 (F := F) c) := by
  cases n with
  | zero => exact absurd rfl hz
  | succ n => rfl

/-! ## The pipeline's proof data -/

/-- The arrays as the region finds them; each input's buffer at its block; the output's buffer and the invariant by the
    recursion above; the one array behind both input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.Kernel.R1Body.lean ====
/-
  Region 1: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.Kernel.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold caseA1 sout1_A_0 sout1_A_1 sout1_A_2; (try dsimp only)
      by_cases hz : t.val = 0
      · rw [PhiS1_castSucc V c t, PhiS1_zero V c _ _ hz, PhiA1_eq]
        iintro ⟨⟨HS0, HS1, HS2, HR⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover1_A_0 c _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _)
          iexact HR
        isplitl [Ho]; · iexact Ho
        isplitl [H0]; · iexact H0
        isplitl [H1]; · iexact H1
        iexists _; iexact H2
      · rw [PhiS1_castSucc V c t, PhiS1_pos V c _ _ hz]
        iintro ⟨⟨HS0, HS1, HS2, HR⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover1_A_0 c _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold caseC1 out1_C_2 sout1_C_0 sout1_C_1 sout1_C_2; (try dsimp only)
      rw [PhiS1_castSucc V c t, PhiS1_pos V c _ _ hz]
      iintro ⟨⟨HS0, HS1, HS2, HR⟩, Ho, ⟨%d0, H0⟩, ⟨%d1, H1⟩, ⟨%d2, H2⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_C_0 c _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold caseB1 sout1_B_0 sout1_B_1 sout1_B_2; (try dsimp only)
      rw [PhiS1_castSucc V c t, PhiS1_pos V c _ _ hz]
      iintro ⟨⟨HS0, HS1, HS2, HR⟩, Ho, ⟨%d0, H0⟩, ⟨%d1, H1⟩, ⟨%d2, H2⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨HS0, HS1, HS2, HR⟩
  isplitl [HS0]; · iexists _; iexact HS0
  isplitl [HS1]; · iexists _; iexact HS1
  isplitl [HS2]; · iexists _; iexact HS2
  iexact HR

end Cert.Kernel.Hand

end
-- ==== Proof.Kernel.R2Runs.lean ====
/-
  Region 2 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.Kernel.Launch
import proofs.«180055_j73289321939109_2_alg».proof.Proof.Gen.Kernel.Skeleton
import proofs.«180055_j73289321939109_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "The key block is the last one": the condition of the write-out branch. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the key block is not the last one the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The memrefs the body is called with -/

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
/-- The three carried buffers: the running reference point, the running denominator, the running numerator. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
abbrev VS2_0 : View sig .tc .vmem S1024x1 .f32 := scM2_0.view
abbrev VS2_1 : View sig .tc .vmem S1024x1 .f32 := scM2_1.view
abbrev VS2_2 : View sig .tc .vmem S1024x1024 .f32 := scM2_2.view

end Cert.Kernel.Hand

end
-- ==== Proof.Kernel.R2RunB.lean ====
/-
  Region 2, a point whose key block is neither the first nor the last: the body reads the query block, the key
  block and the three carried buffers, and leaves the carried buffers at the folded values; the output window's
  buffer is not touched.
-/
import proofs.«180055_j73289321939109_2_alg».proof.Proof.Kernel.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun2_B (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R2RunA.lean ====
/-
  Region 2, a point whose key block is the first one: the body first overwrites the three carried buffers whole
  (the initial reference point, a zero denominator, a zero numerator), so it needs nothing of what they held; it
  then folds the key block in as at every point. The output window's buffer is not touched.
-/
import proofs.«180055_j73289321939109_2_alg».proof.Proof.Kernel.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun2_A (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.Kernel.Hand

end
-- ==== Proof.Kernel.R2RunC.lean ====
/-
  Region 2, a point whose key block is the last one: after folding the key block into the carried buffers the body
  divides the running numerator by the running denominator, cuts the quotient off below at zero and stores it into the
  output window's buffer, whole.
-/
import proofs.«180055_j73289321939109_2_alg».proof.Proof.Kernel.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun2_C (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.Kernel.Hand

end
-- ==== Proof.Kernel.R2Frame.lean ====
/-
  Region 2: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.Kernel.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest2 (c : Dev nD) : sProp 𝕄 :=
  iprop(Pipeline.scopedRestBut (Ix := Unit) (Name := ℕ) (U := UR sig nD τ) (Lvl := ℕ) (Val := Elt F) spec2 c [cc2_scratch0, cc2_scratch1, cc2_scratch2] ∗ ∃ r, prngReg c r)

/-- The class invariant with the three carried buffers taken out as owned memrefs. -/
theorem PhiA2_eq (c : Dev nD) :
    (Pipeline.ΦA spec2 c : sProp 𝕄)
      = iprop((∃ d, owns (c : Thread nD τ) scM2_0 fullShare d) ∗ (∃ d, owns (c : Thread nD τ) scM2_1 fullShare d) ∗ (∃ d, owns (c : Thread nD τ) scM2_2 fullShare d) ∗ Rest2 (F := F) c) := by
  unfold Pipeline.ΦA
  rw [Pipeline.scopedRest_split_of_list spec2 c [cc2_scratch0, cc2_scratch1, cc2_scratch2] (by decide) (by decide)]
  simp only [scM2_0, scM2_1, scM2_2, owns_whole, bigSepL, Rest2]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the four buffers -/

/-- One staging buffer of the output window, through which its contents are stated. -/
abbrev VO2_2 : View sig .tc .vmem S1024x1024 .f32 := (Memref.whole cc2_stg2_0 : Memref sig .tc .vmem S1024x1024 .f32).view

theorem scover2_A_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1.Idx) :
    ∃ pc ∈ (kernelRun2_A (F := F) c i arg2 harg2 arg3 harg3 arg4 harg4 arg5 harg5 arg6 harg6 arg7 harg7 hc0 hc1 x0 x1).2.1, y ∈ pc.1.set :=
  View.cover_of_tiledL (kernelRun2_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout2_A_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1 .f32 :=
  VS2_0.read (Elt F) (VS2_0.writes (Elt F) VS2_0.junk (kernelRun2_A (F := F) c i arg2 harg2 arg3 harg3 arg4 harg4 arg5 harg5 arg6 harg6 arg7 harg7 hc0 hc1 x0 x1).2.1)

theorem scover2_A_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1.Idx) :
    ∃ pc ∈ (kernelRun2_A (F := F) c i arg2 harg2 arg3 harg3 arg4 harg4 arg5 harg5 arg6 harg6 arg7 harg7 hc0 hc1 x0 x1).2.2.1, y ∈ pc.1.set :=
  View.cover_of_tiledL (kernelRun2_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout2_A_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1 .f32 :=
  VS2_1.read (Elt F) (VS2_1.writes (Elt F) VS2_1.junk (kernelRun2_A (F := F) c i arg2 harg2 arg3 harg3 arg4 harg4 arg5 harg5 arg6 harg6 arg7 harg7 hc0 hc1 x0 x1).2.2.1)

theorem scover2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1024.Idx) :
    ∃ pc ∈ (kernelRun2_A (F := F) c i arg2 harg2 arg3 harg3 arg4 harg4 arg5 harg5 arg6 harg6 arg7 harg7 hc0 hc1 x0 x1).2.2.2.1, y ∈ pc.1.set :=
  View.cover_of_tiledL (kernelRun2_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1024 .f32 :=
  VS2_2.read (Elt F) (VS2_2.writes (Elt F) VS2_2.junk (kernelRun2_A (F := F) c i arg2 harg2 arg3 harg3 arg4 harg4 arg5 harg5 arg6 harg6 arg7 harg7 hc0 hc1 x0 x1).2.2.2.1)

/-- The output window's buffer after the case (idle here: a placeholder nothing consults). -/
def out2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1024 .f32 :=
  VO2_2.read (Elt F) (VO2_2.writes (Elt F) VO2_2.junk (kernelRun2_A (F := F) c i arg2 harg2 arg3 harg3 arg4 harg4 arg5 harg5 arg6 harg6 arg7 harg7 hc0 hc1 x0 x1).1)

theorem scover2_B_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_B (F := F) c i arg2 harg2 arg3 harg3 arg4 harg4 arg5 harg5 arg6 harg6 arg7 harg7 hc0 hc1 x0 x1 xs0 xs1 xs2).2.1, y ∈ pc.1.set :=
  View.cover_of_tiledL (kernelRun2_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout2_B_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_B (F := F) c i arg2 harg2 arg3 harg3 arg4 harg4 arg5 harg5 arg6 harg6 arg7 harg7 hc0 hc1 x0 x1 xs0 xs1 xs2).2.1)

theorem scover2_B_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_B (F := F) c i arg2 harg2 arg3 harg3 arg4 harg4 arg5 harg5 arg6 harg6 arg7 harg7 hc0 hc1 x0 x1 xs0 xs1 xs2).2.2.1, y ∈ pc.1.set :=
  View.cover_of_tiledL (kernelRun2_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout2_B_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_B (F := F) c i arg2 harg2 arg3 harg3 arg4 harg4 arg5 harg5 arg6 harg6 arg7 harg7 hc0 hc1 x0 x1 xs0 xs1 xs2).2.2.1)

theorem scover2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_B (F := F) c i arg2 harg2 arg3 harg3 arg4 harg4 arg5 harg5 arg6 harg6 arg7 harg7 hc0 hc1 x0 x1 xs0 xs1 xs2).2.2.2.1, y ∈ pc.1.set :=
  View.cover_of_tiledL (kernelRun2_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VO2_2.read (Elt F) (VO2_2.writes (Elt F) VO2_2.junk (kernelRun2_B (F := F) c i arg2 harg2 arg3 harg3 arg4 harg4 arg5 harg5 arg6 harg6 arg7 harg7 hc0 hc1 x0 x1 xs0 xs1 xs2).1)

theorem scover2_C_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_C (F := F) c i arg2 harg2 arg3 harg3 arg4 harg4 arg5 harg5 arg6 harg6 arg7 harg7 hc0 hc1 x0 x1 xs0 xs1 xs2).2.1, y ∈ pc.1.set :=
  View.cover_of_tiledL (kernelRun2_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout2_C_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_C (F := F) c i arg2 harg2 arg3 harg3 arg4 harg4 arg5 harg5 arg6 harg6 arg7 harg7 hc0 hc1 x0 x1 xs0 xs1 xs2).2.1)

theorem scover2_C_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_C (F := F) c i arg2 harg2 arg3 harg3 arg4 harg4 arg5 harg5 arg6 harg6 arg7 harg7 hc0 hc1 x0 x1 xs0 xs1 xs2).2.2.1, y ∈ pc.1.set :=
  View.cover_of_tiledL (kernelRun2_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout2_C_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_C (F := F) c i arg2 harg2 arg3 harg3 arg4 harg4 arg5 harg5 arg6 harg6 arg7 harg7 hc0 hc1 x0 x1 xs0 xs1 xs2).2.2.1)

theorem scover2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_C (F := F) c i arg2 harg2 arg3 harg3 arg4 harg4 arg5 harg5 arg6 harg6 arg7 harg7 hc0 hc1 x0 x1 xs0 xs1 xs2).2.2.2.1, y ∈ pc.1.set :=
  View.cover_of_tiledL (kernelRun2_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_C (F := F) c i arg2 harg2 arg3 harg3 arg4 harg4 arg5 harg5 arg6 harg6 arg7 harg7 hc0 hc1 x0 x1 xs0 xs1 xs2).2.2.2.1)

theorem cover2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_C (F := F) c i arg2 harg2 arg3 harg3 arg4 harg4 arg5 harg5 arg6 harg6 arg7 harg7 hc0 hc1 x0 x1 xs0 xs1 xs2).1, y ∈ pc.1.set :=
  View.cover_of_tiledL (kernelRun2_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VO2_2.read (Elt F) (VO2_2.writes (Elt F) VO2_2.junk (kernelRun2_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out2 : Type := Vec F S1024x1024 .f32 × Vec F S1024x1 .f32 × Vec F S1024x1 .f32 × Vec F S1024x1024 .f32

/-- The four buffers after a point of case A. -/
def caseA2 (c : Dev nD) (t : Fin cfg2.N) (h0 : t.val % 8 = 0) (h1 : ¬t.val % 8 = 7) : Out2 (F := F) :=
  (out2_A_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t))

/-- The four buffers after a point of case B. -/
def caseB2 (c : Dev nD) (t : Fin cfg2.N) (h0 : ¬t.val % 8 = 0) (h1 : ¬t.val % 8 = 7) (prev : Out2 (F := F)) : Out2 (F := F) :=
  (out2_B_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2)

/-- The four buffers after a point of case C. -/
def caseC2 (c : Dev nD) (t : Fin cfg2.N) (h0 : ¬t.val % 8 = 0) (h1 : t.val % 8 = 7) (prev : Out2 (F := F)) : Out2 (F := F) :=
  (out2_C_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2)

/-- The recursion over the grid: a first key block starts afresh, the others continue from the point before. -/
def outsAt2 (c : Dev nD) : (n : ℕ) → n < cfg2.N → Out2 (F := F)
  | 0, hn => caseA2 V c ⟨0, hn⟩ (Nat.zero_mod _) (by show ¬ (0 % 8 = 7); decide)
  | n + 1, hn =>
    if h0 : (n + 1) % 8 = 0 then
      if h1 : (n + 1) % 8 = 7 then False.elim (by omega)
      else caseA2 V c ⟨n + 1, hn⟩ h0 h1
    else
      if h1 : (n + 1) % 8 = 7 then caseC2 V c ⟨n + 1, hn⟩ h0 h1 (outsAt2 c n (Nat.lt_of_succ_lt hn))
      else caseB2 V c ⟨n + 1, hn⟩ h0 h1 (outsAt2 c n (Nat.lt_of_succ_lt hn))

theorem outsAt2_A (c : Dev nD) (t : Fin cfg2.N) (h0 : t.val % 8 = 0) (h1 : ¬t.val % 8 = 7) :
    outsAt2 V c t.val t.isLt = caseA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = caseB2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = caseC2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS2 (c : Dev nD) : (n : ℕ) → n ≤ cfg2.N → sProp 𝕄
  | 0, _ => Pipeline.ΦA spec2 c
  | n + 1, hn => iprop(owns (c : Thread nD τ) scM2_0 fullShare (outsAt2 V c n hn).2.1 ∗ owns (c : Thread nD τ) scM2_1 fullShare (outsAt2 V c n hn).2.2.1
      ∗ owns (c : Thread nD τ) scM2_2 fullShare (outsAt2 V c n hn).2.2.2 ∗ Rest2 (F := F) c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (outsAt2 V c n hn).2.1 ∗ owns (c : Thread nD τ) scM2_1 fullShare (outsAt2 V c n hn).2.2.1
      ∗ owns (c : Thread nD τ) scM2_2 fullShare (outsAt2 V c n hn).2.2.2 ∗ Rest2 (F := F) c) := rfl

theorem PhiS2_pos (c : Dev nD) (n : ℕ) (h : n ≤ cfg2.N) (hz : n ≠ 0) :
    PhiS2 V c n h = iprop(owns (c : Thread nD τ) scM2_0 fullShare (outsAt2 V c (n - 1) (by omega)).2.1 ∗ owns (c : Thread nD τ) scM2_1 fullShare (outsAt2 V c (n - 1) (by omega)).2.2.1
      ∗ owns (c : Thread nD τ) scM2_2 fullShare (outsAt2 V c (n - 1) (by omega)).2.2.2 ∗ Rest2 (F := F) c) := by
  cases n with
  | zero => exact absurd rfl hz
  | succ n => rfl

/-! ## The pipeline's proof data -/

/-- The arrays as the region finds them; each input's buffer at its block; the output's buffer and the invariant by the
    recursion above; the one array behind both input windows held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Hand

end
-- ==== Proof.Kernel.R2Body.lean ====
/-
  Region 2: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.Kernel.R2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_A V c t h0 h1]
      unfold caseA2 sout2_A_0 sout2_A_1 sout2_A_2; (try dsimp only)
      by_cases hz : t.val = 0
      · rw [PhiS2_castSucc V c t, PhiS2_zero V c _ _ hz, PhiA2_eq]
        iintro ⟨⟨HS0, HS1, HS2, HR⟩, Ho, ⟨%d0, H0⟩, ⟨%d1, H1⟩, ⟨%d2, H2⟩⟩
        iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover2_A_0 c _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _)
          iexact HR
        isplitl [Ho]; · iexact Ho
        isplitl [H0]; · iexact H0
        isplitl [H1]; · iexact H1
        iexists _; iexact H2
      · rw [PhiS2_castSucc V c t, PhiS2_pos V c _ _ hz]
        iintro ⟨⟨HS0, HS1, HS2, HR⟩, Ho, ⟨%d0, H0⟩, ⟨%d1, H1⟩, ⟨%d2, H2⟩⟩
        iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover2_A_0 c _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold caseC2 out2_C_2 sout2_C_0 sout2_C_1 sout2_C_2; (try dsimp only)
      rw [PhiS2_castSucc V c t, PhiS2_pos V c _ _ hz]
      iintro ⟨⟨HS0, HS1, HS2, HR⟩, Ho, ⟨%d0, H0⟩, ⟨%d1, H1⟩, ⟨%d2, H2⟩⟩
      iapply ((kernelRun2_C c (grid2.coords t) _ _ _ _ _ _ _ _ _ _ _ _ (fun h => h0 ((hcond2_0 t).mp h)) ((hcond2_1 t).mpr h1) (iblk2 V c 0 t) (iblk2 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover2_C_0 c _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _)
        isplitl [HS2]
        · unfold owns; iexists _; isplitr
          swap; · iexact HS2
          ipureintro; exact View.read_writes_of_cover _ _ _ _ _ (scover2_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold caseB2 sout2_B_0 sout2_B_1 sout2_B_2; (try dsimp only)
      rw [PhiS2_castSucc V c t, PhiS2_pos V c _ _ hz]
      iintro ⟨⟨HS0, HS1, HS2, HR⟩, Ho, ⟨%d0, H0⟩, ⟨%d1, H1⟩, ⟨%d2, H2⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _)
        isplitl [HS2]
        · unfold owns; iexists _; isplitr
          swap; · iexact HS2
          ipureintro; exact View.read_writes_of_cover _ _ _ _ _ (scover2_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the carried buffers' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨HS0, HS1, HS2, HR⟩
  isplitl [HS0]; · iexists _; iexact HS0
  isplitl [HS1]; · iexists _; iexact HS1
  isplitl [HS2]; · iexists _; iexact HS2
  iexact HR

end Cert.Kernel.Hand

end
-- ==== Proof.Kernel.Run.lean ====
/-
  The whole program as a chain of segments: one host operation (the entry format change of the input table), then the
  three attention layers as pipelined kernel regions, each reading the table the previous one wrote. The contents of the
  TensorCore's unscoped buffers at each segment boundary are a fold from the launch memory: a host operation's result
  written, then each region's output array replaced by what the region's write-backs leave. Each region's windows are two
  input windows on ONE array (the query block and the key block of the same table) and one output window: the input
  array's full share is dealt to the two windows half and half at entry and recombined at exit.
  The run: every weakly fair execution terminates, the result buffer ends at the last boundary's contents and the
  argument as launched.
-/
import proofs.«180055_j73289321939109_2_alg».proof.Proof.Kernel.R0Body
import proofs.«180055_j73289321939109_2_alg».proof.Proof.Kernel.R1Body
import proofs.«180055_j73289321939109_2_alg».proof.Proof.Kernel.R2Body
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### Region 0: the one array behind both input windows, dealt half and half -/

/-- ENTRY. The two buffers behind region 0's three windows, whole at the full share, make the pipeline's arrays: the
    input array's full share splits into the two halves its two windows hold; the output array goes whole. -/
theorem hsplit0 (V : (c : Dev nD) → (b : Ref sig .tc) → Buf (Elt F) ((c : Thread nD τ).loc b)) (c : Dev nD) :
    (Pipeline.arrBufs spec0 c (V c) : sProp 𝕄) ⊢ (dat0 V c).arrays ((dat0 V c).arrAt · 0) := by
  have himg : Finset.univ.image (Pipeline.arrRef spec0) = {main_v0, main_v1} := by decide
  unfold Pipeline.arrBufs Dat.arrays
  rw [himg, BI.bigSep_insert (by decide), BI.bigSep_singleton, bigSep_W0]
  simp only [(arr_whole0 0).set_eq_univ, (arr_whole0 1).set_eq_univ, (arr_whole0 2).set_eq_univ]
  show iprop((((c : Thread nD τ).loc main_v0) ↦{fullShare} V c main_v0) ∗ (((c : Thread nD τ).loc main_v1) ↦{fullShare} V c main_v1)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin0 (V : (c : Dev nD) → (b : Ref sig .tc) → Buf (Elt F) ((c : Thread nD τ).loc b)) (c : Dev nD)
    (V' : (b : Ref sig .tc) → Buf (Elt F) ((c : Thread nD τ).loc b))
    (hout : V' main_v1 = (dat0 V c).arrAt 2 cfg0.N) (hrest : ∀ b, b ≠ main_v1 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  have himg : Finset.univ.image (Pipeline.arrRef spec0) = {main_v0, main_v1} := by decide
  rw [Pipeline.unscopedBufs_split₀ cfgs 0 winFacts₀0.arr_unscoped c V']
  refine sep_mono ?_ (Entails.of_eq ?_)
  · unfold Pipeline.arrBufs Dat.arrays
    rw [show Finset.univ.image (Pipeline.arrRef (cfgs 0).spec) = Finset.univ.image (Pipeline.arrRef spec0) from rfl, himg,
      BI.bigSep_insert (by decide), BI.bigSep_singleton, bigSep_W0]
    simp only [(arr_whole0 0).set_eq_univ, (arr_whole0 1).set_eq_univ, (arr_whole0 2).set_eq_univ]
    rw [(dat0 V c).arrAt_in 0 rfl, (dat0 V c).arrAt_in 1 rfl, A_eq0, A_eq0, hrest main_v0 (by decide), hout]
    show iprop((((c : Thread nD τ).loc main_v0) ↦{fullShare.left} V c main_v0) ∗ (((c : Thread nD τ).loc main_v0) ↦{fullShare.right} V c main_v0)
      ∗ (((c : Thread nD τ).loc main_v1) ↦{fullShare} (dat0 V c).arrAt 2 cfg0.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v1 ∈ Finset.univ.image (Pipeline.arrRef (cfgs 0).spec))))]

/-! ### Region 1: the one array behind both input windows, dealt half and half -/

/-- ENTRY. The two buffers behind region 1's three windows, whole at the full share, make the pipeline's arrays: the
    input array's full share splits into the two halves its two windows hold; the output array goes whole. -/
theorem hsplit1 (V : (c : Dev nD) → (b : Ref sig .tc) → Buf (Elt F) ((c : Thread nD τ).loc b)) (c : Dev nD) :
    (Pipeline.arrBufs spec1 c (V c) : sProp 𝕄) ⊢ (dat1 V c).arrays ((dat1 V c).arrAt · 0) := by
  have himg : Finset.univ.image (Pipeline.arrRef spec1) = {main_v1, main_v2} := by decide
  unfold Pipeline.arrBufs Dat.arrays
  rw [himg, BI.bigSep_insert (by decide), BI.bigSep_singleton, bigSep_W1]
  simp only [(arr_whole1 0).set_eq_univ, (arr_whole1 1).set_eq_univ, (arr_whole1 2).set_eq_univ]
  show iprop((((c : Thread nD τ).loc main_v1) ↦{fullShare} V c main_v1) ∗ (((c : Thread nD τ).loc main_v2) ↦{fullShare} V c main_v2)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin1 (V : (c : Dev nD) → (b : Ref sig .tc) → Buf (Elt F) ((c : Thread nD τ).loc b)) (c : Dev nD)
    (V' : (b : Ref sig .tc) → Buf (Elt F) ((c : Thread nD τ).loc b))
    (hout : V' main_v2 = (dat1 V c).arrAt 2 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have himg : Finset.univ.image (Pipeline.arrRef spec1) = {main_v1, main_v2} := by decide
  rw [Pipeline.unscopedBufs_split₀ cfgs 1 winFacts₀1.arr_unscoped c V']
  refine sep_mono ?_ (Entails.of_eq ?_)
  · unfold Pipeline.arrBufs Dat.arrays
    rw [show Finset.univ.image (Pipeline.arrRef (cfgs 1).spec) = Finset.univ.image (Pipeline.arrRef spec1) from rfl, himg,
      BI.bigSep_insert (by decide), BI.bigSep_singleton, bigSep_W1]
    simp only [(arr_whole1 0).set_eq_univ, (arr_whole1 1).set_eq_univ, (arr_whole1 2).set_eq_univ]
    rw [(dat1 V c).arrAt_in 0 rfl, (dat1 V c).arrAt_in 1 rfl, A_eq1, A_eq1, hrest main_v1 (by decide), hout]
    show iprop((((c : Thread nD τ).loc main_v1) ↦{fullShare.left} V c main_v1) ∗ (((c : Thread nD τ).loc main_v1) ↦{fullShare.right} V c main_v1)
      ∗ (((c : Thread nD τ).loc main_v2) ↦{fullShare} (dat1 V c).arrAt 2 cfg1.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v2 ∈ Finset.univ.image (Pipeline.arrRef (cfgs 1).spec))))]

/-! ### Region 2: the one array behind both input windows, dealt half and half -/

/-- ENTRY. The two buffers behind region 2's three windows, whole at the full share, make the pipeline's arrays: the
    input array's full share splits into the two halves its two windows hold; the output array goes whole. -/
theorem hsplit2 (V : (c : Dev nD) → (b : Ref sig .tc) → Buf (Elt F) ((c : Thread nD τ).loc b)) (c : Dev nD) :
    (Pipeline.arrBufs spec2 c (V c) : sProp 𝕄) ⊢ (dat2 V c).arrays ((dat2 V c).arrAt · 0) := by
  have himg : Finset.univ.image (Pipeline.arrRef spec2) = {main_v2, main_v3} := by decide
  unfold Pipeline.arrBufs Dat.arrays
  rw [himg, BI.bigSep_insert (by decide), BI.bigSep_singleton, bigSep_W2]
  simp only [(arr_whole2 0).set_eq_univ, (arr_whole2 1).set_eq_univ, (arr_whole2 2).set_eq_univ]
  show iprop((((c : Thread nD τ).loc main_v2) ↦{fullShare} V c main_v2) ∗ (((c : Thread nD τ).loc main_v3) ↦{fullShare} V c main_v3)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin2 (V : (c : Dev nD) → (b : Ref sig .tc) → Buf (Elt F) ((c : Thread nD τ).loc b)) (c : Dev nD)
    (V' : (b : Ref sig .tc) → Buf (Elt F) ((c : Thread nD τ).loc b))
    (hout : V' main_v3 = (dat2 V c).arrAt 2 cfg2.N) (hrest : ∀ b, b ≠ main_v3 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have himg : Finset.univ.image (Pipeline.arrRef spec2) = {main_v2, main_v3} := by decide
  rw [Pipeline.unscopedBufs_split₀ cfgs 2 winFacts₀2.arr_unscoped c V']
  refine sep_mono ?_ (Entails.of_eq ?_)
  · unfold Pipeline.arrBufs Dat.arrays
    rw [show Finset.univ.image (Pipeline.arrRef (cfgs 2).spec) = Finset.univ.image (Pipeline.arrRef spec2) from rfl, himg,
      BI.bigSep_insert (by decide), BI.bigSep_singleton, bigSep_W2]
    simp only [(arr_whole2 0).set_eq_univ, (arr_whole2 1).set_eq_univ, (arr_whole2 2).set_eq_univ]
    rw [(dat2 V c).arrAt_in 0 rfl, (dat2 V c).arrAt_in 1 rfl, A_eq2, A_eq2, hrest main_v2 (by decide), hout]
    show iprop((((c : Thread nD τ).loc main_v2) ↦{fullShare.left} V c main_v2) ∗ (((c : Thread nD τ).loc main_v2) ↦{fullShare.right} V c main_v2)
      ∗ (((c : Thread nD τ).loc main_v3) ↦{fullShare} (dat2 V c).arrAt 2 cfg2.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v3 ∈ Finset.univ.image (Pipeline.arrRef (cfgs 2).spec))))]

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the host operation (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output array at what its write-backs leave. -/
def W2 (c : Dev nD) : Valuation τ sig (Elt F) :=
  Function.update (W1 m c) (Proc.devRef .tc main_v1) ((dat0 (V1 m) c).arrAt 2 cfg0.N)
abbrev V2 : (c : Dev nD) → (b : Ref sig .tc) → Buf (Elt F) ((c : Thread nD τ).loc b) := fun c b => W2 m c b
/-- After region 1. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After region 2. -/
def W4 (c : Dev nD) : Valuation τ sig (Elt F) :=
  Function.update (W3 m c) (Proc.devRef .tc main_v3) ((dat2 (V3 m) c).arrAt 2 cfg2.N)
abbrev V4 : (c : Dev nD) → (b : Ref sig .tc) → Buf (Elt F) ((c : Thread nD τ).loc b) := fun c b => W4 m c b

theorem W2_out (c : Dev nD) : V2 m c main_v1 = (dat0 (V1 m) c).arrAt 2 cfg0.N := by
  show W2 m c (Proc.devRef .tc main_v1) = _; unfold W2; exact Function.update_self ..
theorem W2_rest (c : Dev nD) (b : Ref sig .tc) (hb : b ≠ main_v1) : V2 m c b = V1 m c b := by
  show W2 m c (Proc.devRef .tc b) = _; unfold W2; exact Function.update_of_ne (StableHlo.devRef_ne_of_ne hb) ..
theorem W3_out (c : Dev nD) : V3 m c main_v2 = (dat1 (V2 m) c).arrAt 2 cfg1.N := by
  show W3 m c (Proc.devRef .tc main_v2) = _; unfold W3; exact Function.update_self ..
theorem W3_rest (c : Dev nD) (b : Ref sig .tc) (hb : b ≠ main_v2) : V3 m c b = V2 m c b := by
  show W3 m c (Proc.devRef .tc b) = _; unfold W3; exact Function.update_of_ne (StableHlo.devRef_ne_of_ne hb) ..
theorem W4_out (c : Dev nD) : V4 m c main_v3 = (dat2 (V3 m) c).arrAt 2 cfg2.N := by
  show W4 m c (Proc.devRef .tc main_v3) = _; unfold W4; exact Function.update_self ..
theorem W4_rest (c : Dev nD) (b : Ref sig .tc) (hb : b ≠ main_v3) : V4 m c b = V3 m c b := by
  show W4 m c (Proc.devRef .tc b) = _; unfold W4; exact Function.update_of_ne (StableHlo.devRef_ne_of_ne hb) ..

/-- The argument ends as launched: the host operation writes another buffer, no region writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_rest m c main_arg0 (by decide)
    _ = W2 m c (Proc.devRef .tc main_arg0) := W3_rest m c main_arg0 (by decide)
    _ = W1 m c (Proc.devRef .tc main_arg0) := W2_rest m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_freshH : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 as a segment: entered from every unscoped buffer at the contents before it, left at the contents after
    it; its arrays split out of the unscoped buffers at entry and put back at exit; the generator register into the
    invariant and out; nothing owed; no semaphore of the kernel's own. -/
def reg0 : Pipeline.RegionSeg (pcfgs (F := F)) admH (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((dat0 (V1 m) c).arrays ((dat0 (V1 m) c).arrAt · 0) ∗ Pipeline.unscopedRest (Ix := Unit) (Name := ℕ) (U := UR sig nD τ) (Lvl := ℕ) spec0 c (V1 m c)) := by
      rw [← Pipeline.unscopedBufs_held (Ix := Unit) (Name := ℕ) (U := UR sig nD τ) (Lvl := ℕ) c (W1 m c), Pipeline.unscopedBufs_split₀ cfgs 0 winFacts₀0.arr_unscoped c (V1 m c)]
      exact sep_mono (hsplit0 (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) admH 0).N) ∗ Pipeline.unscopedRest (Ix := Unit) (Name := ℕ) (U := UR sig nD τ) (Lvl := ℕ) spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c)]
      exact hjoin0 (V1 m) c (fun b => W2 m c b) (W2_out m c) (W2_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents after
    it; its arrays split out of the unscoped buffers at entry and put back at exit; the generator register into the
    invariant and out; nothing owed; no semaphore of the kernel's own. -/
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((dat1 (V2 m) c).arrays ((dat1 (V2 m) c).arrAt · 0) ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c), Pipeline.unscopedBufs_split₀ cfgs 1 winFacts₀1.arr_unscoped c (V2 m c)]
      exact sep_mono (hsplit1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) admH 1).N) ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c)]
      exact hjoin1 (V2 m) c (fun b => W3 m c b) (W3_out m c) (W3_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at the contents before it, left at the contents after
    it; its arrays split out of the unscoped buffers at entry and put back at exit; the generator register into the
    invariant and out; nothing owed; no semaphore of the kernel's own. -/
def reg2 : Pipeline.RegionSeg (pcfgs (F := F)) admH (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (StableHlo.held (c : Thread nD τ) (Pipeline.ucRefs τ sig) (W3 m c) : sProp 𝕄)
        ⊢ iprop((dat2 (V3 m) c).arrays ((dat2 (V3 m) c).arrAt · 0) ∗ Pipeline.unscopedRest (Ix := Unit) (Name := ℕ) (U := UR sig nD τ) (Lvl := ℕ) spec2 c (V3 m c)) := by
      rw [← Pipeline.unscopedBufs_held (Ix := Unit) (Name := ℕ) (U := UR sig nD τ) (Lvl := ℕ) c (W3 m c), Pipeline.unscopedBufs_split₀ cfgs 2 winFacts₀2.arr_unscoped c (V3 m c)]
      exact sep_mono (hsplit2 (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · (Pipeline.pin (pcfgs (F := F)) admH 2).N) ∗ Pipeline.unscopedRest (Ix := Unit) (Name := ℕ) (U := UR sig nD τ) (Lvl := ℕ) spec2 c (V3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c)]
      exact hjoin2 (V3 m) c (fun b => W4 m c b) (W4_out m c) (W4_rest m c)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ L lv) :=
  [ .host (hseg hostOps0 hostOps0_sub hostOps0_freshH (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting;
    the result buffer ends at the last boundary's contents and the argument as launched. -/
theorem run : θ_run defs (onTc (τ := τ) (main (F := F))) ⟨m, fun _ => 0, ρ⟩ (fun r => ∀ c : Dev nD,
      r.2.mem ((c.tc : Thread nD τ).loc main_v3) = V4 m c main_v3
      ∧ r.2.mem ((c.tc : Thread nD τ).loc main_arg0) = m ((c.tc : Thread nD τ).loc main_arg0)) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)), (h c _ (mem_uc main_arg0 (by decide))).trans (W4_main_arg0 m c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.Kernel.Hand

end
-- ==== Proof.KernelIdeal.R0Runs.lean ====
/-
  Region 0 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.KernelIdeal.Launch
import proofs.«180055_j73289321939109_2_alg».proof.Proof.Gen.KernelIdeal.Skeleton
import proofs.«180055_j73289321939109_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The key block is the last one": the condition of the write-out branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the key block is not the last one the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
/-- The three carried buffers: the running reference point, the running denominator, the running numerator. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1024 .f32 := scM0_2.view

end Cert.KernelIdeal.Hand

end
-- ==== Proof.KernelIdeal.R0RunB.lean ====
/-
  Region 0, a point whose key block is neither the first nor the last: the body reads the query block, the key
  block and the three carried buffers, and leaves the carried buffers at the folded values; the output window's
  buffer is not touched.
-/
import proofs.«180055_j73289321939109_2_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun0_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R0RunA.lean ====
/-
  Region 0, a point whose key block is the first one: the body first overwrites the three carried buffers whole
  (the initial reference point, a zero denominator, a zero numerator), so it needs nothing of what they held; it
  then folds the key block in as at every point. The output window's buffer is not touched.
-/
import proofs.«180055_j73289321939109_2_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun0_A (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R0RunC.lean ====
/-
  Region 0, a point whose key block is the last one: after folding the key block into the carried buffers the body
  divides the running numerator by the running denominator, cuts the quotient off below at zero and stores it into the
  output window's buffer, whole.
-/
import proofs.«180055_j73289321939109_2_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun0_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.KernelIdeal.Hand

end
-- ==== Proof.KernelIdeal.R0Frame.lean ====
/-
  Region 0: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest0 (c : Dev nD) : sProp 𝕄 :=
  iprop(Pipeline.scopedRestBut (Ix := Unit) (Name := ℕ) (U := UR sig nD τ) (Lvl := ℕ) (Val := Elt F) spec0 c [cc0_scratch0, cc0_scratch1, cc0_scratch2] ∗ ∃ r, prngReg c r)

/-- The class invariant with the three carried buffers taken out as owned memrefs. -/
theorem PhiA0_eq (c : Dev nD) :
    (Pipeline.ΦA spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ Rest0 (F := F) c) := by
  unfold Pipeline.ΦA
  rw [Pipeline.scopedRest_split_of_list spec0 c [cc0_scratch0, cc0_scratch1, cc0_scratch2] (by decide) (by decide)]
  simp only [scM0_0, scM0_1, scM0_2, owns_whole, bigSepL, Rest0]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the four buffers -/

/-- One staging buffer of the output window, through which its contents are stated. -/
abbrev VO0_2 : View sig .tc .vmem S1024x1024 .bf16 := (Memref.whole cc0_stg2_0 : Memref sig .tc .vmem S1024x1024 .bf16).view

theorem scover0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1.Idx) :
    ∃ pc ∈ (kernelRun0_A (F := F) c i arg2 harg2 arg3 harg3 arg4 harg4 arg5 harg5 arg6 harg6 arg7 harg7 hc0 hc1 x0 x1).2.1, y ∈ pc.1.set :=
  View.cover_of_tiledL (kernelRun0_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1 .f32 :=
  VS0_0.read (Elt F) (VS0_0.writes (Elt F) VS0_0.junk (kernelRun0_A (F := F) c i arg2 harg2 arg3 harg3 arg4 harg4 arg5 harg5 arg6 harg6 arg7 harg7 hc0 hc1 x0 x1).2.1)

theorem scover0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1.Idx) :
    ∃ pc ∈ (kernelRun0_A (F := F) c i arg2 harg2 arg3 harg3 arg4 harg4 arg5 harg5 arg6 harg6 arg7 harg7 hc0 hc1 x0 x1).2.2.1, y ∈ pc.1.set :=
  View.cover_of_tiledL (kernelRun0_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1 .f32 :=
  VS0_1.read (Elt F) (VS0_1.writes (Elt F) VS0_1.junk (kernelRun0_A (F := F) c i arg2 harg2 arg3 harg3 arg4 harg4 arg5 harg5 arg6 harg6 arg7 harg7 hc0 hc1 x0 x1).2.2.1)

theorem scover0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) (y : S1024x1024.Idx) :
    ∃ pc ∈ (kernelRun0_A (F := F) c i arg2 harg2 arg3 harg3 arg4 harg4 arg5 harg5 arg6 harg6 arg7 harg7 hc0 hc1 x0 x1).2.2.2.1, y ∈ pc.1.set :=
  View.cover_of_tiledL (kernelRun0_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1024 .f32 :=
  VS0_2.read (Elt F) (VS0_2.writes (Elt F) VS0_2.junk (kernelRun0_A (F := F) c i arg2 harg2 arg3 harg3 arg4 harg4 arg5 harg5 arg6 harg6 arg7 harg7 hc0 hc1 x0 x1).2.2.2.1)

/-- The output window's buffer after the case (idle here: a placeholder nothing consults). -/
def out0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) : Vec F S1024x1024 .bf16 :=
  VO0_2.read (Elt F) (VO0_2.writes (Elt F) VO0_2.junk (kernelRun0_A (F := F) c i arg2 harg2 arg3 harg3 arg4 harg4 arg5 harg5 arg6 harg6 arg7 harg7 hc0 hc1 x0 x1).1)

theorem scover0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_B (F := F) c i arg2 harg2 arg3 harg3 arg4 harg4 arg5 harg5 arg6 harg6 arg7 harg7 hc0 hc1 x0 x1 xs0 xs1 xs2).2.1, y ∈ pc.1.set :=
  View.cover_of_tiledL (kernelRun0_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_B (F := F) c i arg2 harg2 arg3 harg3 arg4 harg4 arg5 harg5 arg6 harg6 arg7 harg7 hc0 hc1 x0 x1 xs0 xs1 xs2).2.1)

theorem scover0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_B (F := F) c i arg2 harg2 arg3 harg3 arg4 harg4 arg5 harg5 arg6 harg6 arg7 harg7 hc0 hc1 x0 x1 xs0 xs1 xs2).2.2.1, y ∈ pc.1.set :=
  View.cover_of_tiledL (kernelRun0_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_B (F := F) c i arg2 harg2 arg3 harg3 arg4 harg4 arg5 harg5 arg6 harg6 arg7 harg7 hc0 hc1 x0 x1 xs0 xs1 xs2).2.2.1)

theorem scover0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_B (F := F) c i arg2 harg2 arg3 harg3 arg4 harg4 arg5 harg5 arg6 harg6 arg7 harg7 hc0 hc1 x0 x1 xs0 xs1 xs2).2.2.2.1, y ∈ pc.1.set :=
  View.cover_of_tiledL (kernelRun0_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO0_2.read (Elt F) (VO0_2.writes (Elt F) VO0_2.junk (kernelRun0_B (F := F) c i arg2 harg2 arg3 harg3 arg4 harg4 arg5 harg5 arg6 harg6 arg7 harg7 hc0 hc1 x0 x1 xs0 xs1 xs2).1)

theorem scover0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_C (F := F) c i arg2 harg2 arg3 harg3 arg4 harg4 arg5 harg5 arg6 harg6 arg7 harg7 hc0 hc1 x0 x1 xs0 xs1 xs2).2.1, y ∈ pc.1.set :=
  View.cover_of_tiledL (kernelRun0_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_C (F := F) c i arg2 harg2 arg3 harg3 arg4 harg4 arg5 harg5 arg6 harg6 arg7 harg7 hc0 hc1 x0 x1 xs0 xs1 xs2).2.1)

theorem scover0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun0_C (F := F) c i arg2 harg2 arg3 harg3 arg4 harg4 arg5 harg5 arg6 harg6 arg7 harg7 hc0 hc1 x0 x1 xs0 xs1 xs2).2.2.1, y ∈ pc.1.set :=
  View.cover_of_tiledL (kernelRun0_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_C (F := F) c i arg2 harg2 arg3 harg3 arg4 harg4 arg5 harg5 arg6 harg6 arg7 harg7 hc0 hc1 x0 x1 xs0 xs1 xs2).2.2.1)

theorem scover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_C (F := F) c i arg2 harg2 arg3 harg3 arg4 harg4 arg5 harg5 arg6 harg6 arg7 harg7 hc0 hc1 x0 x1 xs0 xs1 xs2).2.2.2.1, y ∈ pc.1.set :=
  View.cover_of_tiledL (kernelRun0_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_C (F := F) c i arg2 harg2 arg3 harg3 arg4 harg4 arg5 harg5 arg6 harg6 arg7 harg7 hc0 hc1 x0 x1 xs0 xs1 xs2).2.2.2.1)

theorem cover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun0_C (F := F) c i arg2 harg2 arg3 harg3 arg4 harg4 arg5 harg5 arg6 harg6 arg7 harg7 hc0 hc1 x0 x1 xs0 xs1 xs2).1, y ∈ pc.1.set :=
  View.cover_of_tiledL (kernelRun0_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO0_2.read (Elt F) (VO0_2.writes (Elt F) VO0_2.junk (kernelRun0_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out0 : Type := Vec F S1024x1024 .bf16 × Vec F S1024x1 .f32 × Vec F S1024x1 .f32 × Vec F S1024x1024 .f32

/-- The four buffers after a point of case A. -/
def caseA0 (c : Dev nD) (t : Fin cfg0.N) (h0 : t.val % 8 = 0) (h1 : ¬t.val % 8 = 7) : Out0 (F := F) :=
  (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
   sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t))

/-- The four buffers after a point of case B. -/
def caseB0 (c : Dev nD) (t : Fin cfg0.N) (h0 : ¬t.val % 8 = 0) (h1 : ¬t.val % 8 = 7) (prev : Out0 (F := F)) : Out0 (F := F) :=
  (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2,
   sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2)

/-- The four buffers after a point of case C. -/
def caseC0 (c : Dev nD) (t : Fin cfg0.N) (h0 : ¬t.val % 8 = 0) (h1 : t.val % 8 = 7) (prev : Out0 (F := F)) : Out0 (F := F) :=
  (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2,
   sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2)

/-- The recursion over the grid: a first key block starts afresh, the others continue from the point before. -/
def outsAt0 (c : Dev nD) : (n : ℕ) → n < cfg0.N → Out0 (F := F)
  | 0, hn => caseA0 V c ⟨0, hn⟩ (Nat.zero_mod _) (by show ¬ (0 % 8 = 7); decide)
  | n + 1, hn =>
    if h0 : (n + 1) % 8 = 0 then
      if h1 : (n + 1) % 8 = 7 then False.elim (by omega)
      else caseA0 V c ⟨n + 1, hn⟩ h0 h1
    else
      if h1 : (n + 1) % 8 = 7 then caseC0 V c ⟨n + 1, hn⟩ h0 h1 (outsAt0 c n (Nat.lt_of_succ_lt hn))
      else caseB0 V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = caseA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = caseB0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS0 (c : Dev nD) : (n : ℕ) → n ≤ cfg0.N → sProp 𝕄
  | 0, _ => Pipeline.ΦA spec0 c
  | n + 1, hn => iprop(owns (c : Thread nD τ) scM0_0 fullShare (outsAt0 V c n hn).2.1 ∗ owns (c : Thread nD τ) scM0_1 fullShare (outsAt0 V c n hn).2.2.1
      ∗ owns (c : Thread nD τ) scM0_2 fullShare (outsAt0 V c n hn).2.2.2 ∗ Rest0 (F := F) c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (outsAt0 V c n hn).2.1 ∗ owns (c : Thread nD τ) scM0_1 fullShare (outsAt0 V c n hn).2.2.1
      ∗ owns (c : Thread nD τ) scM0_2 fullShare (outsAt0 V c n hn).2.2.2 ∗ Rest0 (F := F) c) := rfl

theorem PhiS0_pos (c : Dev nD) (n : ℕ) (h : n ≤ cfg0.N) (hz : n ≠ 0) :
    PhiS0 V c n h = iprop(owns (c : Thread nD τ) scM0_0 fullShare (outsAt0 V c (n - 1) (by omega)).2.1 ∗ owns (c : Thread nD τ) scM0_1 fullShare (outsAt0 V c (n - 1) (by omega)).2.2.1
      ∗ owns (c : Thread nD τ) scM0_2 fullShare (outsAt0 V c (n - 1) (by omega)).2.2.2 ∗ Rest0 (F := F) c) := by
  cases n with
  | zero => exact absurd rfl hz
  | succ n => rfl

/-! ## The pipeline's proof data -/

/-- The arrays as the region finds them; each input's buffer at its block; the output's buffer and the invariant by the
    recursion above; the one array behind both input windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KernelIdeal.R0Body.lean ====
/-
  Region 0: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.KernelIdeal.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold caseA0 sout0_A_0 sout0_A_1 sout0_A_2; (try dsimp only)
      by_cases hz : t.val = 0
      · rw [PhiS0_castSucc V c t, PhiS0_zero V c _ _ hz, PhiA0_eq]
        iintro ⟨⟨HS0, HS1, HS2, HR⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact HR
        isplitl [Ho]; · iexact Ho
        isplitl [H0]; · iexact H0
        isplitl [H1]; · iexact H1
        iexists _; iexact H2
      · rw [PhiS0_castSucc V c t, PhiS0_pos V c _ _ hz]
        iintro ⟨⟨HS0, HS1, HS2, HR⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold caseC0 out0_C_2 sout0_C_0 sout0_C_1 sout0_C_2; (try dsimp only)
      rw [PhiS0_castSucc V c t, PhiS0_pos V c _ _ hz]
      iintro ⟨⟨HS0, HS1, HS2, HR⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        isplitl [HS2]
        · unfold owns; iexists _; isplitr
          swap; · iexact HS2
          ipureintro; exact View.read_writes_of_cover _ _ _ _ _ (scover0_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold caseB0 sout0_B_0 sout0_B_1 sout0_B_2; (try dsimp only)
      rw [PhiS0_castSucc V c t, PhiS0_pos V c _ _ hz]
      iintro ⟨⟨HS0, HS1, HS2, HR⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        isplitl [HS2]
        · unfold owns; iexists _; isplitr
          swap; · iexact HS2
          ipureintro; exact View.read_writes_of_cover _ _ _ _ _ (scover0_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the carried buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨HS0, HS1, HS2, HR⟩
  isplitl [HS0]; · iexists _; iexact HS0
  isplitl [HS1]; · iexists _; iexact HS1
  isplitl [HS2]; · iexists _; iexact HS2
  iexact HR

end Cert.KernelIdeal.Hand

end
-- ==== Proof.KernelIdeal.R1Runs.lean ====
/-
  Region 1 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.KernelIdeal.Launch
import proofs.«180055_j73289321939109_2_alg».proof.Proof.Gen.KernelIdeal.Skeleton
import proofs.«180055_j73289321939109_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The key block is the last one": the condition of the write-out branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the key block is not the last one the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
/-- The three carried buffers: the running reference point, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.KernelIdeal.Hand

end
-- ==== Proof.KernelIdeal.R1RunB.lean ====
/-
  Region 1, a point whose key block is neither the first nor the last: the body reads the query block, the key
  block and the three carried buffers, and leaves the carried buffers at the folded values; the output window's
  buffer is not touched.
-/
import proofs.«180055_j73289321939109_2_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R1RunA.lean ====
/-
  Region 1, a point whose key block is the first one: the body first overwrites the three carried buffers whole
  (the initial reference point, a zero denominator, a zero numerator), so it needs nothing of what they held; it
  then folds the key block in as at every point. The output window's buffer is not touched.
-/
import proofs.«180055_j73289321939109_2_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (xi2 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R1RunC.lean ====
/-
  Region 1, a point whose key block is the last one: after folding the key block into the carried buffers the body
  divides the running numerator by the running denominator, cuts the quotient off below at zero and stores it into the
  output window's buffer, whole.
-/
import proofs.«180055_j73289321939109_2_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .bf16)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.KernelIdeal.Hand

end
-- ==== Proof.KernelIdeal.R1Frame.lean ====
/-
  Region 1: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

/-- The class invariant with the three carried buffers taken out as owned memrefs. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 (F := F) c) := by
  unfold Pipeline.ΦA
  rw [Pipeline.scopedRest_split_of_list spec1 c [cc1_scratch0, cc1_scratch1, cc1_scratch2] (by decide) (by decide)]
  simp only [scM1_0, scM1_1, scM1_2, owns_whole, bigSepL, Rest1]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the four buffers -/

/-- One staging buffer of the output window, through which its contents are stated. -/
abbrev VO1_2 : View sig .tc .vmem S1024x1024 .bf16 := (Memref.whole cc1_stg2_0 : Memref sig .tc .vmem S1024x1024 .bf16).view

theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1.Idx) :
    ∃ pc ∈ (kernelRun1_A (F := F) c i arg2 harg2 arg3 harg3 arg4 harg4 arg5 harg5 arg6 harg6 arg7 harg7 hc0 hc1 x0 x1).2.1, y ∈ pc.1.set :=
  View.cover_of_tiledL (kernelRun1_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1 .f32 :=
  VS1_0.read (Elt F) (VS1_0.writes (Elt F) VS1_0.junk (kernelRun1_A (F := F) c i arg2 harg2 arg3 harg3 arg4 harg4 arg5 harg5 arg6 harg6 arg7 harg7 hc0 hc1 x0 x1).2.1)

theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1.Idx) :
    ∃ pc ∈ (kernelRun1_A (F := F) c i arg2 harg2 arg3 harg3 arg4 harg4 arg5 harg5 arg6 harg6 arg7 harg7 hc0 hc1 x0 x1).2.2.1, y ∈ pc.1.set :=
  View.cover_of_tiledL (kernelRun1_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1 .f32 :=
  VS1_1.read (Elt F) (VS1_1.writes (Elt F) VS1_1.junk (kernelRun1_A (F := F) c i arg2 harg2 arg3 harg3 arg4 harg4 arg5 harg5 arg6 harg6 arg7 harg7 hc0 hc1 x0 x1).2.2.1)

theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) (y : S1024x1024.Idx) :
    ∃ pc ∈ (kernelRun1_A (F := F) c i arg2 harg2 arg3 harg3 arg4 harg4 arg5 harg5 arg6 harg6 arg7 harg7 hc0 hc1 x0 x1).2.2.2.1, y ∈ pc.1.set :=
  View.cover_of_tiledL (kernelRun1_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1024 .f32 :=
  VS1_2.read (Elt F) (VS1_2.writes (Elt F) VS1_2.junk (kernelRun1_A (F := F) c i arg2 harg2 arg3 harg3 arg4 harg4 arg5 harg5 arg6 harg6 arg7 harg7 hc0 hc1 x0 x1).2.2.2.1)

/-- The output window's buffer after the case (idle here: a placeholder nothing consults). -/
def out1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) : Vec F S1024x1024 .bf16 :=
  VO1_2.read (Elt F) (VO1_2.writes (Elt F) VO1_2.junk (kernelRun1_A (F := F) c i arg2 harg2 arg3 harg3 arg4 harg4 arg5 harg5 arg6 harg6 arg7 harg7 hc0 hc1 x0 x1).1)

theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_B (F := F) c i arg2 harg2 arg3 harg3 arg4 harg4 arg5 harg5 arg6 harg6 arg7 harg7 hc0 hc1 x0 x1 xs0 xs1 xs2).2.1, y ∈ pc.1.set :=
  View.cover_of_tiledL (kernelRun1_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B (F := F) c i arg2 harg2 arg3 harg3 arg4 harg4 arg5 harg5 arg6 harg6 arg7 harg7 hc0 hc1 x0 x1 xs0 xs1 xs2).2.1)

theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_B (F := F) c i arg2 harg2 arg3 harg3 arg4 harg4 arg5 harg5 arg6 harg6 arg7 harg7 hc0 hc1 x0 x1 xs0 xs1 xs2).2.2.1, y ∈ pc.1.set :=
  View.cover_of_tiledL (kernelRun1_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B (F := F) c i arg2 harg2 arg3 harg3 arg4 harg4 arg5 harg5 arg6 harg6 arg7 harg7 hc0 hc1 x0 x1 xs0 xs1 xs2).2.2.1)

theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_B (F := F) c i arg2 harg2 arg3 harg3 arg4 harg4 arg5 harg5 arg6 harg6 arg7 harg7 hc0 hc1 x0 x1 xs0 xs1 xs2).2.2.2.1, y ∈ pc.1.set :=
  View.cover_of_tiledL (kernelRun1_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO1_2.read (Elt F) (VO1_2.writes (Elt F) VO1_2.junk (kernelRun1_B (F := F) c i arg2 harg2 arg3 harg3 arg4 harg4 arg5 harg5 arg6 harg6 arg7 harg7 hc0 hc1 x0 x1 xs0 xs1 xs2).1)

theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_C (F := F) c i arg2 harg2 arg3 harg3 arg4 harg4 arg5 harg5 arg6 harg6 arg7 harg7 hc0 hc1 x0 x1 xs0 xs1 xs2).2.1, y ∈ pc.1.set :=
  View.cover_of_tiledL (kernelRun1_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C (F := F) c i arg2 harg2 arg3 harg3 arg4 harg4 arg5 harg5 arg6 harg6 arg7 harg7 hc0 hc1 x0 x1 xs0 xs1 xs2).2.1)

theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun1_C (F := F) c i arg2 harg2 arg3 harg3 arg4 harg4 arg5 harg5 arg6 harg6 arg7 harg7 hc0 hc1 x0 x1 xs0 xs1 xs2).2.2.1, y ∈ pc.1.set :=
  View.cover_of_tiledL (kernelRun1_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C (F := F) c i arg2 harg2 arg3 harg3 arg4 harg4 arg5 harg5 arg6 harg6 arg7 harg7 hc0 hc1 x0 x1 xs0 xs1 xs2).2.2.1)

theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_C (F := F) c i arg2 harg2 arg3 harg3 arg4 harg4 arg5 harg5 arg6 harg6 arg7 harg7 hc0 hc1 x0 x1 xs0 xs1 xs2).2.2.2.1, y ∈ pc.1.set :=
  View.cover_of_tiledL (kernelRun1_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C (F := F) c i arg2 harg2 arg3 harg3 arg4 harg4 arg5 harg5 arg6 harg6 arg7 harg7 hc0 hc1 x0 x1 xs0 xs1 xs2).2.2.2.1)

theorem cover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun1_C (F := F) c i arg2 harg2 arg3 harg3 arg4 harg4 arg5 harg5 arg6 harg6 arg7 harg7 hc0 hc1 x0 x1 xs0 xs1 xs2).1, y ∈ pc.1.set :=
  View.cover_of_tiledL (kernelRun1_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) : Vec F S1024x1024 .bf16 :=
  VO1_2.read (Elt F) (VO1_2.writes (Elt F) VO1_2.junk (kernelRun1_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out1 : Type := Vec F S1024x1024 .bf16 × Vec F S1024x1 .f32 × Vec F S1024x1 .f32 × Vec F S1024x1024 .f32

/-- The four buffers after a point of case A. -/
def caseA1 (c : Dev nD) (t : Fin cfg1.N) (h0 : t.val % 8 = 0) (h1 : ¬t.val % 8 = 7) : Out1 (F := F) :=
  (out1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
   sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t))

/-- The four buffers after a point of case B. -/
def caseB1 (c : Dev nD) (t : Fin cfg1.N) (h0 : ¬t.val % 8 = 0) (h1 : ¬t.val % 8 = 7) (prev : Out1 (F := F)) : Out1 (F := F) :=
  (out1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2,
   sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2)

/-- The four buffers after a point of case C. -/
def caseC1 (c : Dev nD) (t : Fin cfg1.N) (h0 : ¬t.val % 8 = 0) (h1 : t.val % 8 = 7) (prev : Out1 (F := F)) : Out1 (F := F) :=
  (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2,
   sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2)

/-- The recursion over the grid: a first key block starts afresh, the others continue from the point before. -/
def outsAt1 (c : Dev nD) : (n : ℕ) → n < cfg1.N → Out1 (F := F)
  | 0, hn => caseA1 V c ⟨0, hn⟩ (Nat.zero_mod _) (by show ¬ (0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ Rest1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ Rest1 (F := F) c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ Rest1 (F := F) c) := by
  cases n with
  | zero => exact absurd rfl hz
  | succ n => rfl

/-! ## The pipeline's proof data -/

/-- The arrays as the region finds them; each input's buffer at its block; the output's buffer and the invariant by the
    recursion above; the one array behind both input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KernelIdeal.R1Body.lean ====
/-
  Region 1: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.KernelIdeal.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold caseA1 sout1_A_0 sout1_A_1 sout1_A_2; (try dsimp only)
      by_cases hz : t.val = 0
      · rw [PhiS1_castSucc V c t, PhiS1_zero V c _ _ hz, PhiA1_eq]
        iintro ⟨⟨HS0, HS1, HS2, HR⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover1_A_0 c _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _)
          iexact HR
        isplitl [Ho]; · iexact Ho
        isplitl [H0]; · iexact H0
        isplitl [H1]; · iexact H1
        iexists _; iexact H2
      · rw [PhiS1_castSucc V c t, PhiS1_pos V c _ _ hz]
        iintro ⟨⟨HS0, HS1, HS2, HR⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover1_A_0 c _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold caseC1 out1_C_2 sout1_C_0 sout1_C_1 sout1_C_2; (try dsimp only)
      rw [PhiS1_castSucc V c t, PhiS1_pos V c _ _ hz]
      iintro ⟨⟨HS0, HS1, HS2, HR⟩, Ho, ⟨%d0, H0⟩, ⟨%d1, H1⟩, ⟨%d2, H2⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_C_0 c _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold caseB1 sout1_B_0 sout1_B_1 sout1_B_2; (try dsimp only)
      rw [PhiS1_castSucc V c t, PhiS1_pos V c _ _ hz]
      iintro ⟨⟨HS0, HS1, HS2, HR⟩, Ho, ⟨%d0, H0⟩, ⟨%d1, H1⟩, ⟨%d2, H2⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨HS0, HS1, HS2, HR⟩
  isplitl [HS0]; · iexists _; iexact HS0
  isplitl [HS1]; · iexists _; iexact HS1
  isplitl [HS2]; · iexists _; iexact HS2
  iexact HR

end Cert.KernelIdeal.Hand

end
-- ==== Proof.KernelIdeal.R2Runs.lean ====
/-
  Region 2 of the program (one attention layer as a pipelined kernel over a 4 × 8 grid of points: query block
  `t / 8`, key block `t % 8`): what the three control cases of its body share.
  The body resets its three carried buffers (running reference point, running denominator, running numerator) when
  the key block is the first one, always folds the current key block into them, and writes the normalised,
  rectified block out when the key block is the last one. So a point is in exactly one of three cases:
  first key block (A), a middle one (B), the last one (C).
-/
import proofs.«180055_j73289321939109_2_alg».proof.Proof.Gen.KernelIdeal.Launch
import proofs.«180055_j73289321939109_2_alg».proof.Proof.Gen.KernelIdeal.Skeleton
import proofs.«180055_j73289321939109_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "The key block is the first one": the condition of the reset branch, as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "The key block is the last one": the condition of the write-out branch. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the key block is not the last one the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The memrefs the body is called with -/

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
/-- The three carried buffers: the running reference point, the running denominator, the running numerator. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
abbrev VS2_0 : View sig .tc .vmem S1024x1 .f32 := scM2_0.view
abbrev VS2_1 : View sig .tc .vmem S1024x1 .f32 := scM2_1.view
abbrev VS2_2 : View sig .tc .vmem S1024x1024 .f32 := scM2_2.view

end Cert.KernelIdeal.Hand

end
-- ==== Proof.KernelIdeal.R2RunB.lean ====
/-
  Region 2, a point whose key block is neither the first nor the last: the body reads the query block, the key
  block and the three carried buffers, and leaves the carried buffers at the folded values; the output window's
  buffer is not touched.
-/
import proofs.«180055_j73289321939109_2_alg».proof.Proof.KernelIdeal.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the middle case, on whole memrefs: the two input blocks at contents `x0`, `x1` are handed back
    as they were, the idle output buffer at `xi2` too, and each carried buffer, entered at `xs0`, `xs1`, `xs2`, ends with
    the pieces the run stored into it (found by the run itself). -/
noncomputable def kernelRun2_B (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R2RunA.lean ====
/-
  Region 2, a point whose key block is the first one: the body first overwrites the three carried buffers whole
  (the initial reference point, a zero denominator, a zero numerator), so it needs nothing of what they held; it
  then folds the key block in as at every point. The output window's buffer is not touched.
-/
import proofs.«180055_j73289321939109_2_alg».proof.Proof.KernelIdeal.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the first-key-block case: the carried buffers are entered at anything and end with the pieces the
    run stored into them. -/
noncomputable def kernelRun2_A (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    isplitl [HS1]
    · iexists _; iexact HS1
    iexists _; iexact HS2

end Cert.KernelIdeal.Hand

end
-- ==== Proof.KernelIdeal.R2RunC.lean ====
/-
  Region 2, a point whose key block is the last one: after folding the key block into the carried buffers the body
  divides the running numerator by the running denominator, cuts the quotient off below at zero and stores it into the
  output window's buffer, whole.
-/
import proofs.«180055_j73289321939109_2_alg».proof.Proof.KernelIdeal.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the last-key-block case: the output buffer is entered at anything and ends with the pieces the
    run stored into it; the carried buffers, entered at `xs0`, `xs1`, `xs2`, end with theirs. -/
noncomputable def kernelRun2_C (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    Σ' (L2 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    isplitl [HS1]
    · iexists _; iexact HS1
    iexists _; iexact HS2

end Cert.KernelIdeal.Hand

end
-- ==== Proof.KernelIdeal.R2Frame.lean ====
/-
  Region 2: what the output window's buffer and the three carried buffers hold after each grid point, the proof data
  of the pipeline, and the body obligation.
  The grid is walked query block by query block, key blocks innermost. After point `t` the carried buffers hold the
  running reference point, denominator and numerator of query block `t / 8` over key blocks `0 … t % 8`: at a first
  key block they are what the reset and one fold leave, later what one more fold leaves of the point before. At a last
  key block the output buffer holds the rectified quotient; at the other points it is idle.
-/
import proofs.«180055_j73289321939109_2_alg».proof.Proof.KernelIdeal.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the TensorCore's buffers: the parameter the region's proof data are stated at
variable (V : (c : Dev nD) → (b : Ref sig .tc) → Buf (Elt F) ((c : Thread nD τ).loc b))

/-! ## The invariant's resources -/

/-- What the body never opens: the scoped buffers other than this region's staging and carried buffers, and the
    generator register. -/
abbrev Rest2 (c : Dev nD) : sProp 𝕄 :=
  iprop(Pipeline.scopedRestBut (Ix := Unit) (Name := ℕ) (U := UR sig nD τ) (Lvl := ℕ) (Val := Elt F) spec2 c [cc2_scratch0, cc2_scratch1, cc2_scratch2] ∗ ∃ r, prngReg c r)

/-- The class invariant with the three carried buffers taken out as owned memrefs. -/
theorem PhiA2_eq (c : Dev nD) :
    (Pipeline.ΦA spec2 c : sProp 𝕄)
      = iprop((∃ d, owns (c : Thread nD τ) scM2_0 fullShare d) ∗ (∃ d, owns (c : Thread nD τ) scM2_1 fullShare d) ∗ (∃ d, owns (c : Thread nD τ) scM2_2 fullShare d) ∗ Rest2 (F := F) c) := by
  unfold Pipeline.ΦA
  rw [Pipeline.scopedRest_split_of_list spec2 c [cc2_scratch0, cc2_scratch1, cc2_scratch2] (by decide) (by decide)]
  simp only [scM2_0, scM2_1, scM2_2, owns_whole, bigSepL, Rest2]
  have e : ∀ (a b c R p : sProp 𝕄), iprop(((a ∗ (b ∗ c)) ∗ R) ∗ p) = iprop(a ∗ b ∗ c ∗ R ∗ p) := fun a b c R p =>
    BI.Entails.antisymm
      (show iprop(((a ∗ (b ∗ c)) ∗ R) ∗ p) ⊢ iprop(a ∗ b ∗ c ∗ R ∗ p) from by
        iintro ⟨⟨⟨H0, H1, H2⟩, HR⟩, Hp⟩
        isplitl [H0]; · iexact H0
        isplitl [H1]; · iexact H1
        isplitl [H2]; · iexact H2
        isplitl [HR]; · iexact HR
        iexact Hp)
      (show iprop(a ∗ b ∗ c ∗ R ∗ p) ⊢ iprop(((a ∗ (b ∗ c)) ∗ R) ∗ p) from by
        iintro ⟨H0, H1, H2, HR, Hp⟩
        isplitr [Hp]
        · isplitr [HR]
          · isplitl [H0]; · iexact H0
            isplitl [H1]; · iexact H1
            iexact H2
          iexact HR
        iexact Hp)
  exact e _ _ _ _ _

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the four buffers -/

/-- One staging buffer of the output window, through which its contents are stated. -/
abbrev VO2_2 : View sig .tc .vmem S1024x1024 .f32 := (Memref.whole cc2_stg2_0 : Memref sig .tc .vmem S1024x1024 .f32).view

theorem scover2_A_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1.Idx) :
    ∃ pc ∈ (kernelRun2_A (F := F) c i arg2 harg2 arg3 harg3 arg4 harg4 arg5 harg5 arg6 harg6 arg7 harg7 hc0 hc1 x0 x1).2.1, y ∈ pc.1.set :=
  View.cover_of_tiledL (kernelRun2_A (F := F) c i arg2 harg2 arg3 harg3 arg4 harg4 arg5 harg5 arg6 harg6 arg7 harg7 hc0 hc1 x0 x1).2.1 S1024x1.size (by sl_kernel_rfl) y

/-- What the case leaves in carried buffer 0: its pieces read back. -/
def sout2_A_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1 .f32 :=
  VS2_0.read (Elt F) (VS2_0.writes (Elt F) VS2_0.junk (kernelRun2_A (F := F) c i arg2 harg2 arg3 harg3 arg4 harg4 arg5 harg5 arg6 harg6 arg7 harg7 hc0 hc1 x0 x1).2.1)

theorem scover2_A_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1.Idx) :
    ∃ pc ∈ (kernelRun2_A (F := F) c i arg2 harg2 arg3 harg3 arg4 harg4 arg5 harg5 arg6 harg6 arg7 harg7 hc0 hc1 x0 x1).2.2.1, y ∈ pc.1.set :=
  View.cover_of_tiledL (kernelRun2_A (F := F) c i arg2 harg2 arg3 harg3 arg4 harg4 arg5 harg5 arg6 harg6 arg7 harg7 hc0 hc1 x0 x1).2.2.1 S1024x1.size (by sl_kernel_rfl) y

/-- What the case leaves in carried buffer 1: its pieces read back. -/
def sout2_A_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1 .f32 :=
  VS2_1.read (Elt F) (VS2_1.writes (Elt F) VS2_1.junk (kernelRun2_A (F := F) c i arg2 harg2 arg3 harg3 arg4 harg4 arg5 harg5 arg6 harg6 arg7 harg7 hc0 hc1 x0 x1).2.2.1)

theorem scover2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) (y : S1024x1024.Idx) :
    ∃ pc ∈ (kernelRun2_A (F := F) c i arg2 harg2 arg3 harg3 arg4 harg4 arg5 harg5 arg6 harg6 arg7 harg7 hc0 hc1 x0 x1).2.2.2.1, y ∈ pc.1.set :=
  View.cover_of_tiledL (kernelRun2_A (F := F) c i arg2 harg2 arg3 harg3 arg4 harg4 arg5 harg5 arg6 harg6 arg7 harg7 hc0 hc1 x0 x1).2.2.2.1 S1024x1024.size (by sl_kernel_rfl) y

/-- What the case leaves in carried buffer 2: its pieces read back. -/
def sout2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1024 .f32 :=
  VS2_2.read (Elt F) (VS2_2.writes (Elt F) VS2_2.junk (kernelRun2_A (F := F) c i arg2 harg2 arg3 harg3 arg4 harg4 arg5 harg5 arg6 harg6 arg7 harg7 hc0 hc1 x0 x1).2.2.2.1)

/-- The output window's buffer after the case (idle here: a placeholder nothing consults). -/
def out2_A_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) : Vec F S1024x1024 .f32 :=
  VO2_2.read (Elt F) (VO2_2.writes (Elt F) VO2_2.junk (kernelRun2_A (F := F) c i arg2 harg2 arg3 harg3 arg4 harg4 arg5 harg5 arg6 harg6 arg7 harg7 hc0 hc1 x0 x1).1)

theorem scover2_B_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_B (F := F) c i arg2 harg2 arg3 harg3 arg4 harg4 arg5 harg5 arg6 harg6 arg7 harg7 hc0 hc1 x0 x1 xs0 xs1 xs2).2.1, y ∈ pc.1.set :=
  View.cover_of_tiledL (kernelRun2_B (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout2_B_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_B (F := F) c i arg2 harg2 arg3 harg3 arg4 harg4 arg5 harg5 arg6 harg6 arg7 harg7 hc0 hc1 x0 x1 xs0 xs1 xs2).2.1)

theorem scover2_B_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_B (F := F) c i arg2 harg2 arg3 harg3 arg4 harg4 arg5 harg5 arg6 harg6 arg7 harg7 hc0 hc1 x0 x1 xs0 xs1 xs2).2.2.1, y ∈ pc.1.set :=
  View.cover_of_tiledL (kernelRun2_B (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout2_B_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_B (F := F) c i arg2 harg2 arg3 harg3 arg4 harg4 arg5 harg5 arg6 harg6 arg7 harg7 hc0 hc1 x0 x1 xs0 xs1 xs2).2.2.1)

theorem scover2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_B (F := F) c i arg2 harg2 arg3 harg3 arg4 harg4 arg5 harg5 arg6 harg6 arg7 harg7 hc0 hc1 x0 x1 xs0 xs1 xs2).2.2.2.1, y ∈ pc.1.set :=
  View.cover_of_tiledL (kernelRun2_B (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_B (F := F) c i arg2 harg2 arg3 harg3 arg4 harg4 arg5 harg5 arg6 harg6 arg7 harg7 hc0 hc1 x0 x1 xs0 xs1 xs2).2.2.2.1)

/-- The output window's buffer after the case (idle here: a placeholder nothing consults). -/
def out2_B_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VO2_2.read (Elt F) (VO2_2.writes (Elt F) VO2_2.junk (kernelRun2_B (F := F) c i arg2 harg2 arg3 harg3 arg4 harg4 arg5 harg5 arg6 harg6 arg7 harg7 hc0 hc1 x0 x1 xs0 xs1 xs2).1)

theorem scover2_C_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_C (F := F) c i arg2 harg2 arg3 harg3 arg4 harg4 arg5 harg5 arg6 harg6 arg7 harg7 hc0 hc1 x0 x1 xs0 xs1 xs2).2.1, y ∈ pc.1.set :=
  View.cover_of_tiledL (kernelRun2_C (F := F) c i arg2 harg2 arg3 harg3 arg4 harg4 arg5 harg5 arg6 harg6 arg7 harg7 hc0 hc1 x0 x1 xs0 xs1 xs2).2.1 S1024x1.size (by sl_kernel_rfl) y

/-- What the case leaves in carried buffer 0: its pieces read back. -/
def sout2_C_0 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_C (F := F) c i arg2 harg2 arg3 harg3 arg4 harg4 arg5 harg5 arg6 harg6 arg7 harg7 hc0 hc1 x0 x1 xs0 xs1 xs2).2.1)

theorem scover2_C_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1.Idx) :
    ∃ pc ∈ (kernelRun2_C (F := F) c i arg2 harg2 arg3 harg3 arg4 harg4 arg5 harg5 arg6 harg6 arg7 harg7 hc0 hc1 x0 x1 xs0 xs1 xs2).2.2.1, y ∈ pc.1.set :=
  View.cover_of_tiledL (kernelRun2_C (F := F) c i arg2 harg2 arg3 harg3 arg4 harg4 arg5 harg5 arg6 harg6 arg7 harg7 hc0 hc1 x0 x1 xs0 xs1 xs2).2.2.1 S1024x1.size (by sl_kernel_rfl) y

/-- What the case leaves in carried buffer 1: its pieces read back. -/
def sout2_C_1 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_C (F := F) c i arg2 harg2 arg3 harg3 arg4 harg4 arg5 harg5 arg6 harg6 arg7 harg7 hc0 hc1 x0 x1 xs0 xs1 xs2).2.2.1)

theorem scover2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_C (F := F) c i arg2 harg2 arg3 harg3 arg4 harg4 arg5 harg5 arg6 harg6 arg7 harg7 hc0 hc1 x0 x1 xs0 xs1 xs2).2.2.2.1, y ∈ pc.1.set :=
  View.cover_of_tiledL (kernelRun2_C (F := F) c i arg2 harg2 arg3 harg3 arg4 harg4 arg5 harg5 arg6 harg6 arg7 harg7 hc0 hc1 x0 x1 xs0 xs1 xs2).2.2.2.1 S1024x1024.size (by sl_kernel_rfl) y

/-- What the case leaves in carried buffer 2: its pieces read back. -/
def sout2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_C (F := F) c i arg2 harg2 arg3 harg3 arg4 harg4 arg5 harg5 arg6 harg6 arg7 harg7 hc0 hc1 x0 x1 xs0 xs1 xs2).2.2.2.1)

theorem cover2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) (y : S1024x1024.Idx) :
    ∃ pc ∈ (kernelRun2_C (F := F) c i arg2 harg2 arg3 harg3 arg4 harg4 arg5 harg5 arg6 harg6 arg7 harg7 hc0 hc1 x0 x1 xs0 xs1 xs2).1, y ∈ pc.1.set :=
  View.cover_of_tiledL (kernelRun2_C (F := F) c i arg2 harg2 arg3 harg3 arg4 harg4 arg5 harg5 arg6 harg6 arg7 harg7 hc0 hc1 x0 x1 xs0 xs1 xs2).1 S1024x1024.size (by sl_kernel_rfl) y

/-- The output window's buffer after the case: its pieces read back. -/
def out2_C_2 (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) : Vec F S1024x1024 .f32 :=
  VO2_2.read (Elt F) (VO2_2.writes (Elt F) VO2_2.junk (kernelRun2_C (F := F) c i arg2 harg2 arg3 harg3 arg4 harg4 arg5 harg5 arg6 harg6 arg7 harg7 hc0 hc1 x0 x1 xs0 xs1 xs2).1)

/-! ## The four buffers after each point -/

/-- The output window's buffer and the three carried buffers. -/
abbrev Out2 : Type := Vec F S1024x1024 .f32 × Vec F S1024x1 .f32 × Vec F S1024x1 .f32 × Vec F S1024x1024 .f32

/-- The four buffers after a point of case A. -/
def caseA2 (c : Dev nD) (t : Fin cfg2.N) (h0 : t.val % 8 = 0) (h1 : ¬t.val % 8 = 7) : Out2 (F := F) :=
  (out2_A_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t),
   sout2_A_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t))

/-- The four buffers after a point of case B. -/
def caseB2 (c : Dev nD) (t : Fin cfg2.N) (h0 : ¬t.val % 8 = 0) (h1 : ¬t.val % 8 = 7) (prev : Out2 (F := F)) : Out2 (F := F) :=
  (out2_B_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2,
   sout2_B_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2)

/-- The four buffers after a point of case C. -/
def caseC2 (c : Dev nD) (t : Fin cfg2.N) (h0 : ¬t.val % 8 = 0) (h1 : t.val % 8 = 7) (prev : Out2 (F := F)) : Out2 (F := F) :=
  (out2_C_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_0 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_1 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2,
   sout2_C_2 c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2)

/-- The recursion over the grid: a first key block starts afresh, the others continue from the point before. -/
def outsAt2 (c : Dev nD) : (n : ℕ) → n < cfg2.N → Out2 (F := F)
  | 0, hn => caseA2 V c ⟨0, hn⟩ (Nat.zero_mod _) (by show ¬ (0 % 8 = 7); decide)
  | n + 1, hn =>
    if h0 : (n + 1) % 8 = 0 then
      if h1 : (n + 1) % 8 = 7 then False.elim (by omega)
      else caseA2 V c ⟨n + 1, hn⟩ h0 h1
    else
      if h1 : (n + 1) % 8 = 7 then caseC2 V c ⟨n + 1, hn⟩ h0 h1 (outsAt2 c n (Nat.lt_of_succ_lt hn))
      else caseB2 V c ⟨n + 1, hn⟩ h0 h1 (outsAt2 c n (Nat.lt_of_succ_lt hn))

theorem outsAt2_A (c : Dev nD) (t : Fin cfg2.N) (h0 : t.val % 8 = 0) (h1 : ¬t.val % 8 = 7) :
    outsAt2 V c t.val t.isLt = caseA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = caseB2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = caseC2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- Before the first point the class's invariant; afterwards the carried buffers at what the point before left. -/
def PhiS2 (c : Dev nD) : (n : ℕ) → n ≤ cfg2.N → sProp 𝕄
  | 0, _ => Pipeline.ΦA spec2 c
  | n + 1, hn => iprop(owns (c : Thread nD τ) scM2_0 fullShare (outsAt2 V c n hn).2.1 ∗ owns (c : Thread nD τ) scM2_1 fullShare (outsAt2 V c n hn).2.2.1
      ∗ owns (c : Thread nD τ) scM2_2 fullShare (outsAt2 V c n hn).2.2.2 ∗ Rest2 (F := F) c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (outsAt2 V c n hn).2.1 ∗ owns (c : Thread nD τ) scM2_1 fullShare (outsAt2 V c n hn).2.2.1
      ∗ owns (c : Thread nD τ) scM2_2 fullShare (outsAt2 V c n hn).2.2.2 ∗ Rest2 (F := F) c) := rfl

theorem PhiS2_pos (c : Dev nD) (n : ℕ) (h : n ≤ cfg2.N) (hz : n ≠ 0) :
    PhiS2 V c n h = iprop(owns (c : Thread nD τ) scM2_0 fullShare (outsAt2 V c (n - 1) (by omega)).2.1 ∗ owns (c : Thread nD τ) scM2_1 fullShare (outsAt2 V c (n - 1) (by omega)).2.2.1
      ∗ owns (c : Thread nD τ) scM2_2 fullShare (outsAt2 V c (n - 1) (by omega)).2.2.2 ∗ Rest2 (F := F) c) := by
  cases n with
  | zero => exact absurd rfl hz
  | succ n => rfl

/-! ## The pipeline's proof data -/

/-- The arrays as the region finds them; each input's buffer at its block; the output's buffer and the invariant by the
    recursion above; the one array behind both input windows held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.KernelIdeal.R2Body.lean ====
/-
  Region 2: the body obligation. At every grid point the body, started from the invariant (the carried buffers at
  what the point before left, or at anything at the very first point), the two input buffers at their blocks and the
  output buffer at whatever it holds, runs to the invariant of the next point: a case split on the key block's
  position, each leaf the run of that case.
-/
import proofs.«180055_j73289321939109_2_alg».proof.Proof.KernelIdeal.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_A V c t h0 h1]
      unfold caseA2 sout2_A_0 sout2_A_1 sout2_A_2; (try dsimp only)
      by_cases hz : t.val = 0
      · rw [PhiS2_castSucc V c t, PhiS2_zero V c _ _ hz, PhiA2_eq]
        iintro ⟨⟨HS0, HS1, HS2, HR⟩, Ho, ⟨%d0, H0⟩, ⟨%d1, H1⟩, ⟨%d2, H2⟩⟩
        iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover2_A_0 c _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _)
          iexact HR
        isplitl [Ho]; · iexact Ho
        isplitl [H0]; · iexact H0
        isplitl [H1]; · iexact H1
        iexists _; iexact H2
      · rw [PhiS2_castSucc V c t, PhiS2_pos V c _ _ hz]
        iintro ⟨⟨HS0, HS1, HS2, HR⟩, Ho, ⟨%d0, H0⟩, ⟨%d1, H1⟩, ⟨%d2, H2⟩⟩
        iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 HR]
        · isplitl [HS0]
          · unfold owns; iexists _; isplitr
            swap; · iexact HS0
            ipureintro; exact View.read_writes_of_cover _ _ _ _ _ (scover2_A_0 c _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _)
          iexact HR
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold caseC2 out2_C_2 sout2_C_0 sout2_C_1 sout2_C_2; (try dsimp only)
      rw [PhiS2_castSucc V c t, PhiS2_pos V c _ _ hz]
      iintro ⟨⟨HS0, HS1, HS2, HR⟩, Ho, ⟨%d0, H0⟩, ⟨%d1, H1⟩, ⟨%d2, H2⟩⟩
      iapply ((kernelRun2_C c (grid2.coords t) _ _ _ _ _ _ _ _ _ _ _ _ (fun h => h0 ((hcond2_0 t).mp h)) ((hcond2_1 t).mpr h1) (iblk2 V c 0 t) (iblk2 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover2_C_0 c _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _)
        isplitl [HS2]
        · unfold owns; iexists _; isplitr
          swap; · iexact HS2
          ipureintro; exact View.read_writes_of_cover _ _ _ _ _ (scover2_C_2 c _ _ _ _ _ _ _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold caseB2 sout2_B_0 sout2_B_1 sout2_B_2; (try dsimp only)
      rw [PhiS2_castSucc V c t, PhiS2_pos V c _ _ hz]
      iintro ⟨⟨HS0, HS1, HS2, HR⟩, Ho, ⟨%d0, H0⟩, ⟨%d1, H1⟩, ⟨%d2, H2⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _)
        isplitl [HS2]
        · unfold owns; iexists _; isplitr
          swap; · iexact HS2
          ipureintro; exact View.read_writes_of_cover _ _ _ _ _ (scover2_B_2 c _ _ _ _ _ _ _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the carried buffers' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨HS0, HS1, HS2, HR⟩
  isplitl [HS0]; · iexists _; iexact HS0
  isplitl [HS1]; · iexists _; iexact HS1
  isplitl [HS2]; · iexists _; iexact HS2
  iexact HR

end Cert.KernelIdeal.Hand

end
-- ==== Proof.KernelIdeal.Run.lean ====
/-
  The whole program as a chain of segments: one host operation (the entry format change of the input table), then the
  three attention layers as pipelined kernel regions, each reading the table the previous one wrote. The contents of the
  TensorCore's unscoped buffers at each segment boundary are a fold from the launch memory: a host operation's result
  written, then each region's output array replaced by what the region's write-backs leave. Each region's windows are two
  input windows on ONE array (the query block and the key block of the same table) and one output window: the input
  array's full share is dealt to the two windows half and half at entry and recombined at exit.
  The run: every weakly fair execution terminates, the result buffer ends at the last boundary's contents and the
  argument as launched.
-/
import proofs.«180055_j73289321939109_2_alg».proof.Proof.KernelIdeal.R0Body
import proofs.«180055_j73289321939109_2_alg».proof.Proof.KernelIdeal.R1Body
import proofs.«180055_j73289321939109_2_alg».proof.Proof.KernelIdeal.R2Body
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### Region 0: the one array behind both input windows, dealt half and half -/

/-- ENTRY. The two buffers behind region 0's three windows, whole at the full share, make the pipeline's arrays: the
    input array's full share splits into the two halves its two windows hold; the output array goes whole. -/
theorem hsplit0 (V : (c : Dev nD) → (b : Ref sig .tc) → Buf (Elt F) ((c : Thread nD τ).loc b)) (c : Dev nD) :
    (Pipeline.arrBufs spec0 c (V c) : sProp 𝕄) ⊢ (dat0 V c).arrays ((dat0 V c).arrAt · 0) := by
  have himg : Finset.univ.image (Pipeline.arrRef spec0) = {main_v0, main_v1} := by decide
  unfold Pipeline.arrBufs Dat.arrays
  rw [himg, BI.bigSep_insert (by decide), BI.bigSep_singleton, bigSep_W0]
  simp only [(arr_whole0 0).set_eq_univ, (arr_whole0 1).set_eq_univ, (arr_whole0 2).set_eq_univ]
  show iprop((((c : Thread nD τ).loc main_v0) ↦{fullShare} V c main_v0) ∗ (((c : Thread nD τ).loc main_v1) ↦{fullShare} V c main_v1)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin0 (V : (c : Dev nD) → (b : Ref sig .tc) → Buf (Elt F) ((c : Thread nD τ).loc b)) (c : Dev nD)
    (V' : (b : Ref sig .tc) → Buf (Elt F) ((c : Thread nD τ).loc b))
    (hout : V' main_v1 = (dat0 V c).arrAt 2 cfg0.N) (hrest : ∀ b, b ≠ main_v1 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  have himg : Finset.univ.image (Pipeline.arrRef spec0) = {main_v0, main_v1} := by decide
  rw [Pipeline.unscopedBufs_split₀ cfgs 0 winFacts₀0.arr_unscoped c V']
  refine sep_mono ?_ (Entails.of_eq ?_)
  · unfold Pipeline.arrBufs Dat.arrays
    rw [show Finset.univ.image (Pipeline.arrRef (cfgs 0).spec) = Finset.univ.image (Pipeline.arrRef spec0) from rfl, himg,
      BI.bigSep_insert (by decide), BI.bigSep_singleton, bigSep_W0]
    simp only [(arr_whole0 0).set_eq_univ, (arr_whole0 1).set_eq_univ, (arr_whole0 2).set_eq_univ]
    rw [(dat0 V c).arrAt_in 0 rfl, (dat0 V c).arrAt_in 1 rfl, A_eq0, A_eq0, hrest main_v0 (by decide), hout]
    show iprop((((c : Thread nD τ).loc main_v0) ↦{fullShare.left} V c main_v0) ∗ (((c : Thread nD τ).loc main_v0) ↦{fullShare.right} V c main_v0)
      ∗ (((c : Thread nD τ).loc main_v1) ↦{fullShare} (dat0 V c).arrAt 2 cfg0.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v1 ∈ Finset.univ.image (Pipeline.arrRef (cfgs 0).spec))))]

/-! ### Region 1: the one array behind both input windows, dealt half and half -/

/-- ENTRY. The two buffers behind region 1's three windows, whole at the full share, make the pipeline's arrays: the
    input array's full share splits into the two halves its two windows hold; the output array goes whole. -/
theorem hsplit1 (V : (c : Dev nD) → (b : Ref sig .tc) → Buf (Elt F) ((c : Thread nD τ).loc b)) (c : Dev nD) :
    (Pipeline.arrBufs spec1 c (V c) : sProp 𝕄) ⊢ (dat1 V c).arrays ((dat1 V c).arrAt · 0) := by
  have himg : Finset.univ.image (Pipeline.arrRef spec1) = {main_v1, main_v2} := by decide
  unfold Pipeline.arrBufs Dat.arrays
  rw [himg, BI.bigSep_insert (by decide), BI.bigSep_singleton, bigSep_W1]
  simp only [(arr_whole1 0).set_eq_univ, (arr_whole1 1).set_eq_univ, (arr_whole1 2).set_eq_univ]
  show iprop((((c : Thread nD τ).loc main_v1) ↦{fullShare} V c main_v1) ∗ (((c : Thread nD τ).loc main_v2) ↦{fullShare} V c main_v2)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin1 (V : (c : Dev nD) → (b : Ref sig .tc) → Buf (Elt F) ((c : Thread nD τ).loc b)) (c : Dev nD)
    (V' : (b : Ref sig .tc) → Buf (Elt F) ((c : Thread nD τ).loc b))
    (hout : V' main_v2 = (dat1 V c).arrAt 2 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have himg : Finset.univ.image (Pipeline.arrRef spec1) = {main_v1, main_v2} := by decide
  rw [Pipeline.unscopedBufs_split₀ cfgs 1 winFacts₀1.arr_unscoped c V']
  refine sep_mono ?_ (Entails.of_eq ?_)
  · unfold Pipeline.arrBufs Dat.arrays
    rw [show Finset.univ.image (Pipeline.arrRef (cfgs 1).spec) = Finset.univ.image (Pipeline.arrRef spec1) from rfl, himg,
      BI.bigSep_insert (by decide), BI.bigSep_singleton, bigSep_W1]
    simp only [(arr_whole1 0).set_eq_univ, (arr_whole1 1).set_eq_univ, (arr_whole1 2).set_eq_univ]
    rw [(dat1 V c).arrAt_in 0 rfl, (dat1 V c).arrAt_in 1 rfl, A_eq1, A_eq1, hrest main_v1 (by decide), hout]
    show iprop((((c : Thread nD τ).loc main_v1) ↦{fullShare.left} V c main_v1) ∗ (((c : Thread nD τ).loc main_v1) ↦{fullShare.right} V c main_v1)
      ∗ (((c : Thread nD τ).loc main_v2) ↦{fullShare} (dat1 V c).arrAt 2 cfg1.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v2 ∈ Finset.univ.image (Pipeline.arrRef (cfgs 1).spec))))]

/-! ### Region 2: the one array behind both input windows, dealt half and half -/

/-- ENTRY. The two buffers behind region 2's three windows, whole at the full share, make the pipeline's arrays: the
    input array's full share splits into the two halves its two windows hold; the output array goes whole. -/
theorem hsplit2 (V : (c : Dev nD) → (b : Ref sig .tc) → Buf (Elt F) ((c : Thread nD τ).loc b)) (c : Dev nD) :
    (Pipeline.arrBufs spec2 c (V c) : sProp 𝕄) ⊢ (dat2 V c).arrays ((dat2 V c).arrAt · 0) := by
  have himg : Finset.univ.image (Pipeline.arrRef spec2) = {main_v2, main_v3} := by decide
  unfold Pipeline.arrBufs Dat.arrays
  rw [himg, BI.bigSep_insert (by decide), BI.bigSep_singleton, bigSep_W2]
  simp only [(arr_whole2 0).set_eq_univ, (arr_whole2 1).set_eq_univ, (arr_whole2 2).set_eq_univ]
  show iprop((((c : Thread nD τ).loc main_v2) ↦{fullShare} V c main_v2) ∗ (((c : Thread nD τ).loc main_v3) ↦{fullShare} V c main_v3)) ⊢ _
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- EXIT. The pipeline's arrays after the last point — the input array's two halves, both still at the entry contents,
    and the output array at what the write-backs left — beside the untouched rest are the core's unscoped buffers at any
    contents that have the output array so and agree with the entry contents elsewhere. -/
theorem hjoin2 (V : (c : Dev nD) → (b : Ref sig .tc) → Buf (Elt F) ((c : Thread nD τ).loc b)) (c : Dev nD)
    (V' : (b : Ref sig .tc) → Buf (Elt F) ((c : Thread nD τ).loc b))
    (hout : V' main_v3 = (dat2 V c).arrAt 2 cfg2.N) (hrest : ∀ b, b ≠ main_v3 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have himg : Finset.univ.image (Pipeline.arrRef spec2) = {main_v2, main_v3} := by decide
  rw [Pipeline.unscopedBufs_split₀ cfgs 2 winFacts₀2.arr_unscoped c V']
  refine sep_mono ?_ (Entails.of_eq ?_)
  · unfold Pipeline.arrBufs Dat.arrays
    rw [show Finset.univ.image (Pipeline.arrRef (cfgs 2).spec) = Finset.univ.image (Pipeline.arrRef spec2) from rfl, himg,
      BI.bigSep_insert (by decide), BI.bigSep_singleton, bigSep_W2]
    simp only [(arr_whole2 0).set_eq_univ, (arr_whole2 1).set_eq_univ, (arr_whole2 2).set_eq_univ]
    rw [(dat2 V c).arrAt_in 0 rfl, (dat2 V c).arrAt_in 1 rfl, A_eq2, A_eq2, hrest main_v2 (by decide), hout]
    show iprop((((c : Thread nD τ).loc main_v2) ↦{fullShare.left} V c main_v2) ∗ (((c : Thread nD τ).loc main_v2) ↦{fullShare.right} V c main_v2)
      ∗ (((c : Thread nD τ).loc main_v3) ↦{fullShare} (dat2 V c).arrAt 2 cfg2.N)) ⊢ iprop(_ ∗ _)
    iintro ⟨Ha, Hb, H1⟩
    isplitl [Ha Hb]
    · iapply (pointsTo_share (PosShare.mem_left_op_right fullShare)).2
      isplitl [Ha]; · iexact Ha
      iexact Hb
    iexact H1
  · unfold Pipeline.unscopedRest
    exact bigSep_congr fun b hb => by rw [hrest b (fun e => (Finset.mem_sdiff.mp hb).2 (by rw [e]; exact (by decide : main_v3 ∈ Finset.univ.image (Pipeline.arrRef (cfgs 2).spec))))]

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the host operation (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output array at what its write-backs leave. -/
def W2 (c : Dev nD) : Valuation τ sig (Elt F) :=
  Function.update (W1 m c) (Proc.devRef .tc main_v1) ((dat0 (V1 m) c).arrAt 2 cfg0.N)
abbrev V2 : (c : Dev nD) → (b : Ref sig .tc) → Buf (Elt F) ((c : Thread nD τ).loc b) := fun c b => W2 m c b
/-- After region 1. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After region 2. -/
def W4 (c : Dev nD) : Valuation τ sig (Elt F) :=
  Function.update (W3 m c) (Proc.devRef .tc main_v3) ((dat2 (V3 m) c).arrAt 2 cfg2.N)
abbrev V4 : (c : Dev nD) → (b : Ref sig .tc) → Buf (Elt F) ((c : Thread nD τ).loc b) := fun c b => W4 m c b

theorem W2_out (c : Dev nD) : V2 m c main_v1 = (dat0 (V1 m) c).arrAt 2 cfg0.N := by
  show W2 m c (Proc.devRef .tc main_v1) = _; unfold W2; exact Function.update_self ..
theorem W2_rest (c : Dev nD) (b : Ref sig .tc) (hb : b ≠ main_v1) : V2 m c b = V1 m c b := by
  show W2 m c (Proc.devRef .tc b) = _; unfold W2; exact Function.update_of_ne (StableHlo.devRef_ne_of_ne hb) ..
theorem W3_out (c : Dev nD) : V3 m c main_v2 = (dat1 (V2 m) c).arrAt 2 cfg1.N := by
  show W3 m c (Proc.devRef .tc main_v2) = _; unfold W3; exact Function.update_self ..
theorem W3_rest (c : Dev nD) (b : Ref sig .tc) (hb : b ≠ main_v2) : V3 m c b = V2 m c b := by
  show W3 m c (Proc.devRef .tc b) = _; unfold W3; exact Function.update_of_ne (StableHlo.devRef_ne_of_ne hb) ..
theorem W4_out (c : Dev nD) : V4 m c main_v3 = (dat2 (V3 m) c).arrAt 2 cfg2.N := by
  show W4 m c (Proc.devRef .tc main_v3) = _; unfold W4; exact Function.update_self ..
theorem W4_rest (c : Dev nD) (b : Ref sig .tc) (hb : b ≠ main_v3) : V4 m c b = V3 m c b := by
  show W4 m c (Proc.devRef .tc b) = _; unfold W4; exact Function.update_of_ne (StableHlo.devRef_ne_of_ne hb) ..

/-- The argument ends as launched: the host operation writes another buffer, no region writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_rest m c main_arg0 (by decide)
    _ = W2 m c (Proc.devRef .tc main_arg0) := W3_rest m c main_arg0 (by decide)
    _ = W1 m c (Proc.devRef .tc main_arg0) := W2_rest m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_freshH : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 as a segment: entered from every unscoped buffer at the contents before it, left at the contents after
    it; its arrays split out of the unscoped buffers at entry and put back at exit; the generator register into the
    invariant and out; nothing owed; no semaphore of the kernel's own. -/
def reg0 : Pipeline.RegionSeg (pcfgs (F := F)) admH (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((dat0 (V1 m) c).arrays ((dat0 (V1 m) c).arrAt · 0) ∗ Pipeline.unscopedRest (Ix := Unit) (Name := ℕ) (U := UR sig nD τ) (Lvl := ℕ) spec0 c (V1 m c)) := by
      rw [← Pipeline.unscopedBufs_held (Ix := Unit) (Name := ℕ) (U := UR sig nD τ) (Lvl := ℕ) c (W1 m c), Pipeline.unscopedBufs_split₀ cfgs 0 winFacts₀0.arr_unscoped c (V1 m c)]
      exact sep_mono (hsplit0 (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) admH 0).N) ∗ Pipeline.unscopedRest (Ix := Unit) (Name := ℕ) (U := UR sig nD τ) (Lvl := ℕ) spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c)]
      exact hjoin0 (V1 m) c (fun b => W2 m c b) (W2_out m c) (W2_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents after
    it; its arrays split out of the unscoped buffers at entry and put back at exit; the generator register into the
    invariant and out; nothing owed; no semaphore of the kernel's own. -/
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((dat1 (V2 m) c).arrays ((dat1 (V2 m) c).arrAt · 0) ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c), Pipeline.unscopedBufs_split₀ cfgs 1 winFacts₀1.arr_unscoped c (V2 m c)]
      exact sep_mono (hsplit1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) admH 1).N) ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c)]
      exact hjoin1 (V2 m) c (fun b => W3 m c b) (W3_out m c) (W3_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at the contents before it, left at the contents after
    it; its arrays split out of the unscoped buffers at entry and put back at exit; the generator register into the
    invariant and out; nothing owed; no semaphore of the kernel's own. -/
def reg2 : Pipeline.RegionSeg (pcfgs (F := F)) admH (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (StableHlo.held (c : Thread nD τ) (Pipeline.ucRefs τ sig) (W3 m c) : sProp 𝕄)
        ⊢ iprop((dat2 (V3 m) c).arrays ((dat2 (V3 m) c).arrAt · 0) ∗ Pipeline.unscopedRest (Ix := Unit) (Name := ℕ) (U := UR sig nD τ) (Lvl := ℕ) spec2 c (V3 m c)) := by
      rw [← Pipeline.unscopedBufs_held (Ix := Unit) (Name := ℕ) (U := UR sig nD τ) (Lvl := ℕ) c (W3 m c), Pipeline.unscopedBufs_split₀ cfgs 2 winFacts₀2.arr_unscoped c (V3 m c)]
      exact sep_mono (hsplit2 (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · (Pipeline.pin (pcfgs (F := F)) admH 2).N) ∗ Pipeline.unscopedRest (Ix := Unit) (Name := ℕ) (U := UR sig nD τ) (Lvl := ℕ) spec2 c (V3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c)]
      exact hjoin2 (V3 m) c (fun b => W4 m c b) (W4_out m c) (W4_rest m c)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ L lv) :=
  [ .host (hseg hostOps0 hostOps0_sub hostOps0_freshH (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting;
    the result buffer ends at the last boundary's contents and the argument as launched. -/
theorem run : θ_run defs (onTc (τ := τ) (main (F := F))) ⟨m, fun _ => 0, ρ⟩ (fun r => ∀ c : Dev nD,
      r.2.mem ((c.tc : Thread nD τ).loc main_v3) = V4 m c main_v3
      ∧ r.2.mem ((c.tc : Thread nD τ).loc main_arg0) = m ((c.tc : Thread nD τ).loc main_arg0)) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)), (h c _ (mem_uc main_arg0 (by decide))).trans (W4_main_arg0 m c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Hand

end
-- ==== Proof.RefFrame.lean ====
/-
  The reference program runs and leaves its argument unchanged.

  The run of the reference program ends, on every device, with the result at its composed term and the argument as it
  was; the second half is the frame statement.
-/
import proofs.«180055_j73289321939109_2_alg».proof.Proof.RefRunP
import proofs.«180055_j73289321939109_2_alg».proof.Proof.Gen.Pre_finite_inputs
import proofs.«180055_j73289321939109_2_alg».proof.Defs

namespace Cert.ReferenceIdeal.RefValue

open Idealize.ShloMosaic Idealize.SL.Sem Cert.ReferenceIdeal.Gen Cert.Pre_finite_inputs.Gen

/-- The frame conjunct of the reference program. -/
theorem frame_ri : Cert.frame_ReferenceIdeal := fun m ρ _ =>
  (θ_run Cert.ReferenceIdeal.defs _ _).mono (fun _ h c => (h c).2) (Cert.ReferenceIdeal.ValueP.run (F := Ideal) m ρ)

end Cert.ReferenceIdeal.RefValue
-- ==== Proof.RefLayer.lean ====
/-
  One layer of the reference program as a function of its input table.

  The reference computes, three times over, from a table `h` (4096 rows, 1024 columns):
  the scores `s = (h hᵀ) · c` with the constant `c = 1 / √1024`; each row's maximum `M` (a fold of `max` from `-∞`,
  then once more `max` with `-∞`); the exponentials `e = exp (s - M)`; each row's sum `Z` of them; the weights `e / Z`;
  the weighted table `(e / Z) h`; and its positive part `max · 0`.  The stages are named here one by one, over the
  ideal values, each with exactly the operations the program prints for it, so that the program's composed result is
  three applications of `refLayer` by unfolding alone.
-/
import proofs.«180055_j73289321939109_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The tables the layer maps between: 4096 × 1024 ideal values. -/
abbrev Tbl : Type := FVec Ideal S4096x1024 .f32
/-- The square arrays of scores and weights: 4096 × 4096 ideal values. -/
abbrev Sq : Type := FVec Ideal S4096x4096 .f32
/-- One value per row. -/
abbrev Col : Type := FVec Ideal S4096 .f32
/-- A single value. -/
abbrev Sc : Type := FVec Ideal S_ .f32

/-- The scale: `1 / √1024`, computed as the program computes it. -/
def scaleV : Sc :=
  Host.divf (constant S_ .f32 0x3F800000#32) (Host.sqrt (constant S_ .f32 0x44800000#32))

/-- The scores: `(h hᵀ)` times the scale, the scale spread over the square. -/
def scores (h : Tbl) : Sq :=
  mulf (Host.dotGeneral dot_S4096x1024_S4096x1024_S4096x4096_1_1_0_0_n_n none h h)
    (broadcastInDim S4096x4096 ![] bcast_S_S4096x4096 scaleV)

/-- Each row's maximal score: the fold of `max` from `-∞` along the row, then `max` with `-∞` once more. -/
def rowMax (h : Tbl) : Col :=
  maximumf (broadcastInDim S4096 ![] bcast_S_S4096 (constant S_ .f32 0xFF800000#32))
    (Host.reduce FloatOps.maximumf (scores h) (constant S_ .f32 0xFF800000#32) reducesTo_S4096x4096_S4096_d1 h_S_)

/-- The exponentials of the scores less their row's maximum. -/
def expo (h : Tbl) : Sq :=
  Host.exp (subf (scores h)
    (broadcastInDim S4096x4096 ![0, 1] bcast_S4096x1_S4096x4096_0_1 (broadcastInDim S4096x1 ![0] bcast_S4096_S4096x1_0 (rowMax h))))

/-- Each row's sum of exponentials, from zero. -/
def rowSum (h : Tbl) : Col :=
  Host.reduceAdd (expo h) (constant S_ .f32 0x00000000#32) reducesTo_S4096x4096_S4096_d1 h_S_

/-- The weights: each exponential over its row's sum. -/
def weights (h : Tbl) : Sq :=
  Host.divf (expo h)
    (broadcastInDim S4096x4096 ![0, 1] bcast_S4096x1_S4096x4096_0_1 (broadcastInDim S4096x1 ![0] bcast_S4096_S4096x1_0 (rowSum h)))

/-- One layer: the weighted table, cut off below at zero. -/
def refLayer (h : Tbl) : Tbl :=
  maximumf (Host.dotGeneral dot_S4096x4096_S4096x1024_S4096x1024_1_0_0_1_n_n none (weights h) h)
    (broadcastInDim S4096x1024 ![] bcast_S_S4096x1024 (constant S_ .f32 0x00000000#32))

end Cert.ReferenceIdeal.RefValue

end
-- ==== Proof.RefRes.lean ====
/-
  The reference program's composed result is three layers.

  The program's result, as a term of its input table, is the layer's operations written out three times, each copy's
  input being the previous copy's output; so it is `refLayer` applied three times, by unfolding the definitions.
-/
import proofs.«180055_j73289321939109_2_alg».proof.Proof.RefRunP
import proofs.«180055_j73289321939109_2_alg».proof.Proof.RefLayer

noncomputable section

namespace Cert.ReferenceIdeal.RefValue

open Cert.ReferenceIdeal Cert.ReferenceIdeal.Gen Idealize.ShloMosaic Idealize.ShloMosaic.TcCoe Idealize.SL.Sem

set_option maxRecDepth 8192 in
set_option maxHeartbeats 4000000 in
/-- The result of the reference program on a memory `m`, at a device `c`: three layers of its argument. -/
theorem res_eq (m : (ℓ : Loc nD τ sig) → Buf (Elt Ideal) ℓ) (c : Dev nD) :
    ValueP.res_main_v49 (F := Ideal) m c
      = refLayer (refLayer (refLayer (m ((c.tc : Thread nD τ).loc main_arg0)))) := by
  unfold ValueP.res_main_v49
  rfl

end Cert.ReferenceIdeal.RefValue

end
-- ==== Proof.RefOps.lean ====
/-
  The reference's array operations read at explicit coordinates, over the ideal values.

  Each lemma says what one operation of the layer gives at row `p` and column `q` (or at row `p`) in terms of its operands
  at coordinates: a product of two tables contracted over the columns, or of a square array and a table contracted
  over the rows, is the sum over the contracted coordinate of the entries' products; a row reduction is the sum, or the
  fold of `max`, over the row; a value per row spread over the square is that row's value; a scalar spread over an
  array is the scalar.
-/
import proofs.«180055_j73289321939109_2_alg».proof.Proof.RefLayer
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The two contractions -/

theorem dotT_lhs0 (i : S4096x4096.Idx) (r : dot_S4096x1024_S4096x1024_S4096x4096_1_1_0_0_n_n.contr.Idx) : (dot_S4096x1024_S4096x1024_S4096x4096_1_1_0_0_n_n.lhsIdx i r 0).val = (i 0).val := by
  unfold DotDims.lhsIdx
  rw [dif_neg (show ¬(0 : Fin S4096x1024.rank) ∈ dot_S4096x1024_S4096x1024_S4096x4096_1_1_0_0_n_n.lhsBatch by decide),
    dif_pos (show (0 : Fin S4096x1024.rank) ∈ dot_S4096x1024_S4096x1024_S4096x4096_1_1_0_0_n_n.lhsNonContracting by decide)]
  rfl
theorem dotT_lhs1 (i : S4096x4096.Idx) (r : dot_S4096x1024_S4096x1024_S4096x4096_1_1_0_0_n_n.contr.Idx) : (dot_S4096x1024_S4096x1024_S4096x4096_1_1_0_0_n_n.lhsIdx i r 1).val = (r ⟨0, by decide⟩).val :=
  dot_S4096x1024_S4096x1024_S4096x4096_1_1_0_0_n_n.lhsIdx_val_of_single rfl i r
theorem dotT_rhs0 (i : S4096x4096.Idx) (r : dot_S4096x1024_S4096x1024_S4096x4096_1_1_0_0_n_n.contr.Idx) : (dot_S4096x1024_S4096x1024_S4096x4096_1_1_0_0_n_n.rhsIdx i r 0).val = (i 1).val := by
  unfold DotDims.rhsIdx
  rw [dif_neg (show ¬(0 : Fin S4096x1024.rank) ∈ dot_S4096x1024_S4096x1024_S4096x4096_1_1_0_0_n_n.rhsBatch by decide),
    dif_pos (show (0 : Fin S4096x1024.rank) ∈ dot_S4096x1024_S4096x1024_S4096x4096_1_1_0_0_n_n.rhsNonContracting by decide)]
  rfl
theorem dotT_rhs1 (i : S4096x4096.Idx) (r : dot_S4096x1024_S4096x1024_S4096x4096_1_1_0_0_n_n.contr.Idx) : (dot_S4096x1024_S4096x1024_S4096x4096_1_1_0_0_n_n.rhsIdx i r 1).val = (r ⟨0, by decide⟩).val :=
  dot_S4096x1024_S4096x1024_S4096x4096_1_1_0_0_n_n.rhsIdx_val_of_single rfl i r

/-- `x yᵀ` at `(p, q)`: the inner product of row `p` of `x` and row `q` of `y`. -/
theorem dotT_apply (x y : Tbl) (p q : Fin 4096) :
    Host.dotGeneral dot_S4096x1024_S4096x1024_S4096x4096_1_1_0_0_n_n none x y (ix2 p q) = ∑ k : Fin 1024, x (ix2 p k) * y (ix2 q k) := by
  simp only [Host.dotGeneral]
  rw [Ideal.dotGeneral_apply, ← Equiv.sum_comp (contrEquiv1 dot_S4096x1024_S4096x1024_S4096x4096_1_1_0_0_n_n 1024 rfl rfl).symm]
  refine Finset.sum_congr rfl fun k _ => ?_
  have hk := contrEquiv1_symm_val dot_S4096x1024_S4096x1024_S4096x4096_1_1_0_0_n_n 1024 rfl rfl k
  have el : dot_S4096x1024_S4096x1024_S4096x4096_1_1_0_0_n_n.lhsIdx (ix2 p q) ((contrEquiv1 dot_S4096x1024_S4096x1024_S4096x4096_1_1_0_0_n_n 1024 rfl rfl).symm k) = ix2 p k := funext fun a => Fin.ext (by
    match a with
    | ⟨0, _⟩ => exact dotT_lhs0 _ _
    | ⟨1, _⟩ => exact (dotT_lhs1 _ _).trans hk)
  have er : dot_S4096x1024_S4096x1024_S4096x4096_1_1_0_0_n_n.rhsIdx (ix2 p q) ((contrEquiv1 dot_S4096x1024_S4096x1024_S4096x4096_1_1_0_0_n_n 1024 rfl rfl).symm k) = ix2 q k := funext fun a => Fin.ext (by
    match a with
    | ⟨0, _⟩ => exact dotT_rhs0 _ _
    | ⟨1, _⟩ => exact (dotT_rhs1 _ _).trans hk)
  rw [el, er]

theorem dotW_lhs0 (i : S4096x1024.Idx) (r : dot_S4096x4096_S4096x1024_S4096x1024_1_0_0_1_n_n.contr.Idx) : (dot_S4096x4096_S4096x1024_S4096x1024_1_0_0_1_n_n.lhsIdx i r 0).val = (i 0).val := by
  unfold DotDims.lhsIdx
  rw [dif_neg (show ¬(0 : Fin S4096x4096.rank) ∈ dot_S4096x4096_S4096x1024_S4096x1024_1_0_0_1_n_n.lhsBatch by decide),
    dif_pos (show (0 : Fin S4096x4096.rank) ∈ dot_S4096x4096_S4096x1024_S4096x1024_1_0_0_1_n_n.lhsNonContracting by decide)]
  rfl
theorem dotW_lhs1 (i : S4096x1024.Idx) (r : dot_S4096x4096_S4096x1024_S4096x1024_1_0_0_1_n_n.contr.Idx) : (dot_S4096x4096_S4096x1024_S4096x1024_1_0_0_1_n_n.lhsIdx i r 1).val = (r ⟨0, by decide⟩).val :=
  dot_S4096x4096_S4096x1024_S4096x1024_1_0_0_1_n_n.lhsIdx_val_of_single rfl i r
theorem dotW_rhs0 (i : S4096x1024.Idx) (r : dot_S4096x4096_S4096x1024_S4096x1024_1_0_0_1_n_n.contr.Idx) : (dot_S4096x4096_S4096x1024_S4096x1024_1_0_0_1_n_n.rhsIdx i r 0).val = (r ⟨0, by decide⟩).val :=
  dot_S4096x4096_S4096x1024_S4096x1024_1_0_0_1_n_n.rhsIdx_val_of_single rfl i r
theorem dotW_rhs1 (i : S4096x1024.Idx) (r : dot_S4096x4096_S4096x1024_S4096x1024_1_0_0_1_n_n.contr.Idx) : (dot_S4096x4096_S4096x1024_S4096x1024_1_0_0_1_n_n.rhsIdx i r 1).val = (i 1).val := by
  unfold DotDims.rhsIdx
  rw [dif_neg (show ¬(1 : Fin S4096x1024.rank) ∈ dot_S4096x4096_S4096x1024_S4096x1024_1_0_0_1_n_n.rhsBatch by decide),
    dif_pos (show (1 : Fin S4096x1024.rank) ∈ dot_S4096x4096_S4096x1024_S4096x1024_1_0_0_1_n_n.rhsNonContracting by decide)]
  rfl

/-- `w x` at `(p, d)`: the sum over the rows `k` of `x` of `w (p, k)` times `x (k, d)`. -/
theorem dotW_apply (w : Sq) (x : Tbl) (p : Fin 4096) (d : Fin 1024) :
    Host.dotGeneral dot_S4096x4096_S4096x1024_S4096x1024_1_0_0_1_n_n none w x (ix2 p d) = ∑ k : Fin 4096, w (ix2 p k) * x (ix2 k d) := by
  simp only [Host.dotGeneral]
  rw [Ideal.dotGeneral_apply, ← Equiv.sum_comp (contrEquiv1 dot_S4096x4096_S4096x1024_S4096x1024_1_0_0_1_n_n 4096 rfl rfl).symm]
  refine Finset.sum_congr rfl fun k _ => ?_
  have hk := contrEquiv1_symm_val dot_S4096x4096_S4096x1024_S4096x1024_1_0_0_1_n_n 4096 rfl rfl k
  have el : dot_S4096x4096_S4096x1024_S4096x1024_1_0_0_1_n_n.lhsIdx (ix2 p d) ((contrEquiv1 dot_S4096x4096_S4096x1024_S4096x1024_1_0_0_1_n_n 4096 rfl rfl).symm k) = ix2 p k := funext fun a => Fin.ext (by
    match a with
    | ⟨0, _⟩ => exact dotW_lhs0 _ _
    | ⟨1, _⟩ => exact (dotW_lhs1 _ _).trans hk)
  have er : dot_S4096x4096_S4096x1024_S4096x1024_1_0_0_1_n_n.rhsIdx (ix2 p d) ((contrEquiv1 dot_S4096x4096_S4096x1024_S4096x1024_1_0_0_1_n_n 4096 rfl rfl).symm k) = ix2 k d := funext fun a => Fin.ext (by
    match a with
    | ⟨0, _⟩ => exact (dotW_rhs0 _ _).trans hk
    | ⟨1, _⟩ => exact dotW_rhs1 _ _)
  rw [el, er]

/-! ## The row reductions -/

/-- A row's sum, from the initial value. -/
theorem reduceAdd_apply (y : Sq) (init : Sc) (p : Fin 4096) :
    Host.reduceAdd y init reducesTo_S4096x4096_S4096_d1 h_S_ (ix1 p)
      = init (Shape.Idx.first h_S_) + ∑ k : Fin 4096, y (ix2 p k) := by
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-- A row's maximum: the fold of `max` from the initial value over the row. -/
theorem reduceMax_apply (y : Sq) (init : Sc) (p : Fin 4096) :
    Host.reduce FloatOps.maximumf y init reducesTo_S4096x4096_S4096_d1 h_S_ (ix1 p)
      = (Finset.univ : Finset (Fin 4096)).fold max (init (Shape.Idx.first h_S_)) (fun k => y (ix2 p k)) := by
  rw [Host.reduce_eq_fold_single FloatOps.maximumf y init reducesTo_S4096x4096_S4096_d1 (by decide) h_S_]
  refine congrArg (Finset.fold max (init (Shape.Idx.first h_S_)) · Finset.univ) (funext fun k => ?_)
  exact congrArg y (funext fun a => Fin.ext (by match a with | ⟨0, _⟩ => rfl | ⟨1, _⟩ => rfl))

/-! ## The spreadings -/

/-- A value per row, spread over the square: at `(p, q)` the value of row `p`. -/
theorem bcastRow_apply (v : Col) (p q : Fin 4096) :
    broadcastInDim S4096x4096 ![0, 1] bcast_S4096x1_S4096x4096_0_1
        (broadcastInDim S4096x1 ![0] bcast_S4096_S4096x1_0 v) (ix2 p q) = v (ix1 p) := by
  rw [broadcastInDim_apply _ bcast_S4096x1_S4096x4096_0_1 _ (ix2 p q) (ix2 p (0 : Fin 1)) (fun a => match a with
    | ⟨0, _⟩ => by show p.val = if (4096 : Nat) = 1 then 0 else p.val; rw [if_neg (by decide)]
    | ⟨1, _⟩ => by show 0 = if (1 : Nat) = 1 then 0 else q.val; rw [if_pos rfl])]
  exact broadcastInDim_apply _ bcast_S4096_S4096x1_0 v _ (ix1 p) (fun a => match a with
    | ⟨0, _⟩ => by show p.val = if (4096 : Nat) = 1 then 0 else p.val; rw [if_neg (by decide)])

/-- A scalar spread over the square. -/
theorem bcastSq_apply (v : Sc) (i : S4096x4096.Idx) :
    broadcastInDim S4096x4096 ![] bcast_S_S4096x4096 v i = v ix0 :=
  broadcastInDim_apply _ bcast_S_S4096x4096 v i ix0 (fun a => a.elim0)

/-- A scalar spread over a value per row. -/
theorem bcastCol_apply (v : Sc) (i : S4096.Idx) :
    broadcastInDim S4096 ![] bcast_S_S4096 v i = v ix0 :=
  broadcastInDim_apply _ bcast_S_S4096 v i ix0 (fun a => a.elim0)

/-- A scalar spread over a table. -/
theorem bcastTbl_apply (v : Sc) (i : S4096x1024.Idx) :
    broadcastInDim S4096x1024 ![] bcast_S_S4096x1024 v i = v ix0 :=
  broadcastInDim_apply _ bcast_S_S4096x1024 v i ix0 (fun a => a.elim0)

end Cert.ReferenceIdeal.RefValue

end
-- ==== Proof.RefReal.lean ====
/-
  Ideal values that are real numbers: how the operations the reference uses act on them.

  An ideal value is an extended real.  On the extended reals that are real numbers, a finite sum is the real sum, a
  product the real product, a quotient by a non-zero real the real quotient, and the maximum of finitely many of
  them — taken as a fold of `max` from `-∞` over a non-empty index set — is again a real number.  The constants the
  program names are computed here: `1024`, whose square root is `32`; `1`; `-∞`.
-/
import Idealize.ShloMosaic.PureOps.Ideal.Laws
import Mathlib.Analysis.SpecialFunctions.Sqrt

namespace Cert.ReferenceIdeal.RefValue

open Idealize.ShloMosaic

/-- A finite sum of reals, each read as an extended real, is the real sum read as one. -/
theorem coe_sum {ι : Type} (t : Finset ι) (f : ι → ℝ) :
    ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- The maximum of two reals read as extended reals. -/
theorem coe_max (a b : ℝ) : max ((a : ℝ) : EReal) ((b : ℝ) : EReal) = ((max a b : ℝ) : EReal) :=
  (EReal.coe_strictMono.monotone.map_max).symm

/-- The fold of `max` from `-∞` over a non-empty finite family of reals is a real: the family's greatest member. -/
theorem fold_max_coe {ι : Type} (t : Finset ι) (ht : t.Nonempty) (f : ι → ℝ) :
    ∃ M : ℝ, t.fold max (⊥ : EReal) (fun k => ((f k : ℝ) : EReal)) = (M : EReal) := by
  classical
  induction ht using Finset.Nonempty.cons_induction with
  | singleton a => exact ⟨f a, by rw [Finset.fold_singleton]; exact max_eq_left bot_le⟩
  | cons a t ha _ ih =>
    obtain ⟨M, hM⟩ := ih
    exact ⟨max (f a) M, by rw [Finset.fold_cons, hM, coe_max]⟩

/-- The quotient of a real by a non-zero real. -/
theorem div_coe_coe (a : ℝ) {b : ℝ} (hb : b ≠ 0) : Ideal.div ((a : ℝ) : EReal) ((b : ℝ) : EReal) = ((a / b : ℝ) : EReal) := by
  rw [Ideal.div_coe hb, ← EReal.coe_mul]
  congr 1
  ring

/-- The pattern `0x44800000` is `1024`. -/
theorem ofBits_1024 : Ideal.ofBits .f32 0x44800000#32 = ((1024 : ℝ) : EReal) := by
  simp [Ideal.ofBits, Ideal.ieee]
  first
    | (rw [← EReal.coe_mul]; norm_num; done)
    | (norm_cast; norm_num; done)

/-- The pattern `0x3F800000` is `1`. -/
theorem ofBits_one : Ideal.ofBits .f32 0x3F800000#32 = ((1 : ℝ) : EReal) := by
  simp [Ideal.ofBits, Ideal.ieee]
  first
    | (rw [← EReal.coe_mul, ← EReal.coe_one]; norm_num; done)
    | (norm_cast; norm_num; done)

/-- The pattern `0xFF800000` is `-∞`. -/
theorem ofBits_neg_inf : Ideal.ofBits .f32 0xFF800000#32 = (⊥ : EReal) := by
  simp [Ideal.ofBits, Ideal.ieee]

/-- The square root of `1024` is `32`. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

end Cert.ReferenceIdeal.RefValue
-- ==== Proof.LibAttnSpec.lean ====
/-
  Self-attention with a rectified output, over the reals: the specification both programs are compared with.

  For a finite set of nodes `ι`, a finite set of feature coordinates `δ` and a table `h : ι → δ → ℝ`:
  the score of the pair `(i, j)` is the inner product of rows `i` and `j` times a fixed scale `κ`;
  the attention weight of `j` for `i` is `exp (score i j)` normalised over `j` (a softmax: a common factor
  `exp (-μ)` in numerator and denominator cancels, so no reference point appears here);
  the layer's output at `(i, d)` is the weighted mean of column `d`, cut off below at zero.
-/
import Mathlib.Analysis.SpecialFunctions.Exp
import Mathlib.Algebra.BigOperators.Field

noncomputable section

namespace Cert.Attn

open scoped BigOperators

variable {ι δ : Type} [Fintype ι] [Fintype δ]

/-- The scaled inner product of rows `i` and `j`. -/
def score (κ : ℝ) (h : ι → δ → ℝ) (i j : ι) : ℝ := (∑ d, h i d * h j d) * κ

/-- The softmax denominator of row `i`: positive whenever there is at least one node. -/
def denom (κ : ℝ) (h : ι → δ → ℝ) (i : ι) : ℝ := ∑ j, Real.exp (score κ h i j)

/-- The unnormalised weighted sum of column `d` for row `i`. -/
def numer (κ : ℝ) (h : ι → δ → ℝ) (i : ι) (d : δ) : ℝ := ∑ j, Real.exp (score κ h i j) * h j d

/-- One layer: `relu (softmax (κ · h hᵀ) h)`. -/
def layer (κ : ℝ) (h : ι → δ → ℝ) : ι → δ → ℝ := fun i d => max (numer κ h i d / denom κ h i) 0

theorem denom_pos [Nonempty ι] (κ : ℝ) (h : ι → δ → ℝ) (i : ι) : 0 < denom κ h i :=
  Finset.sum_pos (fun j _ => Real.exp_pos _) Finset.univ_nonempty

end Cert.Attn

end
-- ==== Proof.RefLayerReal.lean ====
/-
  One reference layer on a table of real numbers is the real layer.

  Let the input table be real: `h (p, q) = hR p q`.  Then, row by row:
  the scale is the real `1/32` and the scores are the real scores `s p q`;
  the row maximum is some real `M p` (the greatest of finitely many reals; which one plays no part below);
  the exponentials are `exp (s p q - M p)`, their row sum `Z p` is a positive real, the weights are `exp (s p q - M p) / Z p`;
  the weighted table is the real sum `∑ k, exp (s p k - M p) / Z p · hR k q`, and its positive part the real maximum with `0`.
  Finally `exp (s - M) = exp s / exp M`, so the common factor `1 / exp M` cancels between the weights' numerators and
  `Z`, and the weighted sum is the specification's `(∑ k, exp (s p k) · hR k q) / ∑ k, exp (s p k)`.
-/
import proofs.«180055_j73289321939109_2_alg».proof.Proof.RefOps
import proofs.«180055_j73289321939109_2_alg».proof.Proof.RefReal
import proofs.«180055_j73289321939109_2_alg».proof.Proof.LibAttnSpec

noncomputable section

namespace Cert.ReferenceIdeal.RefValue

open Cert.ReferenceIdeal Cert.ReferenceIdeal.Gen Idealize.ShloMosaic Idealize.ShloMosaic.ValueIdx Cert.Attn

/-- Softmax weights do not depend on the reference point: subtracting `M` from every score divides numerator and
    denominator by `exp M`. -/
theorem softmax_shift {ι : Type} [Fintype ι] (s v : ι → ℝ) (M : ℝ) :
    ∑ k, Real.exp (s k - M) / (∑ j, Real.exp (s j - M)) * v k
      = (∑ k, Real.exp (s k) * v k) / (∑ j, Real.exp (s j)) := by
  have hM : Real.exp M ≠ 0 := (Real.exp_pos M).ne'
  have hZ : ∑ j, Real.exp (s j - M) = (∑ j, Real.exp (s j)) / Real.exp M := by
    rw [Finset.sum_div Finset.univ (fun j => Real.exp (s j)) (Real.exp M)]
    exact Finset.sum_congr rfl fun j _ => Real.exp_sub _ _
  rw [hZ, Finset.sum_div Finset.univ (fun k => Real.exp (s k) * v k) (∑ j, Real.exp (s j))]
  refine Finset.sum_congr rfl fun k _ => ?_
  rw [Real.exp_sub, div_div_div_cancel_right₀ hM]
  ring

/-- The host's exponential, entry by entry. -/
theorem hostExp_apply {s : Shape} (x : FVec Ideal s .f32) (i : s.Idx) : Host.exp x i = Ideal.exp (x i) := rfl

/-- The host's quotient, entry by entry. -/
theorem hostDivf_apply {s : Shape} (x y : FVec Ideal s .f32) (i : s.Idx) :
    Host.divf x y i = Ideal.div (x i) (y i) := rfl

/-- The scale is `1/32`. -/
theorem scaleV_eq : scaleV ix0 = ((1 / 32 : ℝ) : EReal) := by
  show Ideal.div (Ideal.ofBits .f32 0x3F800000#32) (Ideal.sqrt (Ideal.ofBits .f32 0x44800000#32)) = _
  rw [ofBits_1024, ofBits_one, sqrt_1024, div_coe_coe 1 (by norm_num)]

section
variable (hR : Fin 4096 → Fin 1024 → ℝ) (h : Tbl) (hh : ∀ p q, h (ix2 p q) = ((hR p q : ℝ) : EReal))
include hh

/-- The scores are the real scores at scale `1/32`. -/
theorem scores_apply (p q : Fin 4096) : scores h (ix2 p q) = ((score (1 / 32) hR p q : ℝ) : EReal) := by
  unfold scores
  rw [mulf_apply, dotT_apply, bcastSq_apply, scaleV_eq]
  simp only [hh, ← EReal.coe_mul]
  rw [coe_sum, ← EReal.coe_mul]
  rfl

/-- Each row's maximum is a real number. -/
theorem rowMax_real (p : Fin 4096) : ∃ M : ℝ, rowMax h (ix1 p) = (M : EReal) := by
  obtain ⟨M, hM⟩ := fold_max_coe (Finset.univ : Finset (Fin 4096)) ⟨0, Finset.mem_univ _⟩
    (fun k => score (1 / 32) hR p k)
  refine ⟨M, ?_⟩
  unfold rowMax
  rw [maximumf_apply, bcastCol_apply, reduceMax_apply]
  simp only [scores_apply hR h hh, constant_apply, ofBits_neg_inf]
  rw [hM]
  exact max_eq_right bot_le

variable (p : Fin 4096) (M : ℝ) (hM : rowMax h (ix1 p) = (M : EReal))
include hM

/-- The exponentials. -/
theorem expo_apply (q : Fin 4096) :
    expo h (ix2 p q) = ((Real.exp (score (1 / 32) hR p q - M) : ℝ) : EReal) := by
  unfold expo
  rw [hostExp_apply, subf_apply, bcastRow_apply, hM, scores_apply hR h hh, ← EReal.coe_sub, Ideal.exp_coe]

/-- The row's sum of exponentials. -/
theorem rowSum_apply :
    rowSum h (ix1 p) = ((∑ k : Fin 4096, Real.exp (score (1 / 32) hR p k - M) : ℝ) : EReal) := by
  unfold rowSum
  rw [reduceAdd_apply, constant_apply, Ideal.ofBits_zero_f32, zero_add]
  simp only [expo_apply hR h hh p M hM]
  exact coe_sum _ _

/-- The weights. -/
theorem weights_apply (q : Fin 4096) :
    weights h (ix2 p q)
      = ((Real.exp (score (1 / 32) hR p q - M) / ∑ k : Fin 4096, Real.exp (score (1 / 32) hR p k - M) : ℝ) : EReal) := by
  have hZ : (∑ k : Fin 4096, Real.exp (score (1 / 32) hR p k - M)) ≠ 0 :=
    (Finset.sum_pos (fun _ _ => Real.exp_pos _) ⟨0, Finset.mem_univ _⟩).ne'
  unfold weights
  rw [hostDivf_apply, bcastRow_apply, expo_apply hR h hh p M hM, rowSum_apply hR h hh p M hM, div_coe_coe _ hZ]

/-- The layer's output in row `p`. -/
theorem refLayer_apply_row (q : Fin 1024) :
    refLayer h (ix2 p q) = ((layer (1 / 32) hR p q : ℝ) : EReal) := by
  unfold refLayer
  rw [maximumf_apply, dotW_apply, bcastTbl_apply, constant_apply, Ideal.ofBits_zero_f32]
  simp only [weights_apply hR h hh p M hM, hh, ← EReal.coe_mul]
  rw [coe_sum, ← EReal.coe_zero, coe_max]
  refine congrArg (fun r : ℝ => (r : EReal)) ?_
  exact congrArg (fun r : ℝ => max r 0) (softmax_shift (fun k => score (1 / 32) hR p k) (fun k => hR k q) M)

end

/-- One layer of the reference on a real table is the real layer at scale `1/32`. -/
theorem refLayer_real (hR : Fin 4096 → Fin 1024 → ℝ) (h : Tbl) (hh : ∀ p q, h (ix2 p q) = ((hR p q : ℝ) : EReal))
    (p : Fin 4096) (q : Fin 1024) : refLayer h (ix2 p q) = ((layer (1 / 32) hR p q : ℝ) : EReal) := by
  obtain ⟨M, hM⟩ := rowMax_real hR h hh p
  exact refLayer_apply_row hR h hh p M hM q

end Cert.ReferenceIdeal.RefValue

end
-- ==== Proof.RefResult.lean ====
/-
  The reference program's result on a table of real numbers: three real layers.

  The result is three applications of the layer; each application maps a table of reals to the table of the real layer's
  values, which is again a table of reals; so the result is the real layer applied three times.
-/
import proofs.«180055_j73289321939109_2_alg».proof.Proof.RefRes
import proofs.«180055_j73289321939109_2_alg».proof.Proof.RefLayerReal

noncomputable section

namespace Cert.ReferenceIdeal.RefValue

open Cert.ReferenceIdeal Cert.ReferenceIdeal.Gen Idealize.ShloMosaic Idealize.ShloMosaic.TcCoe Idealize.SL.Sem
  Idealize.ShloMosaic.ValueIdx Cert.Attn

/-- On a memory whose argument is the real table `hR`, the reference's result at `(p, q)` is the third real layer of `hR`
    there. -/
theorem ref_result (m : (ℓ : Loc nD τ sig) → Buf (Elt Ideal) ℓ) (c : Dev nD) (hR : Fin 4096 → Fin 1024 → ℝ)
    (harg : ∀ p q, (m ((c.tc : Thread nD τ).loc main_arg0) : Tbl) (ix2 p q) = ((hR p q : ℝ) : EReal)) :
    ∀ p q, (ValueP.res_main_v49 (F := Ideal) m c : Tbl) (ix2 p q)
      = ((layer (1 / 32) (layer (1 / 32) (layer (1 / 32) hR)) p q : ℝ) : EReal) := by
  intro p q
  rw [res_eq]
  exact refLayer_real _ _ (fun p q => refLayer_real _ _ (fun p q => refLayer_real hR _ harg p q) p q) p q

end Cert.ReferenceIdeal.RefValue

end
-- ==== Proof.RefPre.lean ====
/-
  From the precondition to a table of real numbers.

  The precondition says that every entry `x` of the input table has `|x| < +∞`, all at once: the conjunction, over
  every index, of the comparisons.  An extended real whose absolute value `max x (-x)` is below `+∞` is neither `+∞` nor
  `-∞`, so it is a real number; the table of those reals is the witness.  Stated of any table, so that it serves every
  program whose precondition is this predicate of its argument.
-/
import proofs.«180055_j73289321939109_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

namespace Cert.FiniteInputs

open Idealize.ShloMosaic Cert.Pre_finite_inputs Cert.Pre_finite_inputs.Gen

/-- The scalar shape has one index. -/
instance : Subsingleton S_.Idx := ⟨fun a b => funext fun d => d.elim0⟩

/-- The pattern `0x7F800000` is `+∞`. -/
theorem ofBits_pos_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Every entry of a table of which the predicate holds is a real number. -/
theorem entry_real (x : FVec Ideal S4096x1024 .f32) (h : fn (F := Ideal) x = fun _ => 1#1) (i : S4096x1024.Idx) :
    ∃ r : ℝ, x i = (r : EReal) := by
  have h0 := congrFun h ValueIdx.ix0
  dsimp only [fn] at h0
  have hi := Host.reduce_andi_all _ _ _ _ _ h0 i
  rw [ValueIdx.cmpf_apply, broadcastInDim_apply _ bcast_S_S4096x1024 _ i ValueIdx.ix0 (fun a => a.elim0)] at hi
  have hc : Ideal.cmp .olt (max (x i) (-(x i))) (Ideal.ofBits .f32 0x7F800000#32) = 1#1 := hi
  rw [ofBits_pos_inf] at hc
  refine real_of_abs_lt_top (x i) ?_
  by_contra hn
  have h0' : Ideal.cmp .olt (max (x i) (-(x i))) ⊤ = 0#1 := by
    show BitVec.ofBool (decide (max (x i) (-(x i)) < ⊤)) = 0#1
    rw [decide_eq_false hn]
    rfl
  rw [h0'] at hc
  exact absurd hc (by decide)

/-- The table of real numbers a table satisfying the predicate is. -/
theorem exists_real_table (x : FVec Ideal S4096x1024 .f32) (h : fn (F := Ideal) x = fun _ => 1#1) :
    ∃ hR : Fin 4096 → Fin 1024 → ℝ, ∀ p q, x (ValueIdx.ix2 p q) = ((hR p q : ℝ) : EReal) :=
  ⟨fun p q => (entry_real x h (ValueIdx.ix2 p q)).choose, fun p q => (entry_real x h (ValueIdx.ix2 p q)).choose_spec⟩

end Cert.FiniteInputs
-- ==== Proof.RefPreUse.lean ====
/-
  The precondition of either idealized program gives a table of real numbers.

  Both preconditions say the same predicate of the program's one argument on every device: every entry has a finite
  absolute value.  So on every device the argument is a table of real numbers.
-/
import proofs.«180055_j73289321939109_2_alg».proof.Proof.RefPre
import proofs.«180055_j73289321939109_2_alg».proof.Defs

namespace Cert.FiniteInputs

open Idealize.ShloMosaic Idealize.ShloMosaic.TcCoe Idealize.SL.Sem Cert.Pre_finite_inputs.Gen

/-- Under the reference's precondition its argument, on each device, is a table of reals. -/
theorem ref_arg_real (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    ∃ hR : Fin 4096 → Fin 1024 → ℝ, ∀ p q,
      (m ((c.tc : Thread Cert.ReferenceIdeal.nD Cert.ReferenceIdeal.τ).loc Cert.ReferenceIdeal.main_arg0)
          : FVec Ideal Cert.Pre_finite_inputs.S4096x1024 .f32) (ValueIdx.ix2 p q) = ((hR p q : ℝ) : EReal) :=
  exists_real_table _ (hpre c)

/-- Under the kernel's precondition its argument, on each device, is a table of reals. -/
theorem kernel_arg_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ hR : Fin 4096 → Fin 1024 → ℝ, ∀ p q,
      (m ((c.tc : Thread Cert.KernelIdeal.nD Cert.KernelIdeal.τ).loc Cert.KernelIdeal.main_arg0)
          : FVec Ideal Cert.Pre_finite_inputs.S4096x1024 .f32) (ValueIdx.ix2 p q) = ((hR p q : ℝ) : EReal) :=
  exists_real_table _ (hpre c)

end Cert.FiniteInputs
-- ==== Proof.KernelIdeal.Entry.lean ====
/-
  The table the first layer reads: the program's one host operation changes the input table's float format, which at the
  ideal instance is the identity, so region 0 finds the launch contents of the argument, entry by entry.
-/
import proofs.«180055_j73289321939109_2_alg».proof.Proof.KernelIdeal.Run
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

/-- Region 0's input table is the argument, entry by entry. -/
theorem V1_main_v0_apply (m : (ℓ : Loc nD τ sig) → Buf (Elt Ideal) ℓ) (c : Dev nD) (i : S4096x1024.Idx) :
    V1 (F := Ideal) m c main_v0 i = m ((c.tc : Thread nD τ).loc main_arg0) i := by
  have e : (show FVec Ideal S4096x1024 .bf16 from V1 (F := Ideal) m c main_v0)
      = truncf (F := Ideal) .bf16 (show FVec Ideal S4096x1024 .f32 from m ((c.tc : Thread nD τ).loc main_arg0)) bitsLt_bf16_f32 := by
    dsimp only [V1, W1, W0, hostOps0]; after_results
  exact congrFun e i

end Cert.KernelIdeal.Hand

end
-- ==== Proof.KernelIdeal.R0Final.lean ====
/-
  Region 0: from the output blocks to the output table. The output window's block at grid point `t` is rows
  `1024 · (t / 8) … 1024 · (t / 8) + 1023` of the table, all columns; it is written back at the last key block of each
  query block (`t % 8 = 7`), and those four blocks tile the table. So if each written-back block is the corresponding
  rows of one table `G`, the region leaves `G`.
-/
import proofs.«180055_j73289321939109_2_alg».proof.Proof.KernelIdeal.R0Frame
import proofs.«180055_j73289321939109_2_alg».proof.Proof.LibAttnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The output window's block index at point `t`: the query block on the rows, zero on the columns. -/
theorem idx_facts0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- An index of the table is in point `t`'s block iff each coordinate is in the block's range on its axis. -/
theorem mem_blk0_2 (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The table a real table `g` denotes. -/
abbrev tbl0 (g : Fin 4096 → Fin 1024 → ℝ) : S4096x1024.Idx → EReal := fun i => ((g ⟨(i 0).val, idx2_lt0 i⟩ ⟨(i 1).val, idx2_lt1 i⟩ : ℝ) : EReal)

/-- If every written-back block is the corresponding rows of the table `g`, the region's output array ends at `g`. -/
theorem region0_value_of_blocks (V : (c : Dev nD) → (b : Ref sig .tc) → Buf (Elt Ideal) ((c : Thread nD τ).loc b)) (c : Dev nD)
    (g : Fin 4096 → Fin 1024 → ℝ)
    (hblk : ∀ (t : Fin cfg0.N) (h7 : t.val % 8 = 7) (a d : Fin 1024),
      (outsAt0 (F := Ideal) V c t.val t.isLt).1 (ix2 a d)
        = ((g ⟨1024 * (t.val / 8) + a.val, by have := t.isLt; have hN : cfg0.N = 32 := N_0; have := a.isLt; omega⟩ d : ℝ) : EReal)) :
    ∀ p q, (dat0 (F := Ideal) V c).arrAt 2 cfg0.N (ix2 p q) = ((g p q : ℝ) : EReal) := by
  have key : (dat0 (F := Ideal) V c).arrAt 2 cfg0.N = tbl0 g := by
    refine (dat0 (F := Ideal) V c).arrAt_eq_of_cover 2 (tbl0 g) (fun t hf => ?_) (fun i => ?_)
    · have h7 : t.val % 8 = 7 := (flush0_2 t).mp hf
      obtain ⟨e0, e1⟩ := idx_facts0_2 t
      show (cfg0.win 2).cut (grid0.coords t) ((dat0 (F := Ideal) V c).after 2 t) = _
      rw [after0_2]
      funext y
      obtain ⟨a, d, rfl⟩ : ∃ (a : Fin 1024) (d : Fin 1024), y = ix2 a d := ⟨y 0, y 1, eq_ix2 y⟩
      show (outsAt0 (F := Ideal) V c t.val t.isLt).1 (ix2 a d) = tbl0 g (((cfg0.win 2).blk t).view.emb (ix2 a d))
      rw [hblk t h7 a d]
      have r0 : ((((cfg0.win 2).blk t).view.emb (ix2 a d)) 0).val = 1024 * (t.val / 8) + a.val := by
        show win0_2.index t (0 : Fin 2) * 1024 + 1 * a.val = _
        rw [e0]; omega
      have r1 : ((((cfg0.win 2).blk t).view.emb (ix2 a d)) 1).val = d.val := by
        show win0_2.index t (1 : Fin 2) * 1024 + 1 * d.val = _
        rw [e1]; omega
      show _ = ((g ⟨_, _⟩ ⟨_, _⟩ : ℝ) : EReal)
      exact congrArg _ (congr (congrArg g (Fin.ext r0.symm)) (Fin.ext r1.symm))
    · have hi0 : (i 0).val < 4096 := idx2_lt0 i
      have hi1 : (i 1).val < 1024 := idx2_lt1 i
      have hN : cfg0.N = 32 := N_0
      have hN' : grid0.N = 32 := N_0
      refine ⟨⟨8 * ((i 0).val / 1024) + 7, by omega⟩, (flush0_2 _).mpr (by show (8 * ((i 0).val / 1024) + 7) % 8 = 7; omega), ?_⟩
      obtain ⟨e0, e1⟩ := idx_facts0_2 ⟨8 * ((i 0).val / 1024) + 7, by omega⟩
      have e0' : win0_2.index ⟨8 * ((i 0).val / 1024) + 7, by omega⟩ (0 : Fin 2) = (i 0).val / 1024 := by
        rw [e0]; show (8 * ((i 0).val / 1024) + 7) / 8 = _; omega
      rw [mem_blk0_2]
      intro a
      match a with
      | ⟨0, _⟩ => show win0_2.index _ (0 : Fin 2) * 1024 ≤ (i 0).val ∧ (i 0).val < win0_2.index _ (0 : Fin 2) * 1024 + 1024; rw [e0']; omega
      | ⟨1, _⟩ => show win0_2.index _ (1 : Fin 2) * 1024 ≤ (i 1).val ∧ (i 1).val < win0_2.index _ (1 : Fin 2) * 1024 + 1024; rw [e1]; omega
  intro p q
  rw [key]

end Cert.KernelIdeal.Hand

end
-- ==== Proof.KernelIdeal.R1Final.lean ====
/-
  Region 1: from the output blocks to the output table. The output window's block at grid point `t` is rows
  `1024 · (t / 8) … 1024 · (t / 8) + 1023` of the table, all columns; it is written back at the last key block of each
  query block (`t % 8 = 7`), and those four blocks tile the table. So if each written-back block is the corresponding
  rows of one table `G`, the region leaves `G`.
-/
import proofs.«180055_j73289321939109_2_alg».proof.Proof.KernelIdeal.R1Frame
import proofs.«180055_j73289321939109_2_alg».proof.Proof.LibAttnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The output window's block index at point `t`: the query block on the rows, zero on the columns. -/
theorem idx_facts1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- An index of the table is in point `t`'s block iff each coordinate is in the block's range on its axis. -/
theorem mem_blk1_2 (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- The table a real table `g` denotes. -/
abbrev tbl1 (g : Fin 4096 → Fin 1024 → ℝ) : S4096x1024.Idx → EReal := fun i => ((g ⟨(i 0).val, idx2_lt0 i⟩ ⟨(i 1).val, idx2_lt1 i⟩ : ℝ) : EReal)

/-- If every written-back block is the corresponding rows of the table `g`, the region's output array ends at `g`. -/
theorem region1_value_of_blocks (V : (c : Dev nD) → (b : Ref sig .tc) → Buf (Elt Ideal) ((c : Thread nD τ).loc b)) (c : Dev nD)
    (g : Fin 4096 → Fin 1024 → ℝ)
    (hblk : ∀ (t : Fin cfg1.N) (h7 : t.val % 8 = 7) (a d : Fin 1024),
      (outsAt1 (F := Ideal) V c t.val t.isLt).1 (ix2 a d)
        = ((g ⟨1024 * (t.val / 8) + a.val, by have := t.isLt; have hN : cfg1.N = 32 := N_1; have := a.isLt; omega⟩ d : ℝ) : EReal)) :
    ∀ p q, (dat1 (F := Ideal) V c).arrAt 2 cfg1.N (ix2 p q) = ((g p q : ℝ) : EReal) := by
  have key : (dat1 (F := Ideal) V c).arrAt 2 cfg1.N = tbl1 g := by
    refine (dat1 (F := Ideal) V c).arrAt_eq_of_cover 2 (tbl1 g) (fun t hf => ?_) (fun i => ?_)
    · have h7 : t.val % 8 = 7 := (flush1_2 t).mp hf
      obtain ⟨e0, e1⟩ := idx_facts1_2 t
      show (cfg1.win 2).cut (grid1.coords t) ((dat1 (F := Ideal) V c).after 2 t) = _
      rw [after1_2]
      funext y
      obtain ⟨a, d, rfl⟩ : ∃ (a : Fin 1024) (d : Fin 1024), y = ix2 a d := ⟨y 0, y 1, eq_ix2 y⟩
      show (outsAt1 (F := Ideal) V c t.val t.isLt).1 (ix2 a d) = tbl1 g (((cfg1.win 2).blk t).view.emb (ix2 a d))
      rw [hblk t h7 a d]
      have r0 : ((((cfg1.win 2).blk t).view.emb (ix2 a d)) 0).val = 1024 * (t.val / 8) + a.val := by
        show win1_2.index t (0 : Fin 2) * 1024 + 1 * a.val = _
        rw [e0]; omega
      have r1 : ((((cfg1.win 2).blk t).view.emb (ix2 a d)) 1).val = d.val := by
        show win1_2.index t (1 : Fin 2) * 1024 + 1 * d.val = _
        rw [e1]; omega
      show _ = ((g ⟨_, _⟩ ⟨_, _⟩ : ℝ) : EReal)
      exact congrArg _ (congr (congrArg g (Fin.ext r0.symm)) (Fin.ext r1.symm))
    · have hi0 : (i 0).val < 4096 := idx2_lt0 i
      have hi1 : (i 1).val < 1024 := idx2_lt1 i
      have hN : cfg1.N = 32 := N_1
      have hN' : grid1.N = 32 := N_1
      refine ⟨⟨8 * ((i 0).val / 1024) + 7, by omega⟩, (flush1_2 _).mpr (by show (8 * ((i 0).val / 1024) + 7) % 8 = 7; omega), ?_⟩
      obtain ⟨e0, e1⟩ := idx_facts1_2 ⟨8 * ((i 0).val / 1024) + 7, by omega⟩
      have e0' : win1_2.index ⟨8 * ((i 0).val / 1024) + 7, by omega⟩ (0 : Fin 2) = (i 0).val / 1024 := by
        rw [e0]; show (8 * ((i 0).val / 1024) + 7) / 8 = _; omega
      rw [mem_blk1_2]
      intro a
      match a with
      | ⟨0, _⟩ => show win1_2.index _ (0 : Fin 2) * 1024 ≤ (i 0).val ∧ (i 0).val < win1_2.index _ (0 : Fin 2) * 1024 + 1024; rw [e0']; omega
      | ⟨1, _⟩ => show win1_2.index _ (1 : Fin 2) * 1024 ≤ (i 1).val ∧ (i 1).val < win1_2.index _ (1 : Fin 2) * 1024 + 1024; rw [e1]; omega
  intro p q
  rw [key]

end Cert.KernelIdeal.Hand

end
-- ==== Proof.KernelIdeal.R2Final.lean ====
/-
  Region 2: from the output blocks to the output table. The output window's block at grid point `t` is rows
  `1024 · (t / 8) … 1024 · (t / 8) + 1023` of the table, all columns; it is written back at the last key block of each
  query block (`t % 8 = 7`), and those four blocks tile the table. So if each written-back block is the corresponding
  rows of one table `G`, the region leaves `G`.
-/
import proofs.«180055_j73289321939109_2_alg».proof.Proof.KernelIdeal.R2Frame
import proofs.«180055_j73289321939109_2_alg».proof.Proof.LibAttnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The output window's block index at point `t`: the query block on the rows, zero on the columns. -/
theorem idx_facts2_2 : ∀ t : Fin cfg2.N, win2_2.index t (0 : Fin 2) = t.val / 8 ∧ win2_2.index t (1 : Fin 2) = 0 :=
  (by decide +kernel : ∀ t : Fin grid2.N, win2_2.index t (0 : Fin 2) = t.val / 8 ∧ win2_2.index t (1 : Fin 2) = 0)

/-- An index of the table is in point `t`'s block iff each coordinate is in the block's range on its axis. -/
theorem mem_blk2_2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v3).slice (win2_2.rect t)).set ↔ _
  rw [View.set_slice_whole, Rect.mem_set_unit]
  exact Iff.rfl

/-- The table a real table `g` denotes. -/
abbrev tbl2 (g : Fin 4096 → Fin 1024 → ℝ) : S4096x1024.Idx → EReal := fun i => ((g ⟨(i 0).val, idx2_lt0 i⟩ ⟨(i 1).val, idx2_lt1 i⟩ : ℝ) : EReal)

/-- If every written-back block is the corresponding rows of the table `g`, the region's output array ends at `g`. -/
theorem region2_value_of_blocks (V : (c : Dev nD) → (b : Ref sig .tc) → Buf (Elt Ideal) ((c : Thread nD τ).loc b)) (c : Dev nD)
    (g : Fin 4096 → Fin 1024 → ℝ)
    (hblk : ∀ (t : Fin cfg2.N) (h7 : t.val % 8 = 7) (a d : Fin 1024),
      (outsAt2 (F := Ideal) V c t.val t.isLt).1 (ix2 a d)
        = ((g ⟨1024 * (t.val / 8) + a.val, by have := t.isLt; have hN : cfg2.N = 32 := N_2; have := a.isLt; omega⟩ d : ℝ) : EReal)) :
    ∀ p q, (dat2 (F := Ideal) V c).arrAt 2 cfg2.N (ix2 p q) = ((g p q : ℝ) : EReal) := by
  have key : (dat2 (F := Ideal) V c).arrAt 2 cfg2.N = tbl2 g := by
    refine (dat2 (F := Ideal) V c).arrAt_eq_of_cover 2 (tbl2 g) (fun t hf => ?_) (fun i => ?_)
    · have h7 : t.val % 8 = 7 := (flush2_2 t).mp hf
      obtain ⟨e0, e1⟩ := idx_facts2_2 t
      show (cfg2.win 2).cut (grid2.coords t) ((dat2 (F := Ideal) V c).after 2 t) = _
      rw [after2_2]
      funext y
      obtain ⟨a, d, rfl⟩ : ∃ (a : Fin 1024) (d : Fin 1024), y = ix2 a d := ⟨y 0, y 1, eq_ix2 y⟩
      show (outsAt2 (F := Ideal) V c t.val t.isLt).1 (ix2 a d) = tbl2 g (((cfg2.win 2).blk t).view.emb (ix2 a d))
      rw [hblk t h7 a d]
      have r0 : ((((cfg2.win 2).blk t).view.emb (ix2 a d)) 0).val = 1024 * (t.val / 8) + a.val := by
        show win2_2.index t (0 : Fin 2) * 1024 + 1 * a.val = _
        rw [e0]; omega
      have r1 : ((((cfg2.win 2).blk t).view.emb (ix2 a d)) 1).val = d.val := by
        show win2_2.index t (1 : Fin 2) * 1024 + 1 * d.val = _
        rw [e1]; omega
      show _ = ((g ⟨_, _⟩ ⟨_, _⟩ : ℝ) : EReal)
      exact congrArg _ (congr (congrArg g (Fin.ext r0.symm)) (Fin.ext r1.symm))
    · have hi0 : (i 0).val < 4096 := idx2_lt0 i
      have hi1 : (i 1).val < 1024 := idx2_lt1 i
      have hN : cfg2.N = 32 := N_2
      have hN' : grid2.N = 32 := N_2
      refine ⟨⟨8 * ((i 0).val / 1024) + 7, by omega⟩, (flush2_2 _).mpr (by show (8 * ((i 0).val / 1024) + 7) % 8 = 7; omega), ?_⟩
      obtain ⟨e0, e1⟩ := idx_facts2_2 ⟨8 * ((i 0).val / 1024) + 7, by omega⟩
      have e0' : win2_2.index ⟨8 * ((i 0).val / 1024) + 7, by omega⟩ (0 : Fin 2) = (i 0).val / 1024 := by
        rw [e0]; show (8 * ((i 0).val / 1024) + 7) / 8 = _; omega
      rw [mem_blk2_2]
      intro a
      match a with
      | ⟨0, _⟩ => show win2_2.index _ (0 : Fin 2) * 1024 ≤ (i 0).val ∧ (i 0).val < win2_2.index _ (0 : Fin 2) * 1024 + 1024; rw [e0']; omega
      | ⟨1, _⟩ => show win2_2.index _ (1 : Fin 2) * 1024 ≤ (i 1).val ∧ (i 1).val < win2_2.index _ (1 : Fin 2) * 1024 + 1024; rw [e1]; omega
  intro p q
  rw [key]

end Cert.KernelIdeal.Hand

end
-- ==== Proof.KernelIdeal.R0Pieces.lean ====
/-
  Region 0: what each control case of the body leaves in the carried buffers and in the output buffer, as the
  step's named values of the blocks and of the carried buffers' previous contents.
-/
import proofs.«180055_j73289321939109_2_alg».proof.Proof.KernelIdeal.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzR0 : (![0, 0] : Fin 2 → Nat) = fun _ => 0 := funext fun a => by fin_cases a <;> rfl

theorem sout0_B_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_B_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) :
    sout0_B_1 c i arg2 harg2 arg3 harg3 arg4 harg4 arg5 harg5 arg6 harg6 arg7 harg7 hc0 hc1 x0 x1 xs0 xs1 xs2 = k0_pay12 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_B_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S512x1024 .bf16) (xs0 : Vec F S1024x1 .f32) (xs1 : Vec F S1024x1 .f32) (xs2 : Vec F S1024x1024 .f32) :
    sout0_B_2 c i arg2 harg2 arg3 harg3 arg4 harg4 arg5 harg5 arg6 harg6 arg7 harg7 hc0 hc1 x0 x1 xs0 xs1 xs2 = k0_pay1 (k0_pay13 x0 x1 xs0 xs0 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_C_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_C_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    sout0_C_1 c i arg2 harg2 arg3 harg3 arg4 harg4 arg5 harg5 arg6 harg6 arg7 harg7 hc0 hc1 x0 x1 xs0 xs1 xs2 = k0_pay12 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_C_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    sout0_C_2 c i arg2 harg2 arg3 harg3 arg4 harg4 arg5 harg5 arg6 harg6 arg7 harg7 hc0 hc1 x0 x1 xs0 xs1 xs2 = k0_pay1 (k0_pay13 x0 x1 xs0 xs0 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem out0_C_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S512x1024 .bf16) (xs0 : Vec F S1024x1 .f32) (xs1 : Vec F S1024x1 .f32) (xs2 : Vec F S1024x1024 .f32) :
    out0_C_2 c i arg2 harg2 arg3 harg3 arg4 harg4 arg5 harg5 arg6 harg6 arg7 harg7 hc0 hc1 x0 x1 xs0 xs1 xs2 = k0_pay3 (k0_pay1 (k0_pay13 x0 x1 xs0 xs0 xs2)) (k0_pay12 x0 x1 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_A_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) :
    sout0_A_0 c i arg2 harg2 arg3 harg3 arg4 harg4 arg5 harg5 arg6 harg6 arg7 harg7 hc0 hc1 x0 x1 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_A_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) :
    sout0_A_1 c i arg2 harg2 arg3 harg3 arg4 harg4 arg5 harg5 arg6 harg6 arg7 harg7 hc0 hc1 x0 x1 = k0_pay12 x0 x1 k0_pay4 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]
theorem sout0_A_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S512x1024 .bf16) :
    sout0_A_2 c i arg2 harg2 arg3 harg3 arg4 harg4 arg5 harg5 arg6 harg6 arg7 harg7 hc0 hc1 x0 x1 = k0_pay1 (k0_pay13 x0 x1 k0_pay4 k0_pay4 k0_pay6) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1024x1024) hzR0]
  simp only [View.readCov_unit_zero (S := S1024x1) arg5.view hzR0, View.readCov_unit_zero (S := S1024x1) arg6.view hzR0, View.readCov_unit_zero (S := S1024x1024) arg7.view hzR0, View.readAt_eq_ld, harg2.read_unread, harg3.read_unread, harg4.read_unread, harg5.read_unread, harg6.read_unread, harg7.read_unread, View.ld_unit_zero (S := S1024x1024) hzR0, View.ld_unit_zero (S := S512x1024) hzR0, View.ld_unit_zero (S := S1024x1) hzR0]

end Cert.KernelIdeal.Hand

end
-- ==== Proof.LibIdealReal.lean ====
/-
  The exact float operations on finite values.

  At the exact reading a float is an extended real and every operation is the textbook one. When the operands
  are (coercions of) real numbers, and the operation is not at a corner (no division by zero), the result is
  the coercion of the real result:
      x + y, x - y, x * y, max x y, exp x, x / y (y ≠ 0), a finite sum, a finite maximum (from a real start, or
      from -∞ over a nonempty family),
  each stated for the extended-real operator and for the float operation of the same name (kernel's and host's).
  Also the values a few 32-bit words denote: 0, 1, 1024, 1/32, -∞, and one large negative finite number; and
  √1024 = 32, so that  1 / √1024  and the word for  1/32  are the same number.
-/
import Idealize.ShloMosaic.PureOps.Ideal
import Idealize.ShloMosaic.PureOps.Ideal.Laws

noncomputable section

namespace Cert.IdealReal

open scoped BigOperators
open Idealize.ShloMosaic

variable {φ : FTy}

/-! ### The extended-real operators on coerced reals -/

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

/-- The coercion is monotone, so it commutes with `max`. -/
@[simp, norm_cast] theorem coe_max (x y : ℝ) : ((max x y : ℝ) : EReal) = max (x : EReal) (y : EReal) :=
  EReal.coe_strictMono.monotone.map_max
theorem max_coe (x y : ℝ) : max (x : EReal) (y : EReal) = ((max x y : ℝ) : EReal) := (coe_max x y).symm
theorem max_coe_zero (x : ℝ) : max (x : EReal) 0 = ((max x 0 : ℝ) : EReal) := by
  rw [← EReal.coe_zero, max_coe]

theorem exp_coe (x : ℝ) : Ideal.exp (x : EReal) = ((Real.exp x : ℝ) : EReal) := rfl
theorem exp_sub_coe (x y : ℝ) : Ideal.exp ((x : EReal) - (y : EReal)) = ((Real.exp (x - y) : ℝ) : EReal) := rfl

/-- Division of reals by a nonzero real. -/
theorem div_coe {y : ℝ} (hy : y ≠ 0) (x : ℝ) : Ideal.div (x : EReal) (y : EReal) = ((x / y : ℝ) : EReal) := by
  rw [Ideal.div_coe hy, ← EReal.coe_mul, mul_one_div]

/-- `√1024 = 32`. -/
theorem sqrt_1024 : Ideal.sqrt ((1024 : ℝ) : EReal) = ((32 : ℝ) : EReal) := by
  have h : Real.sqrt 1024 = 32 := by
    rw [show (1024 : ℝ) = 32 ^ 2 by norm_num, Real.sqrt_sq (by norm_num)]
  rw [Ideal.sqrt_coe, if_neg (by norm_num), h]

/-! ### Finite sums and maxima -/

/-- A finite sum of coerced reals is the coerced sum. -/
@[simp, norm_cast] theorem coe_finset_sum {α : Type*} (s : Finset α) (f : α → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_coe {α : Type*} (s : Finset α) (f : α → ℝ) :
    ∑ i ∈ s, (f i : EReal) = ((∑ i ∈ s, f i : ℝ) : EReal) := (coe_finset_sum s f).symm

/-- The same when each summand is only known to be a coerced real. -/
theorem sum_eq_coe {α : Type*} (s : Finset α) (g : α → EReal) (f : α → ℝ) (hg : ∀ i ∈ s, g i = (f i : EReal)) :
    ∑ i ∈ s, g i = ((∑ i ∈ s, f i : ℝ) : EReal) := by
  rw [Finset.sum_congr rfl hg, sum_coe]

/-- A fold of `max` from a real start over coerced reals is the coerced fold. -/
theorem fold_max_coe {α : Type*} (s : Finset α) (a : ℝ) (f : α → ℝ) :
    s.fold max (a : EReal) (fun i => (f i : EReal)) = ((s.fold max a f : ℝ) : EReal) := by
  induction s using Finset.cons_induction with
  | empty => simp
  | cons b s hb ih => rw [Finset.fold_cons, Finset.fold_cons, ih, max_coe]

/-- A fold of `max` from `-∞` over a NONEMPTY family of coerced reals is a coerced real: the family's maximum. -/
theorem fold_max_bot_coe {α : Type*} (s : Finset α) (hs : s.Nonempty) (f : α → ℝ) :
    s.fold max (⊥ : EReal) (fun i => (f i : EReal)) = ((s.sup' hs f : ℝ) : EReal) := by
  induction hs using Finset.Nonempty.cons_induction with
  | singleton a => simp
  | cons a s ha hs ih =>
    rw [Finset.fold_cons, ih, Finset.sup'_cons hs, max_coe]

/-- The same when each element is only known to be a coerced real. -/
theorem fold_max_bot_eq_coe {α : Type*} (s : Finset α) (hs : s.Nonempty) (g : α → EReal) (f : α → ℝ)
    (hg : ∀ i ∈ s, g i = (f i : EReal)) :
    s.fold max (⊥ : EReal) g = ((s.sup' hs f : ℝ) : EReal) := by
  rw [← fold_max_bot_coe s hs f]
  exact Finset.fold_congr hg

/-- In particular it is SOME real, above every element. -/
theorem fold_max_bot_real {α : Type*} (s : Finset α) (hs : s.Nonempty) (g : α → EReal) (f : α → ℝ)
    (hg : ∀ i ∈ s, g i = (f i : EReal)) :
    ∃ m : ℝ, s.fold max (⊥ : EReal) g = (m : EReal) ∧ ∀ i ∈ s, f i ≤ m :=
  ⟨s.sup' hs f, fold_max_bot_eq_coe s hs g f hg, fun i hi => Finset.le_sup' f hi⟩

/-! ### The float operations of the exact reading -/

theorem addf_coe (x y : ℝ) : FloatOps.addf (F := Ideal) (φ := φ) (x : EReal) (y : EReal) = ((x + y : ℝ) : EReal) :=
  add_coe x y
theorem subf_coe (x y : ℝ) : FloatOps.subf (F := Ideal) (φ := φ) (x : EReal) (y : EReal) = ((x - y : ℝ) : EReal) :=
  sub_coe x y
theorem mulf_coe (x y : ℝ) : FloatOps.mulf (F := Ideal) (φ := φ) (x : EReal) (y : EReal) = ((x * y : ℝ) : EReal) :=
  mul_coe x y
theorem maximumf_coe (x y : ℝ) :
    FloatOps.maximumf (F := Ideal) (φ := φ) (x : EReal) (y : EReal) = ((max x y : ℝ) : EReal) :=
  max_coe x y
theorem expf_coe (x : ℝ) : FloatOps.exp (F := Ideal) (φ := φ) (x : EReal) = ((Real.exp x : ℝ) : EReal) := rfl
theorem divf_coe {y : ℝ} (hy : y ≠ 0) (x : ℝ) :
    FloatOps.divf (F := Ideal) (φ := φ) (x : EReal) (y : EReal) = ((x / y : ℝ) : EReal) :=
  div_coe hy x

/-- The host's quotient, exponential and square root are the same functions. -/
theorem hostDivf_coe {y : ℝ} (hy : y ≠ 0) (x : ℝ) :
    FloatOps.hostDivf (F := Ideal) (φ := φ) (x : EReal) (y : EReal) = ((x / y : ℝ) : EReal) :=
  div_coe hy x
theorem hostExp_coe (x : ℝ) :
    FloatOps.hostUnary (F := Ideal) .exp (φ := φ) (x : EReal) = ((Real.exp x : ℝ) : EReal) := rfl
theorem hostSqrt_1024 :
    FloatOps.hostUnary (F := Ideal) .sqrt (φ := φ) ((1024 : ℝ) : EReal) = ((32 : ℝ) : EReal) := sqrt_1024

/-- A fold of the float maximum is the fold of `max`. -/
theorem fold_maximumf_eq {α : Type*} (s : Finset α) (a : EReal) (g : α → EReal) :
    s.fold (FloatOps.maximumf (F := Ideal) (φ := φ)) a g = s.fold max a g := rfl

/-! ### What a few 32-bit words denote -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The large negative finite number the word `0xFF333332` denotes: `-(2^23 + 0x333332) · 2^104`. -/
def negBig : ℝ := -(11744050 * 2 ^ 104)

theorem ofBits_negBig : Ideal.ofBits .f32 0xFF333332#32 = ((negBig : ℝ) : EReal) := by
  simp [Ideal.ofBits, Ideal.ieee, -EReal.coe_mul, negBig]

theorem ofBits_negBig_real : ∃ x : ℝ, Ideal.ofBits .f32 0xFF333332#32 = (x : EReal) := ⟨negBig, ofBits_negBig⟩

/-- `1 / √1024`, computed on the host from the words for `1` and `1024`, is the number the word for `1/32` denotes. -/
theorem host_one_div_sqrt_1024 :
    FloatOps.hostDivf (F := Ideal) (φ := .f32) (Ideal.ofBits .f32 0x3F800000#32)
        (FloatOps.hostUnary (F := Ideal) .sqrt (φ := .f32) (Ideal.ofBits .f32 0x44800000#32))
      = ((1 / 32 : ℝ) : EReal) := by
  rw [ofBits_one, ofBits_1024, hostSqrt_1024, hostDivf_coe (by norm_num)]

theorem host_one_div_sqrt_1024_eq_word :
    FloatOps.hostDivf (F := Ideal) (φ := .f32) (Ideal.ofBits .f32 0x3F800000#32)
        (FloatOps.hostUnary (F := Ideal) .sqrt (φ := .f32) (Ideal.ofBits .f32 0x44800000#32))
      = Ideal.ofBits .f32 0x3D000000#32 := by
  rw [host_one_div_sqrt_1024, ofBits_inv32]

end Cert.IdealReal

end
-- ==== Proof.KernelIdeal.PayReal0.lean ====
/-
  The arithmetic of one grid step of the attention kernel, read at one element, on real data.

  One grid step holds a block of 1024 query rows `q`, a block of 512 key rows `k` (also the values), and the running
  state of every query row `a`: a reference point `m a`, a denominator `l a`, a numerator `acc a d` per feature `d`.
  When all of these are (coercions of) real numbers, every value the step computes is the coercion of a real number:
    the score          s a r   = (∑ e, q a e · k r e) · (1/32),
    the new reference  μ' a    = max (m a) (max over r of s a r),
    the rescaling      exp (m a − μ' a),        the weights  exp (s a r − μ' a),
    the denominator    exp (m a − μ' a) · l a + ∑ r, exp (s a r − μ' a),
    the numerator      exp (m a − μ' a) · acc a d + ∑ r, exp (s a r − μ' a) · k r d,
    the output         max (acc a d / l a) 0    (for l a ≠ 0),
  and the values a first step resets the state to are a fixed real, 0 and 0.
  Also two layout facts used on the way: a column `[a]` viewed as `[a, 1]`, and a column `[a, 1]` repeated to `[a, b]`.
-/
import proofs.«180055_j73289321939109_2_alg».proof.Proof.Gen.KernelIdeal.Skeleton
import proofs.«180055_j73289321939109_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayReal0

open scoped BigOperators
open Cert.KernelIdeal Cert.KernelIdeal.Gen Idealize.ShloMosaic Idealize.ShloMosaic.ValueIdx Cert.IdealReal

/-! ### Two layout facts -/

section Layout
variable {α : Type}

/-- An `[a]` array viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The two contractions at an element -/

section Contractions

theorem d1_lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem d1_lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem d1_rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem d1_rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem d2_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem d2_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem d2_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem d2_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Rows against rows: `x`'s row `a` with `y`'s row `r`, into a zero accumulator. -/
theorem matmul_rows_apply (x : FVec Ideal S1024x1024 .bf16) (y : FVec Ideal S512x1024 .bf16) (a : Fin 1024) (r : Fin 512) :
    matmul dot_S1024x1024_S512x1024_S1024x512_1_1_0_0_n_n none x y (constant (F := Ideal) S1024x512 .f32 0x00000000#32) (ix2 a r)
      = ∑ e : Fin 1024, x (ix2 a e) * y (ix2 r e) := by
  simp only [matmul]
  rw [Ideal.matmul_constant_zero_apply,
    ← Equiv.sum_comp (contrEquiv1 dot_S1024x1024_S512x1024_S1024x512_1_1_0_0_n_n 1024 rfl rfl).symm]
  refine Finset.sum_congr rfl fun e _ => ?_
  have hk := contrEquiv1_symm_val dot_S1024x1024_S512x1024_S1024x512_1_1_0_0_n_n 1024 rfl rfl e
  have el : dot_S1024x1024_S512x1024_S1024x512_1_1_0_0_n_n.lhsIdx (ix2 a r)
      ((contrEquiv1 dot_S1024x1024_S512x1024_S1024x512_1_1_0_0_n_n 1024 rfl rfl).symm e) = ix2 a e :=
    funext fun c => Fin.ext (by
      match c with
      | ⟨0, _⟩ => exact d1_lhs_0 _ _
      | ⟨1, _⟩ => exact (d1_lhs_1 _ _).trans hk)
  have er : dot_S1024x1024_S512x1024_S1024x512_1_1_0_0_n_n.rhsIdx (ix2 a r)
      ((contrEquiv1 dot_S1024x1024_S512x1024_S1024x512_1_1_0_0_n_n 1024 rfl rfl).symm e) = ix2 r e :=
    funext fun c => Fin.ext (by
      match c with
      | ⟨0, _⟩ => exact d1_rhs_0 _ _
      | ⟨1, _⟩ => exact (d1_rhs_1 _ _).trans hk)
  rw [el, er]

/-- Rows against columns: `x`'s row `a` with `y`'s column `d`, into a zero accumulator. -/
theorem matmul_cols_apply (x : FVec Ideal S1024x512 .bf16) (y : FVec Ideal S512x1024 .bf16) (a : Fin 1024) (d : Fin 1024) :
    matmul dot_S1024x512_S512x1024_S1024x1024_1_0_0_1_n_n none x y (constant (F := Ideal) S1024x1024 .f32 0x00000000#32) (ix2 a d)
      = ∑ r : Fin 512, x (ix2 a r) * y (ix2 r d) := by
  simp only [matmul]
  rw [Ideal.matmul_constant_zero_apply,
    ← Equiv.sum_comp (contrEquiv1 dot_S1024x512_S512x1024_S1024x1024_1_0_0_1_n_n 512 rfl rfl).symm]
  refine Finset.sum_congr rfl fun e _ => ?_
  have hk := contrEquiv1_symm_val dot_S1024x512_S512x1024_S1024x1024_1_0_0_1_n_n 512 rfl rfl e
  have el : dot_S1024x512_S512x1024_S1024x1024_1_0_0_1_n_n.lhsIdx (ix2 a d)
      ((contrEquiv1 dot_S1024x512_S512x1024_S1024x1024_1_0_0_1_n_n 512 rfl rfl).symm e) = ix2 a e :=
    funext fun c => Fin.ext (by
      match c with
      | ⟨0, _⟩ => exact d2_lhs_0 _ _
      | ⟨1, _⟩ => exact (d2_lhs_1 _ _).trans hk)
  have er : dot_S1024x512_S512x1024_S1024x1024_1_0_0_1_n_n.rhsIdx (ix2 a d)
      ((contrEquiv1 dot_S1024x512_S512x1024_S1024x1024_1_0_0_1_n_n 512 rfl rfl).symm e) = ix2 e d :=
    funext fun c => Fin.ext (by
      match c with
      | ⟨0, _⟩ => exact (d2_rhs_0 _ _).trans hk
      | ⟨1, _⟩ => exact d2_rhs_1 _ _)
  rw [el, er]

end Contractions

/-! ### The two row reductions at an element -/

section Reductions

/-- Row `a` of a `[1024, 512]` array with column `r` inserted. -/
theorem lift_row (h : S1024x512.Reduces [1] S1024) (a : Fin 1024) (r : Fin 512) : h.lift (ix1 a) r = ix2 a r := by
  funext c
  match c with
  | ⟨0, _⟩ => exact Fin.ext rfl
  | ⟨1, _⟩ => exact Fin.ext rfl

/-- The row maximum from `-∞`. -/
theorem rowmax_apply (src : FVec Ideal S1024x512 .f32) (h : S1024x512.Reduces [1] S1024) (hφ : FKind.Formats .f32)
    (hacc : (0xFF800000#32 : BitVec 32) = FKind.maximumf.neutral .f32 hφ) (a : Fin 1024) :
    multiReduction (F := Ideal) .maximumf [1] S1024 src 0xFF800000#32 h hφ hacc (ix1 a)
      = (Finset.univ : Finset (Fin 512)).fold max (⊥ : EReal) (fun r => src (ix2 a r)) := by
  refine (Ideal.multiReduction_maximumf_single src 0xFF800000#32 h hφ hacc (ix1 a)).trans ?_
  show (Finset.univ : Finset (Fin 512)).fold max (Ideal.ofBits .f32 0xFF800000#32) (fun r => src (h.lift (ix1 a) r)) = _
  rw [ofBits_neg_inf]
  exact congrArg (fun g : Fin 512 → EReal => (Finset.univ : Finset (Fin 512)).fold max (⊥ : EReal) g)
    (funext fun r => congrArg src (lift_row h a r))

/-- The row sum from zero. -/
theorem rowsum_apply (src : FVec Ideal S1024x512 .f32) (h : S1024x512.Reduces [1] S1024) (hφ : FKind.Formats .f32)
    (hacc : (0x00000000#32 : BitVec 32) = FKind.add.neutral .f32 hφ) (a : Fin 1024) :
    multiReduction (F := Ideal) .add [1] S1024 src 0x00000000#32 h hφ hacc (ix1 a) = ∑ r : Fin 512, src (ix2 a r) := by
  refine (Ideal.multiReduction_add_single src 0x00000000#32 h hφ hacc (ix1 a)).trans ?_
  show ∑ r : Fin 512, src (h.lift (ix1 a) r) = _
  exact Finset.sum_congr rfl fun r _ => congrArg src (lift_row h a r)

end Reductions

/-! ### The step's values on real data -/

section Real

/-- The score of query row `a` against key row `r`. -/
def sc (qR : Fin 1024 → Fin 1024 → ℝ) (kR : Fin 512 → Fin 1024 → ℝ) (a : Fin 1024) (r : Fin 512) : ℝ :=
  (∑ e : Fin 1024, qR a e * kR r e) * (1 / 32)

/-- The new reference point of row `a`: the old one against the block's largest score. -/
def newRef (qR : Fin 1024 → Fin 1024 → ℝ) (kR : Fin 512 → Fin 1024 → ℝ) (mR : Fin 1024 → ℝ) (a : Fin 1024) : ℝ :=
  max (mR a) (Finset.univ.sup' Finset.univ_nonempty (sc qR kR a))

variable (q : Vec Ideal S1024x1024 .bf16) (k : Vec Ideal S512x1024 .bf16) (m0 l0 : Vec Ideal S1024x1 .f32)
  (acc0 : Vec Ideal S1024x1024 .f32)
  (qR : Fin 1024 → Fin 1024 → ℝ) (kR : Fin 512 → Fin 1024 → ℝ) (mR lR : Fin 1024 → ℝ) (accR : Fin 1024 → Fin 1024 → ℝ)

/-- (s) the scores. -/
theorem pay8_apply (hq : ∀ a e, q (ix2 a e) = ((qR a e : ℝ) : EReal)) (hk : ∀ r e, k (ix2 r e) = ((kR r e : ℝ) : EReal))
    (a : Fin 1024) (r : Fin 512) :
    k0_pay8 (F := Ideal) q k (ix2 a r) = ((sc qR kR a r : ℝ) : EReal) := by
  unfold k0_pay8 k0_pay7
  simp only [shapeCast_self]
  refine (mulf_apply _ _ _).trans ?_
  rw [matmul_rows_apply]
  show (∑ e : Fin 1024, q (ix2 a e) * k (ix2 r e)) * Ideal.ofBits .f32 0x3D000000#32 = _
  simp only [hq, hk, ofBits_inv32, mul_coe, sum_coe]
  rfl

/-- (m) the new reference point. -/
theorem pay9_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k0_pay9 (F := Ideal) q k m0 (ix2 a (0 : Fin 1)) = ((newRef qR kR mR a : ℝ) : EReal) := by
  unfold k0_pay9
  refine (maximumf_apply _ _ _).trans ?_
  rw [hm a]
  refine (congrArg (max ((mR a : ℝ) : EReal)) ((shapeCast_a_a1_apply _ _ a 0).trans
    (rowmax_apply (k0_pay8 (F := Ideal) q k) _ _ _ a))).trans ?_
  rw [fold_max_bot_eq_coe Finset.univ Finset.univ_nonempty _ (sc qR kR a) (fun r _ => pay8_apply q k qR kR hq hk a r),
    max_coe]
  rfl

/-- (a) the factor that rescales the old sums. -/
theorem pay10_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k0_pay10 (F := Ideal) q k m0 m0 (ix2 a (0 : Fin 1)) = ((Real.exp (mR a - newRef qR kR mR a) : ℝ) : EReal) := by
  unfold k0_pay10
  show Ideal.exp (m0 (ix2 a (0 : Fin 1)) - k0_pay9 (F := Ideal) q k m0 (ix2 a (0 : Fin 1))) = _
  rw [hm a, pay9_apply q k m0 qR kR mR hq hk hm a, exp_sub_coe]

/-- (p) the block's weights. -/
theorem pay11_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) (r : Fin 512) :
    k0_pay11 (F := Ideal) q k m0 (ix2 a r) = ((Real.exp (sc qR kR a r - newRef qR kR mR a) : ℝ) : EReal) := by
  unfold k0_pay11
  show Ideal.exp (k0_pay8 (F := Ideal) q k (ix2 a r)
      - broadcastTo S1024x512 (k0_pay9 (F := Ideal) q k m0) broadcasts_S1024x1_S1024x512 (ix2 a r)) = _
  rw [broadcastTo_a1_ab_apply, pay8_apply q k qR kR hq hk a r, pay9_apply q k m0 qR kR mR hq hk hm a, exp_sub_coe]

/-- (l) the new denominator. -/
theorem pay12_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (hl : ∀ a, l0 (ix2 a (0 : Fin 1)) = ((lR a : ℝ) : EReal))
    (a : Fin 1024) :
    k0_pay12 (F := Ideal) q k m0 m0 l0 (ix2 a (0 : Fin 1))
      = ((Real.exp (mR a - newRef qR kR mR a) * lR a
          + ∑ r : Fin 512, Real.exp (sc qR kR a r - newRef qR kR mR a) : ℝ) : EReal) := by
  unfold k0_pay12
  simp only [shapeCast_self]
  refine (addf_apply _ _ _).trans ?_
  refine (congrArg₂ (· + ·) (mulf_apply _ _ _) ((shapeCast_a_a1_apply _ _ a 0).trans
    (rowsum_apply (k0_pay11 (F := Ideal) q k m0) _ _ _ a))).trans ?_
  rw [pay10_apply q k m0 qR kR mR hq hk hm a, hl a]
  simp only [pay11_apply q k m0 qR kR mR hq hk hm, mul_coe, sum_coe, add_coe]

/-- (acc) the new numerator. -/
theorem pay13_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal))
    (hacc : ∀ a d, acc0 (ix2 a d) = ((accR a d : ℝ) : EReal)) (a : Fin 1024) (d : Fin 1024) :
    k0_pay13 (F := Ideal) q k m0 m0 acc0 (ix2 a d)
      = ((Real.exp (mR a - newRef qR kR mR a) * accR a d
          + ∑ r : Fin 512, Real.exp (sc qR kR a r - newRef qR kR mR a) * kR r d : ℝ) : EReal) := by
  unfold k0_pay13 k0_pay7
  simp only [shapeCast_self]
  refine (addf_apply _ _ _).trans ?_
  refine (congrArg₂ (· + ·) ((mulf_apply _ _ _).trans (congrArg (· * acc0 (ix2 a d)) (broadcastTo_a1_ab_apply _ _ a d)))
    (matmul_cols_apply _ _ a d)).trans ?_
  rw [pay10_apply q k m0 qR kR mR hq hk hm a, hacc a d]
  show _ + ∑ r : Fin 512, k0_pay11 (F := Ideal) q k m0 (ix2 a r) * k (ix2 r d) = _
  simp only [pay11_apply q k m0 qR kR mR hq hk hm, hk, mul_coe, sum_coe, add_coe]

/-- (out) the output: the quotient cut off at zero. -/
theorem pay3_apply (acc : Vec Ideal S1024x1024 .f32) (l1 : Vec Ideal S1024x1 .f32)
    (aR : Fin 1024 → Fin 1024 → ℝ) (l1R : Fin 1024 → ℝ)
    (hacc : ∀ a d, acc (ix2 a d) = ((aR a d : ℝ) : EReal)) (hl : ∀ a, l1 (ix2 a (0 : Fin 1)) = ((l1R a : ℝ) : EReal))
    (a : Fin 1024) (d : Fin 1024) (hne : l1R a ≠ 0) :
    k0_pay3 (F := Ideal) acc l1 (ix2 a d) = ((max (aR a d / l1R a) 0 : ℝ) : EReal) := by
  unfold k0_pay3
  show max (Ideal.div (acc (ix2 a d)) (broadcastTo S1024x1024 l1 broadcasts_S1024x1_S1024x1024 (ix2 a d)))
      (Ideal.ofBits .f32 0x00000000#32) = _
  rw [broadcastTo_a1_ab_apply, hacc a d, hl a, div_coe hne, Ideal.ofBits_zero_f32, max_coe_zero]

/-! ### The values a first step resets the state to, and the two re-stores -/

theorem pay4_apply (i : S1024x1.Idx) : k0_pay4 (F := Ideal) i = ((negBig : ℝ) : EReal) := by
  unfold k0_pay4
  simp only [shapeCast_self]
  exact ofBits_negBig

theorem pay5_apply (i : S1024x1.Idx) : k0_pay5 (F := Ideal) i = ((0 : ℝ) : EReal) := by
  unfold k0_pay5
  simp only [shapeCast_self]
  exact ofBits_zero

theorem pay6_apply (i : S1024x1024.Idx) : k0_pay6 (F := Ideal) i = ((0 : ℝ) : EReal) := by
  unfold k0_pay6
  simp only [shapeCast_self]
  exact ofBits_zero

theorem pay1_eq (x : FVec Ideal S1024x1024 .f32) : k0_pay1 (F := Ideal) x = x := by
  unfold k0_pay1
  exact shapeCast_self _ _

theorem pay2_eq (x : FVec Ideal S1024x1 .f32) : k0_pay2 (F := Ideal) x = x := by
  unfold k0_pay2
  exact shapeCast_self _ _

end Real

end Cert.KernelIdeal.PayReal0

end
-- ==== Proof.LibOnlineSoftmax.lean ====
/-
  The online (blockwise) softmax, over the reals.

  A softmax-weighted mean  (∑ⱼ exp(sⱼ) vⱼ) / (∑ⱼ exp(sⱼ))  can be accumulated block by block. Keep a reference
  point `μ`, a running denominator `l` and a running numerator `a`, both scaled by `exp (-μ)`. When a new block
  arrives and the reference point moves from `μ n` to `μ (n+1)`, the old sums are rescaled by
  `exp (μ n - μ (n+1))` and the block's terms `exp (f n r - μ (n+1))` are added. By induction
      l n = ∑_{b<n} ∑_r exp (f b r - μ n),     a n = ∑_{b<n} ∑_r exp (f b r - μ n) · v b r,
  whatever the sequence `μ` is (a running maximum is one choice; nothing below uses it). The common factor
  `exp (-μ n)` cancels in the quotient `a n / l n`, which is therefore the softmax-weighted mean over the
  first `n` blocks.

  Also here: the same cancellation for the two-pass form (subtract one reference point `M` from every score,
  exponentiate, divide each weight by the sum of the weights, then average), the splitting of a sum over
  `Fin (B * K)` into `B` blocks of `K`, and the two statements assembled against `Cert.Attn.layer`.
-/
import Mathlib.Analysis.SpecialFunctions.Exp
import Mathlib.Algebra.BigOperators.Field
import Mathlib.Algebra.BigOperators.Fin
import Mathlib.Logic.Equiv.Fin.Basic
import proofs.«180055_j73289321939109_2_alg».proof.Proof.LibAttnSpec

noncomputable section

namespace Cert.Online

open scoped BigOperators
open Finset

variable {ρ : Type} [Fintype ρ]

/-- The running denominator: rescale the old value to the new reference point, add the new block's weights. -/
def lsum (f : ℕ → ρ → ℝ) (μ : ℕ → ℝ) : ℕ → ℝ
  | 0 => 0
  | n + 1 => Real.exp (μ n - μ (n + 1)) * lsum f μ n + ∑ r, Real.exp (f n r - μ (n + 1))

/-- The running numerator: the same with each weight multiplied by its value. -/
def asum (f v : ℕ → ρ → ℝ) (μ : ℕ → ℝ) : ℕ → ℝ
  | 0 => 0
  | n + 1 => Real.exp (μ n - μ (n + 1)) * asum f v μ n + ∑ r, Real.exp (f n r - μ (n + 1)) * v n r

@[simp] theorem lsum_zero (f : ℕ → ρ → ℝ) (μ : ℕ → ℝ) : lsum f μ 0 = 0 := rfl
@[simp] theorem asum_zero (f v : ℕ → ρ → ℝ) (μ : ℕ → ℝ) : asum f v μ 0 = 0 := rfl
theorem lsum_succ (f : ℕ → ρ → ℝ) (μ : ℕ → ℝ) (n : ℕ) :
    lsum f μ (n + 1) = Real.exp (μ n - μ (n + 1)) * lsum f μ n + ∑ r, Real.exp (f n r - μ (n + 1)) := rfl
theorem asum_succ (f v : ℕ → ρ → ℝ) (μ : ℕ → ℝ) (n : ℕ) :
    asum f v μ (n + 1)
      = Real.exp (μ n - μ (n + 1)) * asum f v μ n + ∑ r, Real.exp (f n r - μ (n + 1)) * v n r := rfl

/-- The running denominator after `n` blocks: every weight seen so far, at the current reference point. -/
theorem lsum_eq (f : ℕ → ρ → ℝ) (μ : ℕ → ℝ) (n : ℕ) :
    lsum f μ n = ∑ b ∈ range n, ∑ r, Real.exp (f b r - μ n) := by
  induction n with
  | zero => simp
  | succ n ih =>
    rw [lsum_succ, ih, sum_range_succ, mul_sum]
    congr 1
    refine sum_congr rfl fun b _ => ?_
    rw [mul_sum]
    refine sum_congr rfl fun r _ => ?_
    rw [← Real.exp_add]
    congr 1
    ring

/-- The running numerator after `n` blocks. -/
theorem asum_eq (f v : ℕ → ρ → ℝ) (μ : ℕ → ℝ) (n : ℕ) :
    asum f v μ n = ∑ b ∈ range n, ∑ r, Real.exp (f b r - μ n) * v b r := by
  induction n with
  | zero => simp
  | succ n ih =>
    rw [asum_succ, ih, sum_range_succ, mul_sum]
    congr 1
    refine sum_congr rfl fun b _ => ?_
    rw [mul_sum]
    refine sum_congr rfl fun r _ => ?_
    rw [← mul_assoc, ← Real.exp_add]
    congr 2
    ring

/-- The common factor `exp (-μ n)` taken out of the denominator. -/
theorem lsum_eq_exp_mul (f : ℕ → ρ → ℝ) (μ : ℕ → ℝ) (n : ℕ) :
    lsum f μ n = Real.exp (-μ n) * ∑ b ∈ range n, ∑ r, Real.exp (f b r) := by
  rw [lsum_eq, mul_sum]
  refine sum_congr rfl fun b _ => ?_
  rw [mul_sum]
  refine sum_congr rfl fun r _ => ?_
  rw [← Real.exp_add]
  congr 1
  ring

/-- The common factor `exp (-μ n)` taken out of the numerator. -/
theorem asum_eq_exp_mul (f v : ℕ → ρ → ℝ) (μ : ℕ → ℝ) (n : ℕ) :
    asum f v μ n = Real.exp (-μ n) * ∑ b ∈ range n, ∑ r, Real.exp (f b r) * v b r := by
  rw [asum_eq, mul_sum]
  refine sum_congr rfl fun b _ => ?_
  rw [mul_sum]
  refine sum_congr rfl fun r _ => ?_
  rw [← mul_assoc, ← Real.exp_add]
  congr 2
  ring

/-- With at least one key per block the denominator is positive from the first block on. -/
theorem lsum_pos [Nonempty ρ] (f : ℕ → ρ → ℝ) (μ : ℕ → ℝ) {n : ℕ} (hn : 0 < n) : 0 < lsum f μ n := by
  rw [lsum_eq]
  refine sum_pos (fun b _ => sum_pos (fun r _ => Real.exp_pos _) univ_nonempty) ?_
  exact nonempty_range_iff.mpr hn.ne'

theorem lsum_ne_zero [Nonempty ρ] (f : ℕ → ρ → ℝ) (μ : ℕ → ℝ) {n : ℕ} (hn : 0 < n) : lsum f μ n ≠ 0 :=
  (lsum_pos f μ hn).ne'

/-- The quotient law: the reference points cancel. (It holds at `n = 0` too, both sides being `0 / 0 = 0`.) -/
theorem asum_div_lsum (f v : ℕ → ρ → ℝ) (μ : ℕ → ℝ) (n : ℕ) :
    asum f v μ n / lsum f μ n
      = (∑ b ∈ range n, ∑ r, Real.exp (f b r) * v b r) / (∑ b ∈ range n, ∑ r, Real.exp (f b r)) := by
  rw [asum_eq_exp_mul, lsum_eq_exp_mul, mul_div_mul_left _ _ (Real.exp_pos _).ne']

/-! ### The two-pass form -/

/-- Softmax weights computed after subtracting one reference point `M` from every score, then used to average
    `v`: the reference point cancels. -/
theorem shifted_weights_sum {ι : Type} [Fintype ι] [Nonempty ι] (s v : ι → ℝ) (M : ℝ) :
    ∑ j, Real.exp (s j - M) / (∑ k, Real.exp (s k - M)) * v j
      = (∑ j, Real.exp (s j) * v j) / (∑ j, Real.exp (s j)) := by
  have hS : ∑ k, Real.exp (s k - M) = Real.exp (-M) * ∑ k, Real.exp (s k) := by
    rw [mul_sum]
    refine sum_congr rfl fun k _ => ?_
    rw [← Real.exp_add]; congr 1; ring
  have hN : ∑ j, Real.exp (s j - M) * v j = Real.exp (-M) * ∑ j, Real.exp (s j) * v j := by
    rw [mul_sum]
    refine sum_congr rfl fun j _ => ?_
    rw [← mul_assoc, ← Real.exp_add]; congr 2; ring
  calc ∑ j, Real.exp (s j - M) / (∑ k, Real.exp (s k - M)) * v j
      = (∑ j, Real.exp (s j - M) * v j) / (∑ k, Real.exp (s k - M)) := by
        rw [sum_div]
        refine sum_congr rfl fun j _ => ?_
        rw [div_mul_eq_mul_div]
    _ = _ := by rw [hS, hN, mul_div_mul_left _ _ (Real.exp_pos _).ne']

/-! ### A sum over `Fin (B * K)` as `B` blocks of `K` -/

/-- The index `K * b + r` runs over `Fin (B * K)` once as `b` runs over the blocks and `r` inside a block. -/
theorem sum_fin_mul_eq_blocks (B K : ℕ) (g : ℕ → ℝ) :
    ∑ j : Fin (B * K), g j.val = ∑ b ∈ range B, ∑ r : Fin K, g (K * b + r.val) := by
  rw [← Equiv.sum_comp (finProdFinEquiv : Fin B × Fin K ≃ Fin (B * K)) (fun j => g j.val),
    Fintype.sum_prod_type, ← Fin.sum_univ_eq_sum_range (fun b => ∑ r : Fin K, g (K * b + r.val)) B]
  refine sum_congr rfl fun b _ => sum_congr rfl fun r _ => ?_
  congr 1
  simp [finProdFinEquiv, add_comm]

/-- The same when the summand is only given on `Fin N` with `N = B * K`: `g` is any extension of it to `ℕ`. -/
theorem sum_fin_eq_blocks {N : ℕ} (B K : ℕ) (hN : N = B * K) (G : Fin N → ℝ) (g : ℕ → ℝ)
    (hg : ∀ j : Fin N, g j.val = G j) :
    ∑ j : Fin N, G j = ∑ b ∈ range B, ∑ r : Fin K, g (K * b + r.val) := by
  subst hN
  rw [← sum_fin_mul_eq_blocks]
  exact sum_congr rfl fun j _ => (hg j).symm

/-- The extension by zero of a function on `Fin N` to `ℕ`. -/
def ext0 {N : ℕ} (G : Fin N → ℝ) : ℕ → ℝ := fun n => if h : n < N then G ⟨n, h⟩ else 0

theorem ext0_of_lt {N : ℕ} (G : Fin N → ℝ) {n : ℕ} (h : n < N) : ext0 G n = G ⟨n, h⟩ := dif_pos h

@[simp] theorem ext0_val {N : ℕ} (G : Fin N → ℝ) (j : Fin N) : ext0 G j.val = G j := by
  rw [ext0_of_lt G j.isLt]

end Cert.Online

namespace Cert.Attn

open scoped BigOperators
open Finset Cert.Online

variable {δ : Type} [Fintype δ]

/-- One layer in the two-pass form a softmax library computes: for any reference points `M i` (a row maximum is
    one choice), the weights `exp (score - M i) / ∑ exp (score - M i)` average column `d`, cut off at zero. -/
theorem layer_eq_shifted {ι : Type} [Fintype ι] [Nonempty ι] (κ : ℝ) (h : ι → δ → ℝ) (M : ι → ℝ) (i : ι) (d : δ) :
    layer κ h i d
      = max (∑ j, Real.exp (score κ h i j - M i) / (∑ k, Real.exp (score κ h i k - M i)) * h j d) 0 := by
  rw [shifted_weights_sum (fun j => score κ h i j) (fun j => h j d) (M i)]
  rfl

/-- One layer as the blockwise accumulation over `B` blocks of `K` keys, for ANY reference points `μ`.
    `s` and `c` are row `i`'s scores and column `d`, given on `ℕ` (any extension: only indices below `N`
    are read). -/
theorem layer_eq_online {N : ℕ} (B K : ℕ) (hN : N = B * K) (κ : ℝ) (h : Fin N → δ → ℝ) (i : Fin N) (d : δ)
    (s c : ℕ → ℝ) (hs : ∀ j : Fin N, s j.val = score κ h i j) (hc : ∀ j : Fin N, c j.val = h j d)
    (μ : ℕ → ℝ) :
    layer κ h i d
      = max (asum (fun b (r : Fin K) => s (K * b + r.val)) (fun b (r : Fin K) => c (K * b + r.val)) μ B
              / lsum (fun b (r : Fin K) => s (K * b + r.val)) μ B) 0 := by
  rw [asum_div_lsum]
  have hnum : numer κ h i d = ∑ b ∈ range B, ∑ r : Fin K, Real.exp (s (K * b + r.val)) * c (K * b + r.val) :=
    sum_fin_eq_blocks B K hN (fun j => Real.exp (score κ h i j) * h j d)
      (fun n => Real.exp (s n) * c n) (fun j => by simp only [hs j, hc j])
  have hden : denom κ h i = ∑ b ∈ range B, ∑ r : Fin K, Real.exp (s (K * b + r.val)) :=
    sum_fin_eq_blocks B K hN (fun j => Real.exp (score κ h i j)) (fun n => Real.exp (s n))
      (fun j => by simp only [hs j])
  rw [← hnum, ← hden]
  rfl

/-- The same with the scores and the column extended by zero: nothing to supply. -/
theorem layer_eq_online_ext0 {N : ℕ} (B K : ℕ) (hN : N = B * K) (κ : ℝ) (h : Fin N → δ → ℝ) (i : Fin N) (d : δ)
    (μ : ℕ → ℝ) :
    layer κ h i d
      = max (asum (fun b (r : Fin K) => ext0 (score κ h i) (K * b + r.val))
                  (fun b (r : Fin K) => ext0 (fun j => h j d) (K * b + r.val)) μ B
              / lsum (fun b (r : Fin K) => ext0 (score κ h i) (K * b + r.val)) μ B) 0 :=
  layer_eq_online B K hN κ h i d _ _ (fun j => ext0_val _ j) (fun j => ext0_val (fun j => h j d) j) μ

/-- The instance used: 4096 nodes as 8 blocks of 512 keys. -/
theorem layer_eq_online_4096 (κ : ℝ) (h : Fin 4096 → δ → ℝ) (i : Fin 4096) (d : δ) (μ : ℕ → ℝ) :
    layer κ h i d
      = max (asum (fun b (r : Fin 512) => ext0 (score κ h i) (512 * b + r.val))
                  (fun b (r : Fin 512) => ext0 (fun j => h j d) (512 * b + r.val)) μ 8
              / lsum (fun b (r : Fin 512) => ext0 (score κ h i) (512 * b + r.val)) μ 8) 0 :=
  layer_eq_online_ext0 8 512 (by norm_num) κ h i d μ

/-- Inside the range the extension is the function: block `b < 8`, key `r < 512` is node `512 * b + r`. -/
theorem ext0_block_4096 (G : Fin 4096 → ℝ) {b : ℕ} (hb : b < 8) (r : Fin 512) :
    ext0 G (512 * b + r.val) = G ⟨512 * b + r.val, by have := r.isLt; omega⟩ :=
  ext0_of_lt G _

end Cert.Attn

end
-- ==== Proof.LibOnlineIdeal.lean ====
/-
  The blockwise softmax accumulation carried out in the extended reals on finite data.

  When the running reference point, the running denominator, the running numerator, the block's scores and the
  block's values are all real numbers, one step of the accumulation computed with the exact extended-real
  operations (exponential of a difference, product, finite sum, maximum) is the coercion of the same step
  computed in the reals; so the state after `n` blocks is the coercion of `lsum` / `asum`, and the final
  quotient cut off at zero is the coercion of the layer's value. The same for the two-pass form: subtract a
  reference point, exponentiate, divide every weight by the sum of the weights, average.
  Also: the running maximum as one choice of reference points, and the dependence of `lsum` / `asum` after
  `n` blocks on the first `n` blocks only.
-/
import proofs.«180055_j73289321939109_2_alg».proof.Proof.LibOnlineSoftmax
import proofs.«180055_j73289321939109_2_alg».proof.Proof.LibIdealReal

noncomputable section

namespace Cert.Online

open scoped BigOperators
open Finset Idealize.ShloMosaic Cert.IdealReal

variable {ρ : Type} [Fintype ρ]

/-! ### Only the first `n` blocks matter -/

theorem lsum_congr {f f' : ℕ → ρ → ℝ} {μ μ' : ℕ → ℝ} {n : ℕ} (hf : ∀ b, b < n → ∀ r, f b r = f' b r)
    (hμ : ∀ b, b ≤ n → μ b = μ' b) : lsum f μ n = lsum f' μ' n := by
  rw [lsum_eq, lsum_eq, hμ n le_rfl]
  exact sum_congr rfl fun b hb => sum_congr rfl fun r _ => by rw [hf b (mem_range.mp hb) r]

theorem asum_congr {f f' v v' : ℕ → ρ → ℝ} {μ μ' : ℕ → ℝ} {n : ℕ} (hf : ∀ b, b < n → ∀ r, f b r = f' b r)
    (hv : ∀ b, b < n → ∀ r, v b r = v' b r) (hμ : ∀ b, b ≤ n → μ b = μ' b) :
    asum f v μ n = asum f' v' μ' n := by
  rw [asum_eq, asum_eq, hμ n le_rfl]
  exact sum_congr rfl fun b hb => sum_congr rfl fun r _ => by
    rw [hf b (mem_range.mp hb) r, hv b (mem_range.mp hb) r]

/-! ### The running maximum -/

/-- The running maximum of the scores seen so far, from the start value `m0`. -/
def rmax [Nonempty ρ] (f : ℕ → ρ → ℝ) (m0 : ℝ) : ℕ → ℝ
  | 0 => m0
  | n + 1 => max (rmax f m0 n) (univ.sup' univ_nonempty (f n))

@[simp] theorem rmax_zero [Nonempty ρ] (f : ℕ → ρ → ℝ) (m0 : ℝ) : rmax f m0 0 = m0 := rfl
theorem rmax_succ [Nonempty ρ] (f : ℕ → ρ → ℝ) (m0 : ℝ) (n : ℕ) :
    rmax f m0 (n + 1) = max (rmax f m0 n) (univ.sup' univ_nonempty (f n)) := rfl

/-- The new maximum, computed in the extended reals from `-∞` over the block, then against the old one. -/
theorem max_fold_coe [Nonempty ρ] (m : ℝ) (s : ρ → ℝ) :
    max (m : EReal) ((univ : Finset ρ).fold max (⊥ : EReal) (fun r => (s r : EReal)))
      = ((max m (univ.sup' univ_nonempty s) : ℝ) : EReal) := by
  rw [fold_max_bot_coe _ univ_nonempty, max_coe]

theorem rmax_step_coe [Nonempty ρ] (f : ℕ → ρ → ℝ) (m0 : ℝ) (n : ℕ) :
    max ((rmax f m0 n : ℝ) : EReal) ((univ : Finset ρ).fold max (⊥ : EReal) (fun r => (f n r : EReal)))
      = ((rmax f m0 (n + 1) : ℝ) : EReal) :=
  max_fold_coe _ _

/-! ### One block -/

/-- The denominator's step on real data. -/
theorem lstep_coe (m m' l : ℝ) (s : ρ → ℝ) :
    Ideal.exp ((m : EReal) - (m' : EReal)) * (l : EReal) + ∑ r, Ideal.exp ((s r : EReal) - (m' : EReal))
      = ((Real.exp (m - m') * l + ∑ r, Real.exp (s r - m') : ℝ) : EReal) := by
  simp only [exp_sub_coe, mul_coe, sum_coe, add_coe]

/-- The numerator's step on real data. -/
theorem astep_coe (m m' a : ℝ) (s v : ρ → ℝ) :
    Ideal.exp ((m : EReal) - (m' : EReal)) * (a : EReal)
        + ∑ r, Ideal.exp ((s r : EReal) - (m' : EReal)) * (v r : EReal)
      = ((Real.exp (m - m') * a + ∑ r, Real.exp (s r - m') * v r : ℝ) : EReal) := by
  simp only [exp_sub_coe, mul_coe, sum_coe, add_coe]

/-- So the state after block `n` is the coercion of `lsum` / `asum` at `n + 1`, for any reference points. -/
theorem lsum_step_coe (f : ℕ → ρ → ℝ) (μ : ℕ → ℝ) (n : ℕ) :
    Ideal.exp ((μ n : EReal) - (μ (n + 1) : EReal)) * (lsum f μ n : EReal)
        + ∑ r, Ideal.exp ((f n r : EReal) - (μ (n + 1) : EReal))
      = ((lsum f μ (n + 1) : ℝ) : EReal) :=
  lstep_coe _ _ _ _

theorem asum_step_coe (f v : ℕ → ρ → ℝ) (μ : ℕ → ℝ) (n : ℕ) :
    Ideal.exp ((μ n : EReal) - (μ (n + 1) : EReal)) * (asum f v μ n : EReal)
        + ∑ r, Ideal.exp ((f n r : EReal) - (μ (n + 1) : EReal)) * (v n r : EReal)
      = ((asum f v μ (n + 1) : ℝ) : EReal) :=
  astep_coe _ _ _ _ _

/-- The final quotient, cut off at zero. -/
theorem final_coe [Nonempty ρ] (f v : ℕ → ρ → ℝ) (μ : ℕ → ℝ) {n : ℕ} (hn : 0 < n) :
    max (Ideal.div (asum f v μ n : EReal) (lsum f μ n : EReal)) 0
      = ((max (asum f v μ n / lsum f μ n) 0 : ℝ) : EReal) := by
  rw [div_coe (lsum_ne_zero f μ hn), max_coe_zero]

/-! ### The two-pass form -/

/-- Weights from scores shifted by `M`, each divided by their sum, averaging `v`: computed in the extended reals
    on real data this is the coercion of the softmax-weighted mean. -/
theorem twopass_coe {ι : Type} [Fintype ι] [Nonempty ι] (s v : ι → ℝ) (M : ℝ) :
    ∑ j, Ideal.div (Ideal.exp ((s j : EReal) - (M : EReal))) (∑ k, Ideal.exp ((s k : EReal) - (M : EReal)))
          * (v j : EReal)
      = (((∑ j, Real.exp (s j) * v j) / (∑ j, Real.exp (s j)) : ℝ) : EReal) := by
  have hne : (∑ k, Real.exp (s k - M)) ≠ 0 :=
    (sum_pos (fun k _ => Real.exp_pos _) univ_nonempty).ne'
  simp only [exp_sub_coe, sum_coe, div_coe hne, mul_coe]
  rw [shifted_weights_sum]

end Cert.Online

namespace Cert.Attn

open scoped BigOperators
open Finset Idealize.ShloMosaic Cert.IdealReal Cert.Online

variable {ι δ : Type} [Fintype ι] [Fintype δ]

/-- The score of a pair of rows of real data, computed in the extended reals. -/
theorem score_coe (κ : ℝ) (h : ι → δ → ℝ) (i j : ι) :
    (∑ d, (h i d : EReal) * (h j d : EReal)) * (κ : EReal) = ((score κ h i j : ℝ) : EReal) := by
  simp only [mul_coe, sum_coe]
  rfl

/-- One layer in the two-pass form, in the extended reals on real data, for any reference point `M`. -/
theorem layer_coe_twopass [Nonempty ι] (κ : ℝ) (h : ι → δ → ℝ) (M : ℝ) (i : ι) (d : δ) :
    max (∑ j, Ideal.div (Ideal.exp ((score κ h i j : EReal) - (M : EReal)))
                (∑ k, Ideal.exp ((score κ h i k : EReal) - (M : EReal))) * (h j d : EReal)) 0
      = ((layer κ h i d : ℝ) : EReal) := by
  rw [twopass_coe (fun j => score κ h i j) (fun j => h j d) M, max_coe_zero]
  rfl

/-- One layer as the blockwise accumulation over 8 blocks of 512 keys, in the extended reals on real data:
    for scores `f` and values `v` by block that agree with row `i`'s scores and column `d` on the blocks
    `b < 8`, and any reference points `μ`. -/
theorem layer_coe_online_4096 (κ : ℝ) (h : Fin 4096 → δ → ℝ) (i : Fin 4096) (d : δ)
    (f v : ℕ → Fin 512 → ℝ) (μ : ℕ → ℝ)
    (hf : ∀ b (hb : b < 8) (r : Fin 512), f b r = score κ h i ⟨512 * b + r.val, by have := r.isLt; omega⟩)
    (hv : ∀ b (hb : b < 8) (r : Fin 512), v b r = h ⟨512 * b + r.val, by have := r.isLt; omega⟩ d) :
    max (Ideal.div (asum f v μ 8 : EReal) (lsum f μ 8 : EReal)) 0 = ((layer κ h i d : ℝ) : EReal) := by
  rw [final_coe f v μ (by norm_num), layer_eq_online_4096 κ h i d μ]
  have e1 : asum f v μ 8
      = asum (fun b (r : Fin 512) => ext0 (score κ h i) (512 * b + r.val))
          (fun b (r : Fin 512) => ext0 (fun j => h j d) (512 * b + r.val)) μ 8 :=
    asum_congr (fun b hb r => by rw [hf b hb r, ext0_block_4096 _ hb r])
      (fun b hb r => by rw [hv b hb r, ext0_block_4096 (fun j => h j d) hb r]) (fun _ _ => rfl)
  have e2 : lsum f μ 8 = lsum (fun b (r : Fin 512) => ext0 (score κ h i) (512 * b + r.val)) μ 8 :=
    lsum_congr (fun b hb r => by rw [hf b hb r, ext0_block_4096 _ hb r]) (fun _ _ => rfl)
  rw [e1, e2]

end Cert.Attn

end
-- ==== Proof.KernelIdeal.R0Invariant.lean ====
/-
  Region 0: the carried buffers and the output buffer after every grid point, on real data.

  Point `t` works on query block `t / 8` and key block `t % 8`. For row `a` of the query block let `f b r` be the
  score of that row against key `r` of key block `b`, `v b r` the value of that key at feature `d`, and `μ` the
  running maximum of the scores from the fixed start value. After point `t` the three carried buffers hold, at row `a`,
  `μ (t % 8 + 1)`, the blockwise denominator `lsum f μ (t % 8 + 1)` and numerator `asum f v μ (t % 8 + 1)`: a first
  key block starts from the reset values `μ 0`, `0`, `0`, every other one continues from the point before. At a
  last key block the output buffer holds the quotient cut off at zero, which is the layer's value at that row.
-/
import proofs.«180055_j73289321939109_2_alg».proof.Proof.KernelIdeal.R0Pieces
import proofs.«180055_j73289321939109_2_alg».proof.Proof.KernelIdeal.PayReal0
import proofs.«180055_j73289321939109_2_alg».proof.Proof.LibOnlineIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.PayReal0 Cert.Online Cert.IdealReal

/-! ## Each case's four buffers as the step's named values (any float values) -/

section AnyF
variable {F : FTy → Type} [FloatOps F]
variable (V : (c : Dev nD) → (b : Ref sig .tc) → Buf (Elt F) ((c : Thread nD τ).loc b))

theorem caseA0_m (c : Dev nD) (t : Fin cfg0.N) (h0 : t.val % 8 = 0) (h1 : ¬t.val % 8 = 7) :
    (caseA0 V c t h0 h1).2.1 = k0_pay2 (k0_pay9 (iblk0 V c 0 t) (iblk0 V c 1 t) k0_pay4) := by
  unfold caseA0
  dsimp only
  exact sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)
theorem caseA0_l (c : Dev nD) (t : Fin cfg0.N) (h0 : t.val % 8 = 0) (h1 : ¬t.val % 8 = 7) :
    (caseA0 V c t h0 h1).2.2.1 = k0_pay12 (iblk0 V c 0 t) (iblk0 V c 1 t) k0_pay4 k0_pay4 k0_pay5 := by
  unfold caseA0
  dsimp only
  exact sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)
theorem caseA0_acc (c : Dev nD) (t : Fin cfg0.N) (h0 : t.val % 8 = 0) (h1 : ¬t.val % 8 = 7) :
    (caseA0 V c t h0 h1).2.2.2 = k0_pay1 (k0_pay13 (iblk0 V c 0 t) (iblk0 V c 1 t) k0_pay4 k0_pay4 k0_pay6) := by
  unfold caseA0
  dsimp only
  exact sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)

theorem caseB0_m (c : Dev nD) (t : Fin cfg0.N) (h0 : ¬t.val % 8 = 0) (h1 : ¬t.val % 8 = 7) (prev : Out0 (F := F)) :
    (caseB0 V c t h0 h1 prev).2.1 = k0_pay2 (k0_pay9 (iblk0 V c 0 t) (iblk0 V c 1 t) prev.2.1) := by
  unfold caseB0
  dsimp only
  exact sout0_B_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2
theorem caseB0_l (c : Dev nD) (t : Fin cfg0.N) (h0 : ¬t.val % 8 = 0) (h1 : ¬t.val % 8 = 7) (prev : Out0 (F := F)) :
    (caseB0 V c t h0 h1 prev).2.2.1 = k0_pay12 (iblk0 V c 0 t) (iblk0 V c 1 t) prev.2.1 prev.2.1 prev.2.2.1 := by
  unfold caseB0
  dsimp only
  exact sout0_B_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2
theorem caseB0_acc (c : Dev nD) (t : Fin cfg0.N) (h0 : ¬t.val % 8 = 0) (h1 : ¬t.val % 8 = 7) (prev : Out0 (F := F)) :
    (caseB0 V c t h0 h1 prev).2.2.2 = k0_pay1 (k0_pay13 (iblk0 V c 0 t) (iblk0 V c 1 t) prev.2.1 prev.2.1 prev.2.2.2) := by
  unfold caseB0
  dsimp only
  exact sout0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.2.1 prev.2.2.1 prev.2.2.2

theorem caseC0_m (c : Dev nD) (t : Fin cfg0.N) (h0 : ¬t.val % 8 = 0) (h1 : t.val % 8 = 7) (prev : Out0 (F := F)) :
    (caseC0 V c t h0 h1 prev).2.1 = k0_pay2 (k0_pay9 (iblk0 V c 0 t) (iblk0 V c 1 t) prev.2.1) := by
  unfold caseC0
  dsimp only
  exact sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2
theorem caseC0_l (c : Dev nD) (t : Fin cfg0.N) (h0 : ¬t.val % 8 = 0) (h1 : t.val % 8 = 7) (prev : Out0 (F := F)) :
    (caseC0 V c t h0 h1 prev).2.2.1 = k0_pay12 (iblk0 V c 0 t) (iblk0 V c 1 t) prev.2.1 prev.2.1 prev.2.2.1 := by
  unfold caseC0
  dsimp only
  exact sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2
theorem caseC0_acc (c : Dev nD) (t : Fin cfg0.N) (h0 : ¬t.val % 8 = 0) (h1 : t.val % 8 = 7) (prev : Out0 (F := F)) :
    (caseC0 V c t h0 h1 prev).2.2.2 = k0_pay1 (k0_pay13 (iblk0 V c 0 t) (iblk0 V c 1 t) prev.2.1 prev.2.1 prev.2.2.2) := by
  unfold caseC0
  dsimp only
  exact sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2
theorem caseC0_out (c : Dev nD) (t : Fin cfg0.N) (h0 : ¬t.val % 8 = 0) (h1 : t.val % 8 = 7) (prev : Out0 (F := F)) :
    (caseC0 V c t h0 h1 prev).1
      = k0_pay3 (k0_pay1 (k0_pay13 (iblk0 V c 0 t) (iblk0 V c 1 t) prev.2.1 prev.2.1 prev.2.2.2)) (k0_pay12 (iblk0 V c 0 t) (iblk0 V c 1 t) prev.2.1 prev.2.1 prev.2.2.1) := by
  unfold caseC0
  dsimp only
  exact out0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.2.1 prev.2.2.1 prev.2.2.2

end AnyF

/-! ## On real data -/

namespace Reg0

section Real

variable (V : (c : Dev nD) → (b : Ref sig .tc) → Buf (Elt Ideal) ((c : Thread nD τ).loc b)) (c : Dev nD)
variable (hR : Fin 4096 → Fin 1024 → ℝ)

/-- The table's rows, extended by zero beyond the last one. -/
def rowN (n : ℕ) (e : Fin 1024) : ℝ := if h : n < 4096 then hR ⟨n, h⟩ e else 0
theorem rowN_of_lt {n : ℕ} (h : n < 4096) (e : Fin 1024) : rowN hR n e = hR ⟨n, h⟩ e := dif_pos h

/-- Query block `qi`'s rows and key block `b`'s rows. -/
def qRow (qi : ℕ) (a : Fin 1024) (e : Fin 1024) : ℝ := rowN hR (1024 * qi + a.val) e
def kRow (b : ℕ) (r : Fin 512) (e : Fin 1024) : ℝ := rowN hR (512 * b + r.val) e
/-- Row `a` of query block `qi`: its scores by key block, the values at feature `d` by key block, the running maximum. -/
def fS (qi : ℕ) (a : Fin 1024) (b : ℕ) (r : Fin 512) : ℝ := sc (qRow hR qi) (kRow hR b) a r
def vS (d : Fin 1024) (b : ℕ) (r : Fin 512) : ℝ := kRow hR b r d
def μS (qi : ℕ) (a : Fin 1024) : ℕ → ℝ := rmax (fS hR qi a) negBig
theorem μS_zero (qi : ℕ) (a : Fin 1024) : μS hR qi a 0 = negBig := rmax_zero _ _

/-! ### The blocks the windows hold -/

theorem idx0_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

theorem lt32 (t : Fin cfg0.N) : t.val < 32 := Nat.lt_of_lt_of_eq t.isLt N_0

/-- The query window's block at point `t` is rows `1024 · (t / 8) + a` of its array. -/
theorem iblk0_0_apply (t : Fin cfg0.N) (a : Fin 1024) (e : Fin 1024) (p : Fin 4096)
    (hp : p.val = 1024 * (t.val / 8) + a.val) :
    (iblk0 (F := Ideal) V c 0 t : Vec Ideal S1024x1024 .bf16) (ix2 a e) = V c main_v0 (ix2 p e) := by
  unfold iblk0
  rw [View.read_apply]
  show V c main_v0 _ = V c main_v0 _
  congr 1
  funext ax
  apply Fin.ext
  obtain ⟨h0, h1⟩ := idx0_0 t
  match ax with
  | ⟨0, _⟩ => show win0_0.index t (0 : Fin 2) * 1024 + 1 * a.val = p.val; rw [h0, hp]; omega
  | ⟨1, _⟩ => show win0_0.index t (1 : Fin 2) * 1024 + 1 * e.val = e.val; rw [h1]; omega

/-- The key window's block at point `t` is rows `512 · (t % 8) + r` of its array. -/
theorem iblk0_1_apply (t : Fin cfg0.N) (r : Fin 512) (e : Fin 1024) (p : Fin 4096)
    (hp : p.val = 512 * (t.val % 8) + r.val) :
    (iblk0 (F := Ideal) V c 1 t : Vec Ideal S512x1024 .bf16) (ix2 r e) = V c main_v0 (ix2 p e) := by
  unfold iblk0
  rw [View.read_apply]
  show V c main_v0 _ = V c main_v0 _
  congr 1
  funext ax
  apply Fin.ext
  obtain ⟨h0, h1⟩ := idx0_1 t
  match ax with
  | ⟨0, _⟩ => show win0_1.index t (0 : Fin 2) * 512 + 1 * r.val = p.val; rw [h0, hp]; omega
  | ⟨1, _⟩ => show win0_1.index t (1 : Fin 2) * 1024 + 1 * e.val = e.val; rw [h1]; omega

theorem iblk0_0_real (hV : ∀ p q, V c main_v0 (ix2 p q) = ((hR p q : ℝ) : EReal)) (t : Fin cfg0.N) (a e : Fin 1024) :
    (iblk0 (F := Ideal) V c 0 t : Vec Ideal S1024x1024 .bf16) (ix2 a e) = ((qRow hR (t.val / 8) a e : ℝ) : EReal) := by
  have ht := lt32 t
  have hp : 1024 * (t.val / 8) + a.val < 4096 := by have := a.isLt; omega
  rw [iblk0_0_apply V c t a e ⟨_, hp⟩ rfl, hV]
  unfold qRow
  rw [rowN_of_lt hR hp]

theorem iblk0_1_real (hV : ∀ p q, V c main_v0 (ix2 p q) = ((hR p q : ℝ) : EReal)) (t : Fin cfg0.N) (r : Fin 512) (e : Fin 1024) :
    (iblk0 (F := Ideal) V c 1 t : Vec Ideal S512x1024 .bf16) (ix2 r e) = ((kRow hR (t.val % 8) r e : ℝ) : EReal) := by
  have hp : 512 * (t.val % 8) + r.val < 4096 := by have := r.isLt; omega
  rw [iblk0_1_apply V c t r e ⟨_, hp⟩ rfl, hV]
  unfold kRow
  rw [rowN_of_lt hR hp]

/-! ### One step on real data -/

theorem step_real (x0 : Vec Ideal S1024x1024 .bf16) (x1 : Vec Ideal S512x1024 .bf16) (m0 l0 : Vec Ideal S1024x1 .f32)
    (acc0 : Vec Ideal S1024x1024 .f32) (qi k : ℕ)
    (hx0 : ∀ a e, x0 (ix2 a e) = ((qRow hR qi a e : ℝ) : EReal)) (hx1 : ∀ r e, x1 (ix2 r e) = ((kRow hR k r e : ℝ) : EReal))
    (hm : ∀ a, m0 (ix2 a (0 : Fin 1)) = ((μS hR qi a k : ℝ) : EReal))
    (hl : ∀ a, l0 (ix2 a (0 : Fin 1)) = ((lsum (fS hR qi a) (μS hR qi a) k : ℝ) : EReal))
    (hacc : ∀ a d, acc0 (ix2 a d) = ((asum (fS hR qi a) (vS hR d) (μS hR qi a) k : ℝ) : EReal)) :
    (∀ a, k0_pay2 (F := Ideal) (k0_pay9 (F := Ideal) x0 x1 m0) (ix2 a (0 : Fin 1)) = ((μS hR qi a (k + 1) : ℝ) : EReal))
    ∧ (∀ a, k0_pay12 (F := Ideal) x0 x1 m0 m0 l0 (ix2 a (0 : Fin 1))
        = ((lsum (fS hR qi a) (μS hR qi a) (k + 1) : ℝ) : EReal))
    ∧ (∀ a d, k0_pay1 (F := Ideal) (k0_pay13 (F := Ideal) x0 x1 m0 m0 acc0) (ix2 a d)
        = ((asum (fS hR qi a) (vS hR d) (μS hR qi a) (k + 1) : ℝ) : EReal)) := by
  refine ⟨fun a => ?_, fun a => ?_, fun a d => ?_⟩
  · rw [pay2_eq, pay9_apply x0 x1 m0 (qRow hR qi) (kRow hR k) (fun a => μS hR qi a k) hx0 hx1 hm a]
    rfl
  · rw [pay12_apply x0 x1 m0 l0 (qRow hR qi) (kRow hR k) (fun a => μS hR qi a k)
      (fun a => lsum (fS hR qi a) (μS hR qi a) k) hx0 hx1 hm hl a]
    rfl
  · rw [pay1_eq, pay13_apply x0 x1 m0 acc0 (qRow hR qi) (kRow hR k) (fun a => μS hR qi a k)
      (fun a d => asum (fS hR qi a) (vS hR d) (μS hR qi a) k) hx0 hx1 hm hacc a d]
    rfl

end Real

/-! ### The three cases on real data -/

section Cases

variable (V : (c : Dev nD) → (b : Ref sig .tc) → Buf (Elt Ideal) ((c : Thread nD τ).loc b)) (c : Dev nD)
variable (hR : Fin 4096 → Fin 1024 → ℝ)

/-- The carried buffers hold, at every row, the blockwise state of query block `qi` after `k` key blocks. -/
def StateAt (st : Out0 (F := Ideal)) (qi k : ℕ) : Prop :=
  (∀ a : Fin 1024, st.2.1 (ix2 a (0 : Fin 1)) = ((μS hR qi a k : ℝ) : EReal))
  ∧ (∀ a : Fin 1024, st.2.2.1 (ix2 a (0 : Fin 1)) = ((lsum (fS hR qi a) (μS hR qi a) k : ℝ) : EReal))
  ∧ (∀ a d : Fin 1024, st.2.2.2 (ix2 a d) = ((asum (fS hR qi a) (vS hR d) (μS hR qi a) k : ℝ) : EReal))

/-- A first key block: from the reset values. -/
theorem caseA_real (hV : ∀ p q, V c main_v0 (ix2 p q) = ((hR p q : ℝ) : EReal)) (t : Fin cfg0.N)
    (h0 : t.val % 8 = 0) (h1 : ¬t.val % 8 = 7) :
    StateAt hR (caseA0 V c t h0 h1) (t.val / 8) (t.val % 8 + 1) := by
  unfold StateAt
  rw [caseA0_m, caseA0_l, caseA0_acc, h0]
  exact step_real hR (iblk0 V c 0 t) (iblk0 V c 1 t) (k0_pay4 (F := Ideal)) (k0_pay5 (F := Ideal)) (k0_pay6 (F := Ideal)) (t.val / 8) 0
    (iblk0_0_real V c hR hV t) (fun r e => by rw [iblk0_1_real V c hR hV t r e, h0])
    (fun a => by rw [μS_zero]; exact pay4_apply (ix2 a (0 : Fin 1)))
    (fun a => by rw [lsum_zero]; exact pay5_apply (ix2 a (0 : Fin 1)))
    (fun a d => by rw [asum_zero]; exact pay6_apply (ix2 a d))

/-- A middle key block: from the state the point before left. -/
theorem caseB_real (hV : ∀ p q, V c main_v0 (ix2 p q) = ((hR p q : ℝ) : EReal)) (t : Fin cfg0.N)
    (h0 : ¬t.val % 8 = 0) (h1 : ¬t.val % 8 = 7) (prev : Out0 (F := Ideal))
    (hp : StateAt hR prev (t.val / 8) (t.val % 8)) :
    StateAt hR (caseB0 V c t h0 h1 prev) (t.val / 8) (t.val % 8 + 1) := by
  unfold StateAt
  rw [caseB0_m, caseB0_l, caseB0_acc]
  exact step_real hR (iblk0 V c 0 t) (iblk0 V c 1 t) prev.2.1 prev.2.2.1 prev.2.2.2 (t.val / 8) (t.val % 8)
    (iblk0_0_real V c hR hV t) (iblk0_1_real V c hR hV t) hp.1 hp.2.1 hp.2.2

/-- A last key block: the same, and the output buffer holds the quotient cut off at zero. -/
theorem caseC_real (hV : ∀ p q, V c main_v0 (ix2 p q) = ((hR p q : ℝ) : EReal)) (t : Fin cfg0.N)
    (h0 : ¬t.val % 8 = 0) (h1 : t.val % 8 = 7) (prev : Out0 (F := Ideal))
    (hp : StateAt hR prev (t.val / 8) (t.val % 8)) :
    StateAt hR (caseC0 V c t h0 h1 prev) (t.val / 8) (t.val % 8 + 1)
    ∧ ∀ a d : Fin 1024, (caseC0 V c t h0 h1 prev).1 (ix2 a d)
        = ((max (asum (fS hR (t.val / 8) a) (vS hR d) (μS hR (t.val / 8) a) (t.val % 8 + 1)
                  / lsum (fS hR (t.val / 8) a) (μS hR (t.val / 8) a) (t.val % 8 + 1)) 0 : ℝ) : EReal) := by
  have hs := step_real hR (iblk0 V c 0 t) (iblk0 V c 1 t) prev.2.1 prev.2.2.1 prev.2.2.2 (t.val / 8) (t.val % 8)
    (iblk0_0_real V c hR hV t) (iblk0_1_real V c hR hV t) hp.1 hp.2.1 hp.2.2
  refine ⟨?_, fun a d => ?_⟩
  · unfold StateAt
    rw [caseC0_m, caseC0_l, caseC0_acc]
    exact hs
  · rw [caseC0_out]
    exact pay3_apply
      (k0_pay1 (F := Ideal) (k0_pay13 (F := Ideal) (iblk0 V c 0 t) (iblk0 V c 1 t) prev.2.1 prev.2.1 prev.2.2.2))
      (k0_pay12 (F := Ideal) (iblk0 V c 0 t) (iblk0 V c 1 t) prev.2.1 prev.2.1 prev.2.2.1)
      (fun a d => asum (fS hR (t.val / 8) a) (vS hR d) (μS hR (t.val / 8) a) (t.val % 8 + 1))
      (fun a => lsum (fS hR (t.val / 8) a) (μS hR (t.val / 8) a) (t.val % 8 + 1))
      hs.2.2 hs.2.1 a d (lsum_ne_zero _ _ (Nat.succ_pos _))

/-! ### Every point -/

/-- After point `n` the carried buffers hold the blockwise state of query block `n / 8` after `n % 8 + 1` key blocks. -/
theorem state_at_point (hV : ∀ p q, V c main_v0 (ix2 p q) = ((hR p q : ℝ) : EReal)) :
    ∀ (n : ℕ) (hn : n < cfg0.N), StateAt hR (outsAt0 V c n hn) (n / 8) (n % 8 + 1) := by
  intro n
  induction n with
  | zero =>
    intro hn
    have e := outsAt0_A V c ⟨0, hn⟩ (Nat.zero_mod _) (by show ¬ (0 % 8 = 7); decide)
    rw [show outsAt0 V c 0 hn = _ from e]
    exact caseA_real V c hR hV ⟨0, hn⟩ (Nat.zero_mod _) (by show ¬ (0 % 8 = 7); decide)
  | succ n ih =>
    intro hn
    by_cases h0 : (n + 1) % 8 = 0
    · have h1 : ¬(n + 1) % 8 = 7 := by omega
      have e := outsAt0_A V c ⟨n + 1, hn⟩ h0 h1
      rw [show outsAt0 V c (n + 1) hn = _ from e]
      exact caseA_real V c hR hV ⟨n + 1, hn⟩ h0 h1
    · have ih' := ih (Nat.lt_of_succ_lt hn)
      have e1 : n / 8 = (n + 1) / 8 := by omega
      have e2 : n % 8 + 1 = (n + 1) % 8 := by omega
      rw [e1, e2] at ih'
      by_cases h1 : (n + 1) % 8 = 7
      · have e := outsAt0_C V c ⟨n + 1, hn⟩ h0 h1
        rw [show outsAt0 V c (n + 1) hn = caseC0 V c ⟨n + 1, hn⟩ h0 h1 (outsAt0 V c n (Nat.lt_of_succ_lt hn)) from e]
        exact (caseC_real V c hR hV ⟨n + 1, hn⟩ h0 h1 (outsAt0 V c n (Nat.lt_of_succ_lt hn)) ih').1
      · have e := outsAt0_B V c ⟨n + 1, hn⟩ h0 h1
        rw [show outsAt0 V c (n + 1) hn = caseB0 V c ⟨n + 1, hn⟩ h0 h1 (outsAt0 V c n (Nat.lt_of_succ_lt hn)) from e]
        exact caseB_real V c hR hV ⟨n + 1, hn⟩ h0 h1 (outsAt0 V c n (Nat.lt_of_succ_lt hn)) ih'

/-- At a last key block the output buffer holds the quotient of the full blockwise sums, cut off at zero. -/
theorem out_at_last (hV : ∀ p q, V c main_v0 (ix2 p q) = ((hR p q : ℝ) : EReal)) (t : Fin cfg0.N) (h7 : t.val % 8 = 7)
    (a d : Fin 1024) :
    (outsAt0 V c t.val t.isLt).1 (ix2 a d)
      = ((max (asum (fS hR (t.val / 8) a) (vS hR d) (μS hR (t.val / 8) a) 8
                / lsum (fS hR (t.val / 8) a) (μS hR (t.val / 8) a) 8) 0 : ℝ) : EReal) := by
  have h0 : ¬t.val % 8 = 0 := by omega
  have hpos : 0 < t.val := by omega
  have hprev := state_at_point V c hR hV (t.val - 1) (Nat.lt_of_le_of_lt (Nat.sub_le _ _) t.isLt)
  have e1 : (t.val - 1) / 8 = t.val / 8 := by omega
  have e2 : (t.val - 1) % 8 + 1 = t.val % 8 := by omega
  rw [e1, e2] at hprev
  rw [outsAt0_C V c t h0 h7]
  have h := (caseC_real V c hR hV t h0 h7 _ hprev).2 a d
  rw [h7] at h
  exact h

end Cases

/-! ### The output block is the layer's -/

section Block

variable (V : (c : Dev nD) → (b : Ref sig .tc) → Buf (Elt Ideal) ((c : Thread nD τ).loc b)) (c : Dev nD)
variable (hR : Fin 4096 → Fin 1024 → ℝ)

/-- The scores by key block are the layer's scores of the row against the keys `512 · b + r`. -/
theorem fS_eq_score (qi : ℕ) (hqi : qi < 4) (a : Fin 1024) (b : ℕ) (hb : b < 8) (r : Fin 512) :
    fS hR qi a b r = Cert.Attn.score (1 / 32) hR ⟨1024 * qi + a.val, by have := a.isLt; omega⟩
      ⟨512 * b + r.val, by have := r.isLt; omega⟩ := by
  have h1 : 1024 * qi + a.val < 4096 := by have := a.isLt; omega
  have h2 : 512 * b + r.val < 4096 := by have := r.isLt; omega
  show (∑ e : Fin 1024, rowN hR (1024 * qi + a.val) e * rowN hR (512 * b + r.val) e) * (1 / 32) = _
  simp only [rowN_of_lt hR h1, rowN_of_lt hR h2]
  rfl

theorem vS_eq (d : Fin 1024) (b : ℕ) (hb : b < 8) (r : Fin 512) :
    vS hR d b r = hR ⟨512 * b + r.val, by have := r.isLt; omega⟩ d :=
  rowN_of_lt hR _ d

/-- One layer at a row as the blockwise quotient over the 8 key blocks, in the reals. -/
theorem layer_real_4096 (κ : ℝ) (h : Fin 4096 → Fin 1024 → ℝ) (i : Fin 4096) (d : Fin 1024)
    (f v : ℕ → Fin 512 → ℝ) (μ : ℕ → ℝ)
    (hf : ∀ b (hb : b < 8) (r : Fin 512), f b r = Cert.Attn.score κ h i ⟨512 * b + r.val, by have := r.isLt; omega⟩)
    (hv : ∀ b (hb : b < 8) (r : Fin 512), v b r = h ⟨512 * b + r.val, by have := r.isLt; omega⟩ d) :
    Cert.Attn.layer κ h i d = max (asum f v μ 8 / lsum f μ 8) 0 := by
  have h1 := Cert.Attn.layer_coe_online_4096 κ h i d f v μ hf hv
  rw [final_coe f v μ (by norm_num)] at h1
  exact (EReal.coe_eq_coe_iff.mp h1).symm

/-- THE OUTPUT BLOCK: after the last key block of query block `t / 8` the output buffer holds, at row `a` and
    feature `d`, the layer's value at row `1024 · (t / 8) + a`. -/
theorem out_block0 (hV : ∀ p q, V c main_v0 (ix2 p q) = ((hR p q : ℝ) : EReal)) (t : Fin cfg0.N) (h7 : t.val % 8 = 7)
    (a d : Fin 1024) :
    (outsAt0 (F := Ideal) V c t.val t.isLt).1 (ix2 a d)
      = ((Cert.Attn.layer (1 / 32) hR ⟨1024 * (t.val / 8) + a.val, by have := lt32 t; have := a.isLt; omega⟩ d : ℝ) : EReal) := by
  have ht := lt32 t
  have hqi : t.val / 8 < 4 := by omega
  rw [out_at_last V c hR hV t h7 a d]
  exact congrArg (fun x : ℝ => (x : EReal))
    (layer_real_4096 (1 / 32) hR ⟨1024 * (t.val / 8) + a.val, by have := a.isLt; omega⟩ d
      (fS hR (t.val / 8) a) (vS hR d) (μS hR (t.val / 8) a)
      (fun b hb r => fS_eq_score hR (t.val / 8) hqi a b hb r) (fun b hb r => vS_eq hR d b hb r)).symm

end Block

end Reg0

end Cert.KernelIdeal.Hand

end
-- ==== Proof.KernelIdeal.R1Pieces.lean ====
/-
  Region 1: what each control case of the body leaves in the carried buffers and in the output buffer, as the
  step's named values of the blocks and of the carried buffers' previous contents.
-/
import proofs.«180055_j73289321939109_2_alg».proof.Proof.KernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzR1 : (![0, 0] : Fin 2 → Nat) = fun _ => 0 := funext fun a => by fin_cases a <;> rfl

theorem sout1_B_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) :
    sout1_B_0 c i arg2 harg2 arg3 harg3 arg4 harg4 arg5 harg5 arg6 harg6 arg7 harg7 hc0 hc1 x0 x1 xs0 xs1 xs2 = k1_pay2 (k1_pay9 x0 x1 xs0) := by
  unfold sout1_B_0
  rw [View.read_writes_eq_canon _ _ _ (scover1_B_0 c i arg2 harg2 arg3 harg3 arg4 harg4 arg5 harg5 arg6 harg6 arg7 harg7 hc0 hc1 x0 x1 xs0 xs1 xs2)]
  unfold kernelRun1_B
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_B_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) :
    sout1_B_1 c i arg2 harg2 arg3 harg3 arg4 harg4 arg5 harg5 arg6 harg6 arg7 harg7 hc0 hc1 x0 x1 xs0 xs1 xs2 = k1_pay12 x0 x1 xs0 xs0 xs1 := by
  unfold sout1_B_1
  rw [View.read_writes_eq_canon _ _ _ (scover1_B_1 c i arg2 harg2 arg3 harg3 arg4 harg4 arg5 harg5 arg6 harg6 arg7 harg7 hc0 hc1 x0 x1 xs0 xs1 xs2)]
  unfold kernelRun1_B
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_B_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S512x1024 .bf16) (xs0 : Vec F S1024x1 .f32) (xs1 : Vec F S1024x1 .f32) (xs2 : Vec F S1024x1024 .f32) :
    sout1_B_2 c i arg2 harg2 arg3 harg3 arg4 harg4 arg5 harg5 arg6 harg6 arg7 harg7 hc0 hc1 x0 x1 xs0 xs1 xs2 = k1_pay1 (k1_pay13 x0 x1 xs0 xs0 xs2) := by
  unfold sout1_B_2
  rw [View.read_writes_eq_canon _ _ _ (scover1_B_2 c i arg2 harg2 arg3 harg3 arg4 harg4 arg5 harg5 arg6 harg6 arg7 harg7 hc0 hc1 x0 x1 xs0 xs1 xs2)]
  unfold kernelRun1_B
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_C_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    sout1_C_0 c i arg2 harg2 arg3 harg3 arg4 harg4 arg5 harg5 arg6 harg6 arg7 harg7 hc0 hc1 x0 x1 xs0 xs1 xs2 = k1_pay2 (k1_pay9 x0 x1 xs0) := by
  unfold sout1_C_0
  rw [View.read_writes_eq_canon _ _ _ (scover1_C_0 c i arg2 harg2 arg3 harg3 arg4 harg4 arg5 harg5 arg6 harg6 arg7 harg7 hc0 hc1 x0 x1 xs0 xs1 xs2)]
  unfold kernelRun1_C
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_C_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    sout1_C_1 c i arg2 harg2 arg3 harg3 arg4 harg4 arg5 harg5 arg6 harg6 arg7 harg7 hc0 hc1 x0 x1 xs0 xs1 xs2 = k1_pay12 x0 x1 xs0 xs0 xs1 := by
  unfold sout1_C_1
  rw [View.read_writes_eq_canon _ _ _ (scover1_C_1 c i arg2 harg2 arg3 harg3 arg4 harg4 arg5 harg5 arg6 harg6 arg7 harg7 hc0 hc1 x0 x1 xs0 xs1 xs2)]
  unfold kernelRun1_C
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_C_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    sout1_C_2 c i arg2 harg2 arg3 harg3 arg4 harg4 arg5 harg5 arg6 harg6 arg7 harg7 hc0 hc1 x0 x1 xs0 xs1 xs2 = k1_pay1 (k1_pay13 x0 x1 xs0 xs0 xs2) := by
  unfold sout1_C_2
  rw [View.read_writes_eq_canon _ _ _ (scover1_C_2 c i arg2 harg2 arg3 harg3 arg4 harg4 arg5 harg5 arg6 harg6 arg7 harg7 hc0 hc1 x0 x1 xs0 xs1 xs2)]
  unfold kernelRun1_C
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem out1_C_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S512x1024 .bf16) (xs0 : Vec F S1024x1 .f32) (xs1 : Vec F S1024x1 .f32) (xs2 : Vec F S1024x1024 .f32) :
    out1_C_2 c i arg2 harg2 arg3 harg3 arg4 harg4 arg5 harg5 arg6 harg6 arg7 harg7 hc0 hc1 x0 x1 xs0 xs1 xs2 = k1_pay3 (k1_pay1 (k1_pay13 x0 x1 xs0 xs0 xs2)) (k1_pay12 x0 x1 xs0 xs0 xs1) := by
  unfold out1_C_2
  rw [View.read_writes_eq_canon _ _ _ (cover1_C_2 c i arg2 harg2 arg3 harg3 arg4 harg4 arg5 harg5 arg6 harg6 arg7 harg7 hc0 hc1 x0 x1 xs0 xs1 xs2)]
  unfold kernelRun1_C
  dsimp only
  sl_unfold_words
  rw [View.canon_unit_zero hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_A_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) :
    sout1_A_0 c i arg2 harg2 arg3 harg3 arg4 harg4 arg5 harg5 arg6 harg6 arg7 harg7 hc0 hc1 x0 x1 = k1_pay2 (k1_pay9 x0 x1 k1_pay4) := by
  unfold sout1_A_0
  rw [View.read_writes_eq_canon _ _ _ (scover1_A_0 c i arg2 harg2 arg3 harg3 arg4 harg4 arg5 harg5 arg6 harg6 arg7 harg7 hc0 hc1 x0 x1)]
  unfold kernelRun1_A
  dsimp only
  sl_unfold_words
  rw [View.canon_cons_unit_zero (S := S1024x1) hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_A_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) :
    sout1_A_1 c i arg2 harg2 arg3 harg3 arg4 harg4 arg5 harg5 arg6 harg6 arg7 harg7 hc0 hc1 x0 x1 = k1_pay12 x0 x1 k1_pay4 k1_pay4 k1_pay5 := by
  unfold sout1_A_1
  rw [View.read_writes_eq_canon _ _ _ (scover1_A_1 c i arg2 harg2 arg3 harg3 arg4 harg4 arg5 harg5 arg6 harg6 arg7 harg7 hc0 hc1 x0 x1)]
  unfold kernelRun1_A
  dsimp only
  sl_unfold_words
  rw [View.canon_cons_unit_zero (S := S1024x1) hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]
theorem sout1_A_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S512x1024 .bf16) :
    sout1_A_2 c i arg2 harg2 arg3 harg3 arg4 harg4 arg5 harg5 arg6 harg6 arg7 harg7 hc0 hc1 x0 x1 = k1_pay1 (k1_pay13 x0 x1 k1_pay4 k1_pay4 k1_pay6) := by
  unfold sout1_A_2
  rw [View.read_writes_eq_canon _ _ _ (scover1_A_2 c i arg2 harg2 arg3 harg3 arg4 harg4 arg5 harg5 arg6 harg6 arg7 harg7 hc0 hc1 x0 x1)]
  unfold kernelRun1_A
  dsimp only
  sl_unfold_words
  rw [View.canon_cons_unit_zero (S := S1024x1024) hzR1]
  simp only [View.readCov_unit_zero (S := S1024x1) arg5.view hzR1, View.readCov_unit_zero (S := S1024x1) arg6.view hzR1, View.readCov_unit_zero (S := S1024x1024) arg7.view hzR1, View.readAt_eq_ld, harg2.read_unread, harg3.read_unread, harg4.read_unread, harg5.read_unread, harg6.read_unread, harg7.read_unread, View.ld_unit_zero (S := S1024x1024) hzR1, View.ld_unit_zero (S := S512x1024) hzR1, View.ld_unit_zero (S := S1024x1) hzR1]

end Cert.KernelIdeal.Hand

end
-- ==== Proof.KernelIdeal.PayReal1.lean ====
/-
  The arithmetic of one grid step of the attention kernel, read at one element, on real data.

  One grid step holds a block of 1024 query rows `q`, a block of 512 key rows `k` (also the values), and the running
  state of every query row `a`: a reference point `m a`, a denominator `l a`, a numerator `acc a d` per feature `d`.
  When all of these are (coercions of) real numbers, every value the step computes is the coercion of a real number:
    the score          s a r   = (∑ e, q a e · k r e) · (1/32),
    the new reference  μ' a    = max (m a) (max over r of s a r),
    the rescaling      exp (m a − μ' a),        the weights  exp (s a r − μ' a),
    the denominator    exp (m a − μ' a) · l a + ∑ r, exp (s a r − μ' a),
    the numerator      exp (m a − μ' a) · acc a d + ∑ r, exp (s a r − μ' a) · k r d,
    the output         max (acc a d / l a) 0    (for l a ≠ 0),
  and the values a first step resets the state to are a fixed real, 0 and 0.
  Also two layout facts used on the way: a column `[a]` viewed as `[a, 1]`, and a column `[a, 1]` repeated to `[a, b]`.
-/
import proofs.«180055_j73289321939109_2_alg».proof.Proof.Gen.KernelIdeal.Skeleton
import proofs.«180055_j73289321939109_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayReal1

open scoped BigOperators
open Cert.KernelIdeal Cert.KernelIdeal.Gen Idealize.ShloMosaic Idealize.ShloMosaic.ValueIdx Cert.IdealReal

/-! ### Two layout facts -/

section Layout
variable {α : Type}

/-- An `[a]` array viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The two contractions at an element -/

section Contractions

theorem d1_lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem d1_lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem d1_rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem d1_rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem d2_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem d2_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem d2_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem d2_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Rows against rows: `x`'s row `a` with `y`'s row `r`, into a zero accumulator. -/
theorem matmul_rows_apply (x : FVec Ideal S1024x1024 .bf16) (y : FVec Ideal S512x1024 .bf16) (a : Fin 1024) (r : Fin 512) :
    matmul dot_S1024x1024_S512x1024_S1024x512_1_1_0_0_n_n none x y (constant (F := Ideal) S1024x512 .f32 0x00000000#32) (ix2 a r)
      = ∑ e : Fin 1024, x (ix2 a e) * y (ix2 r e) := by
  simp only [matmul]
  rw [Ideal.matmul_constant_zero_apply,
    ← Equiv.sum_comp (contrEquiv1 dot_S1024x1024_S512x1024_S1024x512_1_1_0_0_n_n 1024 rfl rfl).symm]
  refine Finset.sum_congr rfl fun e _ => ?_
  have hk := contrEquiv1_symm_val dot_S1024x1024_S512x1024_S1024x512_1_1_0_0_n_n 1024 rfl rfl e
  have el : dot_S1024x1024_S512x1024_S1024x512_1_1_0_0_n_n.lhsIdx (ix2 a r)
      ((contrEquiv1 dot_S1024x1024_S512x1024_S1024x512_1_1_0_0_n_n 1024 rfl rfl).symm e) = ix2 a e :=
    funext fun c => Fin.ext (by
      match c with
      | ⟨0, _⟩ => exact d1_lhs_0 _ _
      | ⟨1, _⟩ => exact (d1_lhs_1 _ _).trans hk)
  have er : dot_S1024x1024_S512x1024_S1024x512_1_1_0_0_n_n.rhsIdx (ix2 a r)
      ((contrEquiv1 dot_S1024x1024_S512x1024_S1024x512_1_1_0_0_n_n 1024 rfl rfl).symm e) = ix2 r e :=
    funext fun c => Fin.ext (by
      match c with
      | ⟨0, _⟩ => exact d1_rhs_0 _ _
      | ⟨1, _⟩ => exact (d1_rhs_1 _ _).trans hk)
  rw [el, er]

/-- Rows against columns: `x`'s row `a` with `y`'s column `d`, into a zero accumulator. -/
theorem matmul_cols_apply (x : FVec Ideal S1024x512 .bf16) (y : FVec Ideal S512x1024 .bf16) (a : Fin 1024) (d : Fin 1024) :
    matmul dot_S1024x512_S512x1024_S1024x1024_1_0_0_1_n_n none x y (constant (F := Ideal) S1024x1024 .f32 0x00000000#32) (ix2 a d)
      = ∑ r : Fin 512, x (ix2 a r) * y (ix2 r d) := by
  simp only [matmul]
  rw [Ideal.matmul_constant_zero_apply,
    ← Equiv.sum_comp (contrEquiv1 dot_S1024x512_S512x1024_S1024x1024_1_0_0_1_n_n 512 rfl rfl).symm]
  refine Finset.sum_congr rfl fun e _ => ?_
  have hk := contrEquiv1_symm_val dot_S1024x512_S512x1024_S1024x1024_1_0_0_1_n_n 512 rfl rfl e
  have el : dot_S1024x512_S512x1024_S1024x1024_1_0_0_1_n_n.lhsIdx (ix2 a d)
      ((contrEquiv1 dot_S1024x512_S512x1024_S1024x1024_1_0_0_1_n_n 512 rfl rfl).symm e) = ix2 a e :=
    funext fun c => Fin.ext (by
      match c with
      | ⟨0, _⟩ => exact d2_lhs_0 _ _
      | ⟨1, _⟩ => exact (d2_lhs_1 _ _).trans hk)
  have er : dot_S1024x512_S512x1024_S1024x1024_1_0_0_1_n_n.rhsIdx (ix2 a d)
      ((contrEquiv1 dot_S1024x512_S512x1024_S1024x1024_1_0_0_1_n_n 512 rfl rfl).symm e) = ix2 e d :=
    funext fun c => Fin.ext (by
      match c with
      | ⟨0, _⟩ => exact (d2_rhs_0 _ _).trans hk
      | ⟨1, _⟩ => exact d2_rhs_1 _ _)
  rw [el, er]

end Contractions

/-! ### The two row reductions at an element -/

section Reductions

/-- Row `a` of a `[1024, 512]` array with column `r` inserted. -/
theorem lift_row (h : S1024x512.Reduces [1] S1024) (a : Fin 1024) (r : Fin 512) : h.lift (ix1 a) r = ix2 a r := by
  funext c
  match c with
  | ⟨0, _⟩ => exact Fin.ext rfl
  | ⟨1, _⟩ => exact Fin.ext rfl

/-- The row maximum from `-∞`. -/
theorem rowmax_apply (src : FVec Ideal S1024x512 .f32) (h : S1024x512.Reduces [1] S1024) (hφ : FKind.Formats .f32)
    (hacc : (0xFF800000#32 : BitVec 32) = FKind.maximumf.neutral .f32 hφ) (a : Fin 1024) :
    multiReduction (F := Ideal) .maximumf [1] S1024 src 0xFF800000#32 h hφ hacc (ix1 a)
      = (Finset.univ : Finset (Fin 512)).fold max (⊥ : EReal) (fun r => src (ix2 a r)) := by
  refine (Ideal.multiReduction_maximumf_single src 0xFF800000#32 h hφ hacc (ix1 a)).trans ?_
  show (Finset.univ : Finset (Fin 512)).fold max (Ideal.ofBits .f32 0xFF800000#32) (fun r => src (h.lift (ix1 a) r)) = _
  rw [ofBits_neg_inf]
  exact congrArg (fun g : Fin 512 → EReal => (Finset.univ : Finset (Fin 512)).fold max (⊥ : EReal) g)
    (funext fun r => congrArg src (lift_row h a r))

/-- The row sum from zero. -/
theorem rowsum_apply (src : FVec Ideal S1024x512 .f32) (h : S1024x512.Reduces [1] S1024) (hφ : FKind.Formats .f32)
    (hacc : (0x00000000#32 : BitVec 32) = FKind.add.neutral .f32 hφ) (a : Fin 1024) :
    multiReduction (F := Ideal) .add [1] S1024 src 0x00000000#32 h hφ hacc (ix1 a) = ∑ r : Fin 512, src (ix2 a r) := by
  refine (Ideal.multiReduction_add_single src 0x00000000#32 h hφ hacc (ix1 a)).trans ?_
  show ∑ r : Fin 512, src (h.lift (ix1 a) r) = _
  exact Finset.sum_congr rfl fun r _ => congrArg src (lift_row h a r)

end Reductions

/-! ### The step's values on real data -/

section Real

/-- The score of query row `a` against key row `r`. -/
def sc (qR : Fin 1024 → Fin 1024 → ℝ) (kR : Fin 512 → Fin 1024 → ℝ) (a : Fin 1024) (r : Fin 512) : ℝ :=
  (∑ e : Fin 1024, qR a e * kR r e) * (1 / 32)

/-- The new reference point of row `a`: the old one against the block's largest score. -/
def newRef (qR : Fin 1024 → Fin 1024 → ℝ) (kR : Fin 512 → Fin 1024 → ℝ) (mR : Fin 1024 → ℝ) (a : Fin 1024) : ℝ :=
  max (mR a) (Finset.univ.sup' Finset.univ_nonempty (sc qR kR a))

variable (q : Vec Ideal S1024x1024 .bf16) (k : Vec Ideal S512x1024 .bf16) (m0 l0 : Vec Ideal S1024x1 .f32)
  (acc0 : Vec Ideal S1024x1024 .f32)
  (qR : Fin 1024 → Fin 1024 → ℝ) (kR : Fin 512 → Fin 1024 → ℝ) (mR lR : Fin 1024 → ℝ) (accR : Fin 1024 → Fin 1024 → ℝ)

/-- (s) the scores. -/
theorem pay8_apply (hq : ∀ a e, q (ix2 a e) = ((qR a e : ℝ) : EReal)) (hk : ∀ r e, k (ix2 r e) = ((kR r e : ℝ) : EReal))
    (a : Fin 1024) (r : Fin 512) :
    k1_pay8 (F := Ideal) q k (ix2 a r) = ((sc qR kR a r : ℝ) : EReal) := by
  unfold k1_pay8 k1_pay7
  simp only [shapeCast_self]
  refine (mulf_apply _ _ _).trans ?_
  rw [matmul_rows_apply]
  show (∑ e : Fin 1024, q (ix2 a e) * k (ix2 r e)) * Ideal.ofBits .f32 0x3D000000#32 = _
  simp only [hq, hk, ofBits_inv32, mul_coe, sum_coe]
  rfl

/-- (m) the new reference point. -/
theorem pay9_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k1_pay9 (F := Ideal) q k m0 (ix2 a (0 : Fin 1)) = ((newRef qR kR mR a : ℝ) : EReal) := by
  unfold k1_pay9
  refine (maximumf_apply _ _ _).trans ?_
  rw [hm a]
  refine (congrArg (max ((mR a : ℝ) : EReal)) ((shapeCast_a_a1_apply _ _ a 0).trans
    (rowmax_apply (k1_pay8 (F := Ideal) q k) _ _ _ a))).trans ?_
  rw [fold_max_bot_eq_coe Finset.univ Finset.univ_nonempty _ (sc qR kR a) (fun r _ => pay8_apply q k qR kR hq hk a r),
    max_coe]
  rfl

/-- (a) the factor that rescales the old sums. -/
theorem pay10_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k1_pay10 (F := Ideal) q k m0 m0 (ix2 a (0 : Fin 1)) = ((Real.exp (mR a - newRef qR kR mR a) : ℝ) : EReal) := by
  unfold k1_pay10
  show Ideal.exp (m0 (ix2 a (0 : Fin 1)) - k1_pay9 (F := Ideal) q k m0 (ix2 a (0 : Fin 1))) = _
  rw [hm a, pay9_apply q k m0 qR kR mR hq hk hm a, exp_sub_coe]

/-- (p) the block's weights. -/
theorem pay11_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) (r : Fin 512) :
    k1_pay11 (F := Ideal) q k m0 (ix2 a r) = ((Real.exp (sc qR kR a r - newRef qR kR mR a) : ℝ) : EReal) := by
  unfold k1_pay11
  show Ideal.exp (k1_pay8 (F := Ideal) q k (ix2 a r)
      - broadcastTo S1024x512 (k1_pay9 (F := Ideal) q k m0) broadcasts_S1024x1_S1024x512 (ix2 a r)) = _
  rw [broadcastTo_a1_ab_apply, pay8_apply q k qR kR hq hk a r, pay9_apply q k m0 qR kR mR hq hk hm a, exp_sub_coe]

/-- (l) the new denominator. -/
theorem pay12_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (hl : ∀ a, l0 (ix2 a (0 : Fin 1)) = ((lR a : ℝ) : EReal))
    (a : Fin 1024) :
    k1_pay12 (F := Ideal) q k m0 m0 l0 (ix2 a (0 : Fin 1))
      = ((Real.exp (mR a - newRef qR kR mR a) * lR a
          + ∑ r : Fin 512, Real.exp (sc qR kR a r - newRef qR kR mR a) : ℝ) : EReal) := by
  unfold k1_pay12
  simp only [shapeCast_self]
  refine (addf_apply _ _ _).trans ?_
  refine (congrArg₂ (· + ·) (mulf_apply _ _ _) ((shapeCast_a_a1_apply _ _ a 0).trans
    (rowsum_apply (k1_pay11 (F := Ideal) q k m0) _ _ _ a))).trans ?_
  rw [pay10_apply q k m0 qR kR mR hq hk hm a, hl a]
  simp only [pay11_apply q k m0 qR kR mR hq hk hm, mul_coe, sum_coe, add_coe]

/-- (acc) the new numerator. -/
theorem pay13_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal))
    (hacc : ∀ a d, acc0 (ix2 a d) = ((accR a d : ℝ) : EReal)) (a : Fin 1024) (d : Fin 1024) :
    k1_pay13 (F := Ideal) q k m0 m0 acc0 (ix2 a d)
      = ((Real.exp (mR a - newRef qR kR mR a) * accR a d
          + ∑ r : Fin 512, Real.exp (sc qR kR a r - newRef qR kR mR a) * kR r d : ℝ) : EReal) := by
  unfold k1_pay13 k1_pay7
  simp only [shapeCast_self]
  refine (addf_apply _ _ _).trans ?_
  refine (congrArg₂ (· + ·) ((mulf_apply _ _ _).trans (congrArg (· * acc0 (ix2 a d)) (broadcastTo_a1_ab_apply _ _ a d)))
    (matmul_cols_apply _ _ a d)).trans ?_
  rw [pay10_apply q k m0 qR kR mR hq hk hm a, hacc a d]
  show _ + ∑ r : Fin 512, k1_pay11 (F := Ideal) q k m0 (ix2 a r) * k (ix2 r d) = _
  simp only [pay11_apply q k m0 qR kR mR hq hk hm, hk, mul_coe, sum_coe, add_coe]

/-- (out) the output: the quotient cut off at zero. -/
theorem pay3_apply (acc : Vec Ideal S1024x1024 .f32) (l1 : Vec Ideal S1024x1 .f32)
    (aR : Fin 1024 → Fin 1024 → ℝ) (l1R : Fin 1024 → ℝ)
    (hacc : ∀ a d, acc (ix2 a d) = ((aR a d : ℝ) : EReal)) (hl : ∀ a, l1 (ix2 a (0 : Fin 1)) = ((l1R a : ℝ) : EReal))
    (a : Fin 1024) (d : Fin 1024) (hne : l1R a ≠ 0) :
    k1_pay3 (F := Ideal) acc l1 (ix2 a d) = ((max (aR a d / l1R a) 0 : ℝ) : EReal) := by
  unfold k1_pay3
  show max (Ideal.div (acc (ix2 a d)) (broadcastTo S1024x1024 l1 broadcasts_S1024x1_S1024x1024 (ix2 a d)))
      (Ideal.ofBits .f32 0x00000000#32) = _
  rw [broadcastTo_a1_ab_apply, hacc a d, hl a, div_coe hne, Ideal.ofBits_zero_f32, max_coe_zero]

/-! ### The values a first step resets the state to, and the two re-stores -/

theorem pay4_apply (i : S1024x1.Idx) : k1_pay4 (F := Ideal) i = ((negBig : ℝ) : EReal) := by
  unfold k1_pay4
  simp only [shapeCast_self]
  exact ofBits_negBig

theorem pay5_apply (i : S1024x1.Idx) : k1_pay5 (F := Ideal) i = ((0 : ℝ) : EReal) := by
  unfold k1_pay5
  simp only [shapeCast_self]
  exact ofBits_zero

theorem pay6_apply (i : S1024x1024.Idx) : k1_pay6 (F := Ideal) i = ((0 : ℝ) : EReal) := by
  unfold k1_pay6
  simp only [shapeCast_self]
  exact ofBits_zero

theorem pay1_eq (x : FVec Ideal S1024x1024 .f32) : k1_pay1 (F := Ideal) x = x := by
  unfold k1_pay1
  exact shapeCast_self _ _

theorem pay2_eq (x : FVec Ideal S1024x1 .f32) : k1_pay2 (F := Ideal) x = x := by
  unfold k1_pay2
  exact shapeCast_self _ _

end Real

end Cert.KernelIdeal.PayReal1

end
-- ==== Proof.KernelIdeal.R1Invariant.lean ====
/-
  Region 1: the carried buffers and the output buffer after every grid point, on real data.

  Point `t` works on query block `t / 8` and key block `t % 8`. For row `a` of the query block let `f b r` be the
  score of that row against key `r` of key block `b`, `v b r` the value of that key at feature `d`, and `μ` the
  running maximum of the scores from the fixed start value. After point `t` the three carried buffers hold, at row `a`,
  `μ (t % 8 + 1)`, the blockwise denominator `lsum f μ (t % 8 + 1)` and numerator `asum f v μ (t % 8 + 1)`: a first
  key block starts from the reset values `μ 0`, `0`, `0`, every other one continues from the point before. At a
  last key block the output buffer holds the quotient cut off at zero, which is the layer's value at that row.
-/
import proofs.«180055_j73289321939109_2_alg».proof.Proof.KernelIdeal.R1Pieces
import proofs.«180055_j73289321939109_2_alg».proof.Proof.KernelIdeal.PayReal1
import proofs.«180055_j73289321939109_2_alg».proof.Proof.LibOnlineIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.PayReal1 Cert.Online Cert.IdealReal

/-! ## Each case's four buffers as the step's named values (any float values) -/

section AnyF
variable {F : FTy → Type} [FloatOps F]
variable (V : (c : Dev nD) → (b : Ref sig .tc) → Buf (Elt F) ((c : Thread nD τ).loc b))

theorem caseA1_m (c : Dev nD) (t : Fin cfg1.N) (h0 : t.val % 8 = 0) (h1 : ¬t.val % 8 = 7) :
    (caseA1 V c t h0 h1).2.1 = k1_pay2 (k1_pay9 (iblk1 V c 0 t) (iblk1 V c 1 t) k1_pay4) := by
  unfold caseA1
  dsimp only
  exact sout1_A_0_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
theorem caseA1_l (c : Dev nD) (t : Fin cfg1.N) (h0 : t.val % 8 = 0) (h1 : ¬t.val % 8 = 7) :
    (caseA1 V c t h0 h1).2.2.1 = k1_pay12 (iblk1 V c 0 t) (iblk1 V c 1 t) k1_pay4 k1_pay4 k1_pay5 := by
  unfold caseA1
  dsimp only
  exact sout1_A_1_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
theorem caseA1_acc (c : Dev nD) (t : Fin cfg1.N) (h0 : t.val % 8 = 0) (h1 : ¬t.val % 8 = 7) :
    (caseA1 V c t h0 h1).2.2.2 = k1_pay1 (k1_pay13 (iblk1 V c 0 t) (iblk1 V c 1 t) k1_pay4 k1_pay4 k1_pay6) := by
  unfold caseA1
  dsimp only
  exact sout1_A_2_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)

theorem caseB1_m (c : Dev nD) (t : Fin cfg1.N) (h0 : ¬t.val % 8 = 0) (h1 : ¬t.val % 8 = 7) (prev : Out1 (F := F)) :
    (caseB1 V c t h0 h1 prev).2.1 = k1_pay2 (k1_pay9 (iblk1 V c 0 t) (iblk1 V c 1 t) prev.2.1) := by
  unfold caseB1
  dsimp only
  exact sout1_B_0_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2
theorem caseB1_l (c : Dev nD) (t : Fin cfg1.N) (h0 : ¬t.val % 8 = 0) (h1 : ¬t.val % 8 = 7) (prev : Out1 (F := F)) :
    (caseB1 V c t h0 h1 prev).2.2.1 = k1_pay12 (iblk1 V c 0 t) (iblk1 V c 1 t) prev.2.1 prev.2.1 prev.2.2.1 := by
  unfold caseB1
  dsimp only
  exact sout1_B_1_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2
theorem caseB1_acc (c : Dev nD) (t : Fin cfg1.N) (h0 : ¬t.val % 8 = 0) (h1 : ¬t.val % 8 = 7) (prev : Out1 (F := F)) :
    (caseB1 V c t h0 h1 prev).2.2.2 = k1_pay1 (k1_pay13 (iblk1 V c 0 t) (iblk1 V c 1 t) prev.2.1 prev.2.1 prev.2.2.2) := by
  unfold caseB1
  dsimp only
  exact sout1_B_2_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) prev.2.1 prev.2.2.1 prev.2.2.2

theorem caseC1_m (c : Dev nD) (t : Fin cfg1.N) (h0 : ¬t.val % 8 = 0) (h1 : t.val % 8 = 7) (prev : Out1 (F := F)) :
    (caseC1 V c t h0 h1 prev).2.1 = k1_pay2 (k1_pay9 (iblk1 V c 0 t) (iblk1 V c 1 t) prev.2.1) := by
  unfold caseC1
  dsimp only
  exact sout1_C_0_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2
theorem caseC1_l (c : Dev nD) (t : Fin cfg1.N) (h0 : ¬t.val % 8 = 0) (h1 : t.val % 8 = 7) (prev : Out1 (F := F)) :
    (caseC1 V c t h0 h1 prev).2.2.1 = k1_pay12 (iblk1 V c 0 t) (iblk1 V c 1 t) prev.2.1 prev.2.1 prev.2.2.1 := by
  unfold caseC1
  dsimp only
  exact sout1_C_1_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2
theorem caseC1_acc (c : Dev nD) (t : Fin cfg1.N) (h0 : ¬t.val % 8 = 0) (h1 : t.val % 8 = 7) (prev : Out1 (F := F)) :
    (caseC1 V c t h0 h1 prev).2.2.2 = k1_pay1 (k1_pay13 (iblk1 V c 0 t) (iblk1 V c 1 t) prev.2.1 prev.2.1 prev.2.2.2) := by
  unfold caseC1
  dsimp only
  exact sout1_C_2_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2
theorem caseC1_out (c : Dev nD) (t : Fin cfg1.N) (h0 : ¬t.val % 8 = 0) (h1 : t.val % 8 = 7) (prev : Out1 (F := F)) :
    (caseC1 V c t h0 h1 prev).1
      = k1_pay3 (k1_pay1 (k1_pay13 (iblk1 V c 0 t) (iblk1 V c 1 t) prev.2.1 prev.2.1 prev.2.2.2)) (k1_pay12 (iblk1 V c 0 t) (iblk1 V c 1 t) prev.2.1 prev.2.1 prev.2.2.1) := by
  unfold caseC1
  dsimp only
  exact out1_C_2_eq c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) prev.2.1 prev.2.2.1 prev.2.2.2

end AnyF

/-! ## On real data -/

namespace Reg1

section Real

variable (V : (c : Dev nD) → (b : Ref sig .tc) → Buf (Elt Ideal) ((c : Thread nD τ).loc b)) (c : Dev nD)
variable (hR : Fin 4096 → Fin 1024 → ℝ)

/-- The table's rows, extended by zero beyond the last one. -/
def rowN (n : ℕ) (e : Fin 1024) : ℝ := if h : n < 4096 then hR ⟨n, h⟩ e else 0
theorem rowN_of_lt {n : ℕ} (h : n < 4096) (e : Fin 1024) : rowN hR n e = hR ⟨n, h⟩ e := dif_pos h

/-- Query block `qi`'s rows and key block `b`'s rows. -/
def qRow (qi : ℕ) (a : Fin 1024) (e : Fin 1024) : ℝ := rowN hR (1024 * qi + a.val) e
def kRow (b : ℕ) (r : Fin 512) (e : Fin 1024) : ℝ := rowN hR (512 * b + r.val) e
/-- Row `a` of query block `qi`: its scores by key block, the values at feature `d` by key block, the running maximum. -/
def fS (qi : ℕ) (a : Fin 1024) (b : ℕ) (r : Fin 512) : ℝ := sc (qRow hR qi) (kRow hR b) a r
def vS (d : Fin 1024) (b : ℕ) (r : Fin 512) : ℝ := kRow hR b r d
def μS (qi : ℕ) (a : Fin 1024) : ℕ → ℝ := rmax (fS hR qi a) negBig
theorem μS_zero (qi : ℕ) (a : Fin 1024) : μS hR qi a 0 = negBig := rmax_zero _ _

/-! ### The blocks the windows hold -/

theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

theorem lt32 (t : Fin cfg1.N) : t.val < 32 := Nat.lt_of_lt_of_eq t.isLt N_1

/-- The query window's block at point `t` is rows `1024 · (t / 8) + a` of its array. -/
theorem iblk1_0_apply (t : Fin cfg1.N) (a : Fin 1024) (e : Fin 1024) (p : Fin 4096)
    (hp : p.val = 1024 * (t.val / 8) + a.val) :
    (iblk1 (F := Ideal) V c 0 t : Vec Ideal S1024x1024 .bf16) (ix2 a e) = V c main_v1 (ix2 p e) := by
  unfold iblk1
  rw [View.read_apply]
  show V c main_v1 _ = V c main_v1 _
  congr 1
  funext ax
  apply Fin.ext
  obtain ⟨h0, h1⟩ := idx1_0 t
  match ax with
  | ⟨0, _⟩ => show win1_0.index t (0 : Fin 2) * 1024 + 1 * a.val = p.val; rw [h0, hp]; omega
  | ⟨1, _⟩ => show win1_0.index t (1 : Fin 2) * 1024 + 1 * e.val = e.val; rw [h1]; omega

/-- The key window's block at point `t` is rows `512 · (t % 8) + r` of its array. -/
theorem iblk1_1_apply (t : Fin cfg1.N) (r : Fin 512) (e : Fin 1024) (p : Fin 4096)
    (hp : p.val = 512 * (t.val % 8) + r.val) :
    (iblk1 (F := Ideal) V c 1 t : Vec Ideal S512x1024 .bf16) (ix2 r e) = V c main_v1 (ix2 p e) := by
  unfold iblk1
  rw [View.read_apply]
  show V c main_v1 _ = V c main_v1 _
  congr 1
  funext ax
  apply Fin.ext
  obtain ⟨h0, h1⟩ := idx1_1 t
  match ax with
  | ⟨0, _⟩ => show win1_1.index t (0 : Fin 2) * 512 + 1 * r.val = p.val; rw [h0, hp]; omega
  | ⟨1, _⟩ => show win1_1.index t (1 : Fin 2) * 1024 + 1 * e.val = e.val; rw [h1]; omega

theorem iblk1_0_real (hV : ∀ p q, V c main_v1 (ix2 p q) = ((hR p q : ℝ) : EReal)) (t : Fin cfg1.N) (a e : Fin 1024) :
    (iblk1 (F := Ideal) V c 0 t : Vec Ideal S1024x1024 .bf16) (ix2 a e) = ((qRow hR (t.val / 8) a e : ℝ) : EReal) := by
  have ht := lt32 t
  have hp : 1024 * (t.val / 8) + a.val < 4096 := by have := a.isLt; omega
  rw [iblk1_0_apply V c t a e ⟨_, hp⟩ rfl, hV]
  unfold qRow
  rw [rowN_of_lt hR hp]

theorem iblk1_1_real (hV : ∀ p q, V c main_v1 (ix2 p q) = ((hR p q : ℝ) : EReal)) (t : Fin cfg1.N) (r : Fin 512) (e : Fin 1024) :
    (iblk1 (F := Ideal) V c 1 t : Vec Ideal S512x1024 .bf16) (ix2 r e) = ((kRow hR (t.val % 8) r e : ℝ) : EReal) := by
  have hp : 512 * (t.val % 8) + r.val < 4096 := by have := r.isLt; omega
  rw [iblk1_1_apply V c t r e ⟨_, hp⟩ rfl, hV]
  unfold kRow
  rw [rowN_of_lt hR hp]

/-! ### One step on real data -/

theorem step_real (x0 : Vec Ideal S1024x1024 .bf16) (x1 : Vec Ideal S512x1024 .bf16) (m0 l0 : Vec Ideal S1024x1 .f32)
    (acc0 : Vec Ideal S1024x1024 .f32) (qi k : ℕ)
    (hx0 : ∀ a e, x0 (ix2 a e) = ((qRow hR qi a e : ℝ) : EReal)) (hx1 : ∀ r e, x1 (ix2 r e) = ((kRow hR k r e : ℝ) : EReal))
    (hm : ∀ a, m0 (ix2 a (0 : Fin 1)) = ((μS hR qi a k : ℝ) : EReal))
    (hl : ∀ a, l0 (ix2 a (0 : Fin 1)) = ((lsum (fS hR qi a) (μS hR qi a) k : ℝ) : EReal))
    (hacc : ∀ a d, acc0 (ix2 a d) = ((asum (fS hR qi a) (vS hR d) (μS hR qi a) k : ℝ) : EReal)) :
    (∀ a, k1_pay2 (F := Ideal) (k1_pay9 (F := Ideal) x0 x1 m0) (ix2 a (0 : Fin 1)) = ((μS hR qi a (k + 1) : ℝ) : EReal))
    ∧ (∀ a, k1_pay12 (F := Ideal) x0 x1 m0 m0 l0 (ix2 a (0 : Fin 1))
        = ((lsum (fS hR qi a) (μS hR qi a) (k + 1) : ℝ) : EReal))
    ∧ (∀ a d, k1_pay1 (F := Ideal) (k1_pay13 (F := Ideal) x0 x1 m0 m0 acc0) (ix2 a d)
        = ((asum (fS hR qi a) (vS hR d) (μS hR qi a) (k + 1) : ℝ) : EReal)) := by
  refine ⟨fun a => ?_, fun a => ?_, fun a d => ?_⟩
  · rw [pay2_eq, pay9_apply x0 x1 m0 (qRow hR qi) (kRow hR k) (fun a => μS hR qi a k) hx0 hx1 hm a]
    rfl
  · rw [pay12_apply x0 x1 m0 l0 (qRow hR qi) (kRow hR k) (fun a => μS hR qi a k)
      (fun a => lsum (fS hR qi a) (μS hR qi a) k) hx0 hx1 hm hl a]
    rfl
  · rw [pay1_eq, pay13_apply x0 x1 m0 acc0 (qRow hR qi) (kRow hR k) (fun a => μS hR qi a k)
      (fun a d => asum (fS hR qi a) (vS hR d) (μS hR qi a) k) hx0 hx1 hm hacc a d]
    rfl

end Real

/-! ### The three cases on real data -/

section Cases

variable (V : (c : Dev nD) → (b : Ref sig .tc) → Buf (Elt Ideal) ((c : Thread nD τ).loc b)) (c : Dev nD)
variable (hR : Fin 4096 → Fin 1024 → ℝ)

/-- The carried buffers hold, at every row, the blockwise state of query block `qi` after `k` key blocks. -/
def StateAt (st : Out1 (F := Ideal)) (qi k : ℕ) : Prop :=
  (∀ a : Fin 1024, st.2.1 (ix2 a (0 : Fin 1)) = ((μS hR qi a k : ℝ) : EReal))
  ∧ (∀ a : Fin 1024, st.2.2.1 (ix2 a (0 : Fin 1)) = ((lsum (fS hR qi a) (μS hR qi a) k : ℝ) : EReal))
  ∧ (∀ a d : Fin 1024, st.2.2.2 (ix2 a d) = ((asum (fS hR qi a) (vS hR d) (μS hR qi a) k : ℝ) : EReal))

/-- A first key block: from the reset values. -/
theorem caseA_real (hV : ∀ p q, V c main_v1 (ix2 p q) = ((hR p q : ℝ) : EReal)) (t : Fin cfg1.N)
    (h0 : t.val % 8 = 0) (h1 : ¬t.val % 8 = 7) :
    StateAt hR (caseA1 V c t h0 h1) (t.val / 8) (t.val % 8 + 1) := by
  unfold StateAt
  rw [caseA1_m, caseA1_l, caseA1_acc, h0]
  exact step_real hR (iblk1 V c 0 t) (iblk1 V c 1 t) (k1_pay4 (F := Ideal)) (k1_pay5 (F := Ideal)) (k1_pay6 (F := Ideal)) (t.val / 8) 0
    (iblk1_0_real V c hR hV t) (fun r e => by rw [iblk1_1_real V c hR hV t r e, h0])
    (fun a => by rw [μS_zero]; exact pay4_apply (ix2 a (0 : Fin 1)))
    (fun a => by rw [lsum_zero]; exact pay5_apply (ix2 a (0 : Fin 1)))
    (fun a d => by rw [asum_zero]; exact pay6_apply (ix2 a d))

/-- A middle key block: from the state the point before left. -/
theorem caseB_real (hV : ∀ p q, V c main_v1 (ix2 p q) = ((hR p q : ℝ) : EReal)) (t : Fin cfg1.N)
    (h0 : ¬t.val % 8 = 0) (h1 : ¬t.val % 8 = 7) (prev : Out1 (F := Ideal))
    (hp : StateAt hR prev (t.val / 8) (t.val % 8)) :
    StateAt hR (caseB1 V c t h0 h1 prev) (t.val / 8) (t.val % 8 + 1) := by
  unfold StateAt
  rw [caseB1_m, caseB1_l, caseB1_acc]
  exact step_real hR (iblk1 V c 0 t) (iblk1 V c 1 t) prev.2.1 prev.2.2.1 prev.2.2.2 (t.val / 8) (t.val % 8)
    (iblk1_0_real V c hR hV t) (iblk1_1_real V c hR hV t) hp.1 hp.2.1 hp.2.2

/-- A last key block: the same, and the output buffer holds the quotient cut off at zero. -/
theorem caseC_real (hV : ∀ p q, V c main_v1 (ix2 p q) = ((hR p q : ℝ) : EReal)) (t : Fin cfg1.N)
    (h0 : ¬t.val % 8 = 0) (h1 : t.val % 8 = 7) (prev : Out1 (F := Ideal))
    (hp : StateAt hR prev (t.val / 8) (t.val % 8)) :
    StateAt hR (caseC1 V c t h0 h1 prev) (t.val / 8) (t.val % 8 + 1)
    ∧ ∀ a d : Fin 1024, (caseC1 V c t h0 h1 prev).1 (ix2 a d)
        = ((max (asum (fS hR (t.val / 8) a) (vS hR d) (μS hR (t.val / 8) a) (t.val % 8 + 1)
                  / lsum (fS hR (t.val / 8) a) (μS hR (t.val / 8) a) (t.val % 8 + 1)) 0 : ℝ) : EReal) := by
  have hs := step_real hR (iblk1 V c 0 t) (iblk1 V c 1 t) prev.2.1 prev.2.2.1 prev.2.2.2 (t.val / 8) (t.val % 8)
    (iblk1_0_real V c hR hV t) (iblk1_1_real V c hR hV t) hp.1 hp.2.1 hp.2.2
  refine ⟨?_, fun a d => ?_⟩
  · unfold StateAt
    rw [caseC1_m, caseC1_l, caseC1_acc]
    exact hs
  · rw [caseC1_out]
    exact pay3_apply
      (k1_pay1 (F := Ideal) (k1_pay13 (F := Ideal) (iblk1 V c 0 t) (iblk1 V c 1 t) prev.2.1 prev.2.1 prev.2.2.2))
      (k1_pay12 (F := Ideal) (iblk1 V c 0 t) (iblk1 V c 1 t) prev.2.1 prev.2.1 prev.2.2.1)
      (fun a d => asum (fS hR (t.val / 8) a) (vS hR d) (μS hR (t.val / 8) a) (t.val % 8 + 1))
      (fun a => lsum (fS hR (t.val / 8) a) (μS hR (t.val / 8) a) (t.val % 8 + 1))
      hs.2.2 hs.2.1 a d (lsum_ne_zero _ _ (Nat.succ_pos _))

/-! ### Every point -/

/-- After point `n` the carried buffers hold the blockwise state of query block `n / 8` after `n % 8 + 1` key blocks. -/
theorem state_at_point (hV : ∀ p q, V c main_v1 (ix2 p q) = ((hR p q : ℝ) : EReal)) :
    ∀ (n : ℕ) (hn : n < cfg1.N), StateAt hR (outsAt1 V c n hn) (n / 8) (n % 8 + 1) := by
  intro n
  induction n with
  | zero =>
    intro hn
    have e := outsAt1_A V c ⟨0, hn⟩ (Nat.zero_mod _) (by show ¬ (0 % 8 = 7); decide)
    rw [show outsAt1 V c 0 hn = _ from e]
    exact caseA_real V c hR hV ⟨0, hn⟩ (Nat.zero_mod _) (by show ¬ (0 % 8 = 7); decide)
  | succ n ih =>
    intro hn
    by_cases h0 : (n + 1) % 8 = 0
    · have h1 : ¬(n + 1) % 8 = 7 := by omega
      have e := outsAt1_A V c ⟨n + 1, hn⟩ h0 h1
      rw [show outsAt1 V c (n + 1) hn = _ from e]
      exact caseA_real V c hR hV ⟨n + 1, hn⟩ h0 h1
    · have ih' := ih (Nat.lt_of_succ_lt hn)
      have e1 : n / 8 = (n + 1) / 8 := by omega
      have e2 : n % 8 + 1 = (n + 1) % 8 := by omega
      rw [e1, e2] at ih'
      by_cases h1 : (n + 1) % 8 = 7
      · have e := outsAt1_C V c ⟨n + 1, hn⟩ h0 h1
        rw [show outsAt1 V c (n + 1) hn = caseC1 V c ⟨n + 1, hn⟩ h0 h1 (outsAt1 V c n (Nat.lt_of_succ_lt hn)) from e]
        exact (caseC_real V c hR hV ⟨n + 1, hn⟩ h0 h1 (outsAt1 V c n (Nat.lt_of_succ_lt hn)) ih').1
      · have e := outsAt1_B V c ⟨n + 1, hn⟩ h0 h1
        rw [show outsAt1 V c (n + 1) hn = caseB1 V c ⟨n + 1, hn⟩ h0 h1 (outsAt1 V c n (Nat.lt_of_succ_lt hn)) from e]
        exact caseB_real V c hR hV ⟨n + 1, hn⟩ h0 h1 (outsAt1 V c n (Nat.lt_of_succ_lt hn)) ih'

/-- At a last key block the output buffer holds the quotient of the full blockwise sums, cut off at zero. -/
theorem out_at_last (hV : ∀ p q, V c main_v1 (ix2 p q) = ((hR p q : ℝ) : EReal)) (t : Fin cfg1.N) (h7 : t.val % 8 = 7)
    (a d : Fin 1024) :
    (outsAt1 V c t.val t.isLt).1 (ix2 a d)
      = ((max (asum (fS hR (t.val / 8) a) (vS hR d) (μS hR (t.val / 8) a) 8
                / lsum (fS hR (t.val / 8) a) (μS hR (t.val / 8) a) 8) 0 : ℝ) : EReal) := by
  have h0 : ¬t.val % 8 = 0 := by omega
  have hpos : 0 < t.val := by omega
  have hprev := state_at_point V c hR hV (t.val - 1) (Nat.lt_of_le_of_lt (Nat.sub_le _ _) t.isLt)
  have e1 : (t.val - 1) / 8 = t.val / 8 := by omega
  have e2 : (t.val - 1) % 8 + 1 = t.val % 8 := by omega
  rw [e1, e2] at hprev
  rw [outsAt1_C V c t h0 h7]
  have h := (caseC_real V c hR hV t h0 h7 _ hprev).2 a d
  rw [h7] at h
  exact h

end Cases

/-! ### The output block is the layer's -/

section Block

variable (V : (c : Dev nD) → (b : Ref sig .tc) → Buf (Elt Ideal) ((c : Thread nD τ).loc b)) (c : Dev nD)
variable (hR : Fin 4096 → Fin 1024 → ℝ)

/-- The scores by key block are the layer's scores of the row against the keys `512 · b + r`. -/
theorem fS_eq_score (qi : ℕ) (hqi : qi < 4) (a : Fin 1024) (b : ℕ) (hb : b < 8) (r : Fin 512) :
    fS hR qi a b r = Cert.Attn.score (1 / 32) hR ⟨1024 * qi + a.val, by have := a.isLt; omega⟩
      ⟨512 * b + r.val, by have := r.isLt; omega⟩ := by
  have h1 : 1024 * qi + a.val < 4096 := by have := a.isLt; omega
  have h2 : 512 * b + r.val < 4096 := by have := r.isLt; omega
  show (∑ e : Fin 1024, rowN hR (1024 * qi + a.val) e * rowN hR (512 * b + r.val) e) * (1 / 32) = _
  simp only [rowN_of_lt hR h1, rowN_of_lt hR h2]
  rfl

theorem vS_eq (d : Fin 1024) (b : ℕ) (hb : b < 8) (r : Fin 512) :
    vS hR d b r = hR ⟨512 * b + r.val, by have := r.isLt; omega⟩ d :=
  rowN_of_lt hR _ d

/-- One layer at a row as the blockwise quotient over the 8 key blocks, in the reals. -/
theorem layer_real_4096 (κ : ℝ) (h : Fin 4096 → Fin 1024 → ℝ) (i : Fin 4096) (d : Fin 1024)
    (f v : ℕ → Fin 512 → ℝ) (μ : ℕ → ℝ)
    (hf : ∀ b (hb : b < 8) (r : Fin 512), f b r = Cert.Attn.score κ h i ⟨512 * b + r.val, by have := r.isLt; omega⟩)
    (hv : ∀ b (hb : b < 8) (r : Fin 512), v b r = h ⟨512 * b + r.val, by have := r.isLt; omega⟩ d) :
    Cert.Attn.layer κ h i d = max (asum f v μ 8 / lsum f μ 8) 0 := by
  have h1 := Cert.Attn.layer_coe_online_4096 κ h i d f v μ hf hv
  rw [final_coe f v μ (by norm_num)] at h1
  exact (EReal.coe_eq_coe_iff.mp h1).symm

/-- THE OUTPUT BLOCK: after the last key block of query block `t / 8` the output buffer holds, at row `a` and
    feature `d`, the layer's value at row `1024 · (t / 8) + a`. -/
theorem out_block1 (hV : ∀ p q, V c main_v1 (ix2 p q) = ((hR p q : ℝ) : EReal)) (t : Fin cfg1.N) (h7 : t.val % 8 = 7)
    (a d : Fin 1024) :
    (outsAt1 (F := Ideal) V c t.val t.isLt).1 (ix2 a d)
      = ((Cert.Attn.layer (1 / 32) hR ⟨1024 * (t.val / 8) + a.val, by have := lt32 t; have := a.isLt; omega⟩ d : ℝ) : EReal) := by
  have ht := lt32 t
  have hqi : t.val / 8 < 4 := by omega
  rw [out_at_last V c hR hV t h7 a d]
  exact congrArg (fun x : ℝ => (x : EReal))
    (layer_real_4096 (1 / 32) hR ⟨1024 * (t.val / 8) + a.val, by have := a.isLt; omega⟩ d
      (fS hR (t.val / 8) a) (vS hR d) (μS hR (t.val / 8) a)
      (fun b hb r => fS_eq_score hR (t.val / 8) hqi a b hb r) (fun b hb r => vS_eq hR d b hb r)).symm

end Block

end Reg1

end Cert.KernelIdeal.Hand

end
-- ==== Proof.KernelIdeal.R2Pieces.lean ====
/-
  Region 2: what each control case of the body leaves in the carried buffers and in the output buffer, as the
  step's named values of the blocks and of the carried buffers' previous contents.
-/
import proofs.«180055_j73289321939109_2_alg».proof.Proof.KernelIdeal.R2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzR2 : (![0, 0] : Fin 2 → Nat) = fun _ => 0 := funext fun a => by fin_cases a <;> rfl

theorem sout2_B_0_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) :
    sout2_B_0 c i arg2 harg2 arg3 harg3 arg4 harg4 arg5 harg5 arg6 harg6 arg7 harg7 hc0 hc1 x0 x1 xs0 xs1 xs2 = k2_pay2 (k2_pay9 x0 x1 xs0) := by
  unfold sout2_B_0
  rw [View.read_writes_eq_canon _ _ _ (scover2_B_0 c i arg2 harg2 arg3 harg3 arg4 harg4 arg5 harg5 arg6 harg6 arg7 harg7 hc0 hc1 x0 x1 xs0 xs1 xs2)]
  unfold kernelRun2_B
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_B_1_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) :
    sout2_B_1 c i arg2 harg2 arg3 harg3 arg4 harg4 arg5 harg5 arg6 harg6 arg7 harg7 hc0 hc1 x0 x1 xs0 xs1 xs2 = k2_pay12 x0 x1 xs0 xs0 xs1 := by
  unfold sout2_B_1
  rw [View.read_writes_eq_canon _ _ _ (scover2_B_1 c i arg2 harg2 arg3 harg3 arg4 harg4 arg5 harg5 arg6 harg6 arg7 harg7 hc0 hc1 x0 x1 xs0 xs1 xs2)]
  unfold kernelRun2_B
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_B_2_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S512x1024 .bf16) (xs0 : Vec F S1024x1 .f32) (xs1 : Vec F S1024x1 .f32) (xs2 : Vec F S1024x1024 .f32) :
    sout2_B_2 c i arg2 harg2 arg3 harg3 arg4 harg4 arg5 harg5 arg6 harg6 arg7 harg7 hc0 hc1 x0 x1 xs0 xs1 xs2 = k2_pay1 (k2_pay13 x0 x1 xs0 xs0 xs2) := by
  unfold sout2_B_2
  rw [View.read_writes_eq_canon _ _ _ (scover2_B_2 c i arg2 harg2 arg3 harg3 arg4 harg4 arg5 harg5 arg6 harg6 arg7 harg7 hc0 hc1 x0 x1 xs0 xs1 xs2)]
  unfold kernelRun2_B
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_C_0_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    sout2_C_0 c i arg2 harg2 arg3 harg3 arg4 harg4 arg5 harg5 arg6 harg6 arg7 harg7 hc0 hc1 x0 x1 xs0 xs1 xs2 = k2_pay2 (k2_pay9 x0 x1 xs0) := by
  unfold sout2_C_0
  rw [View.read_writes_eq_canon _ _ _ (scover2_C_0 c i arg2 harg2 arg3 harg3 arg4 harg4 arg5 harg5 arg6 harg6 arg7 harg7 hc0 hc1 x0 x1 xs0 xs1 xs2)]
  unfold kernelRun2_C
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_C_1_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    sout2_C_1 c i arg2 harg2 arg3 harg3 arg4 harg4 arg5 harg5 arg6 harg6 arg7 harg7 hc0 hc1 x0 x1 xs0 xs1 xs2 = k2_pay12 x0 x1 xs0 xs0 xs1 := by
  unfold sout2_C_1
  rw [View.read_writes_eq_canon _ _ _ (scover2_C_1 c i arg2 harg2 arg3 harg3 arg4 harg4 arg5 harg5 arg6 harg6 arg7 harg7 hc0 hc1 x0 x1 xs0 xs1 xs2)]
  unfold kernelRun2_C
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_C_2_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    sout2_C_2 c i arg2 harg2 arg3 harg3 arg4 harg4 arg5 harg5 arg6 harg6 arg7 harg7 hc0 hc1 x0 x1 xs0 xs1 xs2 = k2_pay1 (k2_pay13 x0 x1 xs0 xs0 xs2) := by
  unfold sout2_C_2
  rw [View.read_writes_eq_canon _ _ _ (scover2_C_2 c i arg2 harg2 arg3 harg3 arg4 harg4 arg5 harg5 arg6 harg6 arg7 harg7 hc0 hc1 x0 x1 xs0 xs1 xs2)]
  unfold kernelRun2_C
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem out2_C_2_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S512x1024 .bf16) (xs0 : Vec F S1024x1 .f32) (xs1 : Vec F S1024x1 .f32) (xs2 : Vec F S1024x1024 .f32) :
    out2_C_2 c i arg2 harg2 arg3 harg3 arg4 harg4 arg5 harg5 arg6 harg6 arg7 harg7 hc0 hc1 x0 x1 xs0 xs1 xs2 = k2_pay3 (k2_pay1 (k2_pay13 x0 x1 xs0 xs0 xs2)) (k2_pay12 x0 x1 xs0 xs0 xs1) := by
  unfold out2_C_2
  rw [View.read_writes_eq_canon _ _ _ (cover2_C_2 c i arg2 harg2 arg3 harg3 arg4 harg4 arg5 harg5 arg6 harg6 arg7 harg7 hc0 hc1 x0 x1 xs0 xs1 xs2)]
  unfold kernelRun2_C
  dsimp only
  sl_unfold_words
  rw [View.canon_unit_zero hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_A_0_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) :
    sout2_A_0 c i arg2 harg2 arg3 harg3 arg4 harg4 arg5 harg5 arg6 harg6 arg7 harg7 hc0 hc1 x0 x1 = k2_pay2 (k2_pay9 x0 x1 k2_pay4) := by
  unfold sout2_A_0
  rw [View.read_writes_eq_canon _ _ _ (scover2_A_0 c i arg2 harg2 arg3 harg3 arg4 harg4 arg5 harg5 arg6 harg6 arg7 harg7 hc0 hc1 x0 x1)]
  unfold kernelRun2_A
  dsimp only
  sl_unfold_words
  rw [View.canon_cons_unit_zero (S := S1024x1) hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_A_1_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) :
    sout2_A_1 c i arg2 harg2 arg3 harg3 arg4 harg4 arg5 harg5 arg6 harg6 arg7 harg7 hc0 hc1 x0 x1 = k2_pay12 x0 x1 k2_pay4 k2_pay4 k2_pay5 := by
  unfold sout2_A_1
  rw [View.read_writes_eq_canon _ _ _ (scover2_A_1 c i arg2 harg2 arg3 harg3 arg4 harg4 arg5 harg5 arg6 harg6 arg7 harg7 hc0 hc1 x0 x1)]
  unfold kernelRun2_A
  dsimp only
  sl_unfold_words
  rw [View.canon_cons_unit_zero (S := S1024x1) hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]
theorem sout2_A_2_eq (c : Dev nD) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S512x1024 .bf16) :
    sout2_A_2 c i arg2 harg2 arg3 harg3 arg4 harg4 arg5 harg5 arg6 harg6 arg7 harg7 hc0 hc1 x0 x1 = k2_pay1 (k2_pay13 x0 x1 k2_pay4 k2_pay4 k2_pay6) := by
  unfold sout2_A_2
  rw [View.read_writes_eq_canon _ _ _ (scover2_A_2 c i arg2 harg2 arg3 harg3 arg4 harg4 arg5 harg5 arg6 harg6 arg7 harg7 hc0 hc1 x0 x1)]
  unfold kernelRun2_A
  dsimp only
  sl_unfold_words
  rw [View.canon_cons_unit_zero (S := S1024x1024) hzR2]
  simp only [View.readCov_unit_zero (S := S1024x1) arg5.view hzR2, View.readCov_unit_zero (S := S1024x1) arg6.view hzR2, View.readCov_unit_zero (S := S1024x1024) arg7.view hzR2, View.readAt_eq_ld, harg2.read_unread, harg3.read_unread, harg4.read_unread, harg5.read_unread, harg6.read_unread, harg7.read_unread, View.ld_unit_zero (S := S1024x1024) hzR2, View.ld_unit_zero (S := S512x1024) hzR2, View.ld_unit_zero (S := S1024x1) hzR2]

end Cert.KernelIdeal.Hand

end
-- ==== Proof.KernelIdeal.PayReal2.lean ====
/-
  The arithmetic of one grid step of the attention kernel, read at one element, on real data.

  One grid step holds a block of 1024 query rows `q`, a block of 512 key rows `k` (also the values), and the running
  state of every query row `a`: a reference point `m a`, a denominator `l a`, a numerator `acc a d` per feature `d`.
  When all of these are (coercions of) real numbers, every value the step computes is the coercion of a real number:
    the score          s a r   = (∑ e, q a e · k r e) · (1/32),
    the new reference  μ' a    = max (m a) (max over r of s a r),
    the rescaling      exp (m a − μ' a),        the weights  exp (s a r − μ' a),
    the denominator    exp (m a − μ' a) · l a + ∑ r, exp (s a r − μ' a),
    the numerator      exp (m a − μ' a) · acc a d + ∑ r, exp (s a r − μ' a) · k r d,
    the output         max (acc a d / l a) 0    (for l a ≠ 0),
  and the values a first step resets the state to are a fixed real, 0 and 0.
  Also two layout facts used on the way: a column `[a]` viewed as `[a, 1]`, and a column `[a, 1]` repeated to `[a, b]`.
-/
import proofs.«180055_j73289321939109_2_alg».proof.Proof.Gen.KernelIdeal.Skeleton
import proofs.«180055_j73289321939109_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayReal2

open scoped BigOperators
open Cert.KernelIdeal Cert.KernelIdeal.Gen Idealize.ShloMosaic Idealize.ShloMosaic.ValueIdx Cert.IdealReal

/-! ### Two layout facts -/

section Layout
variable {α : Type}

/-- An `[a]` array viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The two contractions at an element -/

section Contractions

theorem d1_lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem d1_lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem d1_rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem d1_rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem d2_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem d2_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem d2_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem d2_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Rows against rows: `x`'s row `a` with `y`'s row `r`, into a zero accumulator. -/
theorem matmul_rows_apply (x : FVec Ideal S1024x1024 .bf16) (y : FVec Ideal S512x1024 .bf16) (a : Fin 1024) (r : Fin 512) :
    matmul dot_S1024x1024_S512x1024_S1024x512_1_1_0_0_n_n none x y (constant (F := Ideal) S1024x512 .f32 0x00000000#32) (ix2 a r)
      = ∑ e : Fin 1024, x (ix2 a e) * y (ix2 r e) := by
  simp only [matmul]
  rw [Ideal.matmul_constant_zero_apply,
    ← Equiv.sum_comp (contrEquiv1 dot_S1024x1024_S512x1024_S1024x512_1_1_0_0_n_n 1024 rfl rfl).symm]
  refine Finset.sum_congr rfl fun e _ => ?_
  have hk := contrEquiv1_symm_val dot_S1024x1024_S512x1024_S1024x512_1_1_0_0_n_n 1024 rfl rfl e
  have el : dot_S1024x1024_S512x1024_S1024x512_1_1_0_0_n_n.lhsIdx (ix2 a r)
      ((contrEquiv1 dot_S1024x1024_S512x1024_S1024x512_1_1_0_0_n_n 1024 rfl rfl).symm e) = ix2 a e :=
    funext fun c => Fin.ext (by
      match c with
      | ⟨0, _⟩ => exact d1_lhs_0 _ _
      | ⟨1, _⟩ => exact (d1_lhs_1 _ _).trans hk)
  have er : dot_S1024x1024_S512x1024_S1024x512_1_1_0_0_n_n.rhsIdx (ix2 a r)
      ((contrEquiv1 dot_S1024x1024_S512x1024_S1024x512_1_1_0_0_n_n 1024 rfl rfl).symm e) = ix2 r e :=
    funext fun c => Fin.ext (by
      match c with
      | ⟨0, _⟩ => exact d1_rhs_0 _ _
      | ⟨1, _⟩ => exact (d1_rhs_1 _ _).trans hk)
  rw [el, er]

/-- Rows against columns: `x`'s row `a` with `y`'s column `d`, into a zero accumulator. -/
theorem matmul_cols_apply (x : FVec Ideal S1024x512 .bf16) (y : FVec Ideal S512x1024 .bf16) (a : Fin 1024) (d : Fin 1024) :
    matmul dot_S1024x512_S512x1024_S1024x1024_1_0_0_1_n_n none x y (constant (F := Ideal) S1024x1024 .f32 0x00000000#32) (ix2 a d)
      = ∑ r : Fin 512, x (ix2 a r) * y (ix2 r d) := by
  simp only [matmul]
  rw [Ideal.matmul_constant_zero_apply,
    ← Equiv.sum_comp (contrEquiv1 dot_S1024x512_S512x1024_S1024x1024_1_0_0_1_n_n 512 rfl rfl).symm]
  refine Finset.sum_congr rfl fun e _ => ?_
  have hk := contrEquiv1_symm_val dot_S1024x512_S512x1024_S1024x1024_1_0_0_1_n_n 512 rfl rfl e
  have el : dot_S1024x512_S512x1024_S1024x1024_1_0_0_1_n_n.lhsIdx (ix2 a d)
      ((contrEquiv1 dot_S1024x512_S512x1024_S1024x1024_1_0_0_1_n_n 512 rfl rfl).symm e) = ix2 a e :=
    funext fun c => Fin.ext (by
      match c with
      | ⟨0, _⟩ => exact d2_lhs_0 _ _
      | ⟨1, _⟩ => exact (d2_lhs_1 _ _).trans hk)
  have er : dot_S1024x512_S512x1024_S1024x1024_1_0_0_1_n_n.rhsIdx (ix2 a d)
      ((contrEquiv1 dot_S1024x512_S512x1024_S1024x1024_1_0_0_1_n_n 512 rfl rfl).symm e) = ix2 e d :=
    funext fun c => Fin.ext (by
      match c with
      | ⟨0, _⟩ => exact (d2_rhs_0 _ _).trans hk
      | ⟨1, _⟩ => exact d2_rhs_1 _ _)
  rw [el, er]

end Contractions

/-! ### The two row reductions at an element -/

section Reductions

/-- Row `a` of a `[1024, 512]` array with column `r` inserted. -/
theorem lift_row (h : S1024x512.Reduces [1] S1024) (a : Fin 1024) (r : Fin 512) : h.lift (ix1 a) r = ix2 a r := by
  funext c
  match c with
  | ⟨0, _⟩ => exact Fin.ext rfl
  | ⟨1, _⟩ => exact Fin.ext rfl

/-- The row maximum from `-∞`. -/
theorem rowmax_apply (src : FVec Ideal S1024x512 .f32) (h : S1024x512.Reduces [1] S1024) (hφ : FKind.Formats .f32)
    (hacc : (0xFF800000#32 : BitVec 32) = FKind.maximumf.neutral .f32 hφ) (a : Fin 1024) :
    multiReduction (F := Ideal) .maximumf [1] S1024 src 0xFF800000#32 h hφ hacc (ix1 a)
      = (Finset.univ : Finset (Fin 512)).fold max (⊥ : EReal) (fun r => src (ix2 a r)) := by
  refine (Ideal.multiReduction_maximumf_single src 0xFF800000#32 h hφ hacc (ix1 a)).trans ?_
  show (Finset.univ : Finset (Fin 512)).fold max (Ideal.ofBits .f32 0xFF800000#32) (fun r => src (h.lift (ix1 a) r)) = _
  rw [ofBits_neg_inf]
  exact congrArg (fun g : Fin 512 → EReal => (Finset.univ : Finset (Fin 512)).fold max (⊥ : EReal) g)
    (funext fun r => congrArg src (lift_row h a r))

/-- The row sum from zero. -/
theorem rowsum_apply (src : FVec Ideal S1024x512 .f32) (h : S1024x512.Reduces [1] S1024) (hφ : FKind.Formats .f32)
    (hacc : (0x00000000#32 : BitVec 32) = FKind.add.neutral .f32 hφ) (a : Fin 1024) :
    multiReduction (F := Ideal) .add [1] S1024 src 0x00000000#32 h hφ hacc (ix1 a) = ∑ r : Fin 512, src (ix2 a r) := by
  refine (Ideal.multiReduction_add_single src 0x00000000#32 h hφ hacc (ix1 a)).trans ?_
  show ∑ r : Fin 512, src (h.lift (ix1 a) r) = _
  exact Finset.sum_congr rfl fun r _ => congrArg src (lift_row h a r)

end Reductions

/-! ### The step's values on real data -/

section Real

/-- The score of query row `a` against key row `r`. -/
def sc (qR : Fin 1024 → Fin 1024 → ℝ) (kR : Fin 512 → Fin 1024 → ℝ) (a : Fin 1024) (r : Fin 512) : ℝ :=
  (∑ e : Fin 1024, qR a e * kR r e) * (1 / 32)

/-- The new reference point of row `a`: the old one against the block's largest score. -/
def newRef (qR : Fin 1024 → Fin 1024 → ℝ) (kR : Fin 512 → Fin 1024 → ℝ) (mR : Fin 1024 → ℝ) (a : Fin 1024) : ℝ :=
  max (mR a) (Finset.univ.sup' Finset.univ_nonempty (sc qR kR a))

variable (q : Vec Ideal S1024x1024 .bf16) (k : Vec Ideal S512x1024 .bf16) (m0 l0 : Vec Ideal S1024x1 .f32)
  (acc0 : Vec Ideal S1024x1024 .f32)
  (qR : Fin 1024 → Fin 1024 → ℝ) (kR : Fin 512 → Fin 1024 → ℝ) (mR lR : Fin 1024 → ℝ) (accR : Fin 1024 → Fin 1024 → ℝ)

/-- (s) the scores. -/
theorem pay8_apply (hq : ∀ a e, q (ix2 a e) = ((qR a e : ℝ) : EReal)) (hk : ∀ r e, k (ix2 r e) = ((kR r e : ℝ) : EReal))
    (a : Fin 1024) (r : Fin 512) :
    k2_pay8 (F := Ideal) q k (ix2 a r) = ((sc qR kR a r : ℝ) : EReal) := by
  unfold k2_pay8 k2_pay7
  simp only [shapeCast_self]
  refine (mulf_apply _ _ _).trans ?_
  rw [matmul_rows_apply]
  show (∑ e : Fin 1024, q (ix2 a e) * k (ix2 r e)) * Ideal.ofBits .f32 0x3D000000#32 = _
  simp only [hq, hk, ofBits_inv32, mul_coe, sum_coe]
  rfl

/-- (m) the new reference point. -/
theorem pay9_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k2_pay9 (F := Ideal) q k m0 (ix2 a (0 : Fin 1)) = ((newRef qR kR mR a : ℝ) : EReal) := by
  unfold k2_pay9
  refine (maximumf_apply _ _ _).trans ?_
  rw [hm a]
  refine (congrArg (max ((mR a : ℝ) : EReal)) ((shapeCast_a_a1_apply _ _ a 0).trans
    (rowmax_apply (k2_pay8 (F := Ideal) q k) _ _ _ a))).trans ?_
  rw [fold_max_bot_eq_coe Finset.univ Finset.univ_nonempty _ (sc qR kR a) (fun r _ => pay8_apply q k qR kR hq hk a r),
    max_coe]
  rfl

/-- (a) the factor that rescales the old sums. -/
theorem pay10_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) :
    k2_pay10 (F := Ideal) q k m0 m0 (ix2 a (0 : Fin 1)) = ((Real.exp (mR a - newRef qR kR mR a) : ℝ) : EReal) := by
  unfold k2_pay10
  show Ideal.exp (m0 (ix2 a (0 : Fin 1)) - k2_pay9 (F := Ideal) q k m0 (ix2 a (0 : Fin 1))) = _
  rw [hm a, pay9_apply q k m0 qR kR mR hq hk hm a, exp_sub_coe]

/-- (p) the block's weights. -/
theorem pay11_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (a : Fin 1024) (r : Fin 512) :
    k2_pay11 (F := Ideal) q k m0 (ix2 a r) = ((Real.exp (sc qR kR a r - newRef qR kR mR a) : ℝ) : EReal) := by
  unfold k2_pay11
  show Ideal.exp (k2_pay8 (F := Ideal) q k (ix2 a r)
      - broadcastTo S1024x512 (k2_pay9 (F := Ideal) q k m0) broadcasts_S1024x1_S1024x512 (ix2 a r)) = _
  rw [broadcastTo_a1_ab_apply, pay8_apply q k qR kR hq hk a r, pay9_apply q k m0 qR kR mR hq hk hm a, exp_sub_coe]

/-- (l) the new denominator. -/
theorem pay12_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal)) (hl : ∀ a, l0 (ix2 a (0 : Fin 1)) = ((lR a : ℝ) : EReal))
    (a : Fin 1024) :
    k2_pay12 (F := Ideal) q k m0 m0 l0 (ix2 a (0 : Fin 1))
      = ((Real.exp (mR a - newRef qR kR mR a) * lR a
          + ∑ r : Fin 512, Real.exp (sc qR kR a r - newRef qR kR mR a) : ℝ) : EReal) := by
  unfold k2_pay12
  simp only [shapeCast_self]
  refine (addf_apply _ _ _).trans ?_
  refine (congrArg₂ (· + ·) (mulf_apply _ _ _) ((shapeCast_a_a1_apply _ _ a 0).trans
    (rowsum_apply (k2_pay11 (F := Ideal) q k m0) _ _ _ a))).trans ?_
  rw [pay10_apply q k m0 qR kR mR hq hk hm a, hl a]
  simp only [pay11_apply q k m0 qR kR mR hq hk hm, mul_coe, sum_coe, add_coe]

/-- (acc) the new numerator. -/
theorem pay13_apply (hq : ∀ a e, q (ix2 a e) = ((qR a e : ℝ) : EReal)) (hk : ∀ r e, k (ix2 r e) = ((kR r e : ℝ) : EReal))
    (hm : ∀ a, m0 (ix2 a (0 : Fin 1)) = ((mR a : ℝ) : EReal))
    (hacc : ∀ a d, acc0 (ix2 a d) = ((accR a d : ℝ) : EReal)) (a : Fin 1024) (d : Fin 1024) :
    k2_pay13 (F := Ideal) q k m0 m0 acc0 (ix2 a d)
      = ((Real.exp (mR a - newRef qR kR mR a) * accR a d
          + ∑ r : Fin 512, Real.exp (sc qR kR a r - newRef qR kR mR a) * kR r d : ℝ) : EReal) := by
  unfold k2_pay13 k2_pay7
  simp only [shapeCast_self]
  refine (addf_apply _ _ _).trans ?_
  refine (congrArg₂ (· + ·) ((mulf_apply _ _ _).trans (congrArg (· * acc0 (ix2 a d)) (broadcastTo_a1_ab_apply _ _ a d)))
    (matmul_cols_apply _ _ a d)).trans ?_
  rw [pay10_apply q k m0 qR kR mR hq hk hm a, hacc a d]
  show _ + ∑ r : Fin 512, k2_pay11 (F := Ideal) q k m0 (ix2 a r) * k (ix2 r d) = _
  simp only [pay11_apply q k m0 qR kR mR hq hk hm, hk, mul_coe, sum_coe, add_coe]

/-- (out) the output: the quotient cut off at zero. -/
theorem pay3_apply (acc : Vec Ideal S1024x1024 .f32) (l1 : Vec Ideal S1024x1 .f32)
    (aR : Fin 1024 → Fin 1024 → ℝ) (l1R : Fin 1024 → ℝ)
    (hacc : ∀ a d, acc (ix2 a d) = ((aR a d : ℝ) : EReal)) (hl : ∀ a, l1 (ix2 a (0 : Fin 1)) = ((l1R a : ℝ) : EReal))
    (a : Fin 1024) (d : Fin 1024) (hne : l1R a ≠ 0) :
    k2_pay3 (F := Ideal) acc l1 (ix2 a d) = ((max (aR a d / l1R a) 0 : ℝ) : EReal) := by
  unfold k2_pay3
  show max (Ideal.div (acc (ix2 a d)) (broadcastTo S1024x1024 l1 broadcasts_S1024x1_S1024x1024 (ix2 a d)))
      (Ideal.ofBits .f32 0x00000000#32) = _
  rw [broadcastTo_a1_ab_apply, hacc a d, hl a, div_coe hne, Ideal.ofBits_zero_f32, max_coe_zero]

/-! ### The values a first step resets the state to, and the two re-stores -/

theorem pay4_apply (i : S1024x1.Idx) : k2_pay4 (F := Ideal) i = ((negBig : ℝ) : EReal) := by
  unfold k2_pay4
  simp only [shapeCast_self]
  exact ofBits_negBig

theorem pay5_apply (i : S1024x1.Idx) : k2_pay5 (F := Ideal) i = ((0 : ℝ) : EReal) := by
  unfold k2_pay5
  simp only [shapeCast_self]
  exact ofBits_zero

theorem pay6_apply (i : S1024x1024.Idx) : k2_pay6 (F := Ideal) i = ((0 : ℝ) : EReal) := by
  unfold k2_pay6
  simp only [shapeCast_self]
  exact ofBits_zero

theorem pay1_eq (x : FVec Ideal S1024x1024 .f32) : k2_pay1 (F := Ideal) x = x := by
  unfold k2_pay1
  exact shapeCast_self _ _

theorem pay2_eq (x : FVec Ideal S1024x1 .f32) : k2_pay2 (F := Ideal) x = x := by
  unfold k2_pay2
  exact shapeCast_self _ _

end Real

end Cert.KernelIdeal.PayReal2

end
-- ==== Proof.KernelIdeal.R2Invariant.lean ====
/-
  Region 2: the carried buffers and the output buffer after every grid point, on real data.

  Point `t` works on query block `t / 8` and key block `t % 8`. For row `a` of the query block let `f b r` be the
  score of that row against key `r` of key block `b`, `v b r` the value of that key at feature `d`, and `μ` the
  running maximum of the scores from the fixed start value. After point `t` the three carried buffers hold, at row `a`,
  `μ (t % 8 + 1)`, the blockwise denominator `lsum f μ (t % 8 + 1)` and numerator `asum f v μ (t % 8 + 1)`: a first
  key block starts from the reset values `μ 0`, `0`, `0`, every other one continues from the point before. At a
  last key block the output buffer holds the quotient cut off at zero, which is the layer's value at that row.
-/
import proofs.«180055_j73289321939109_2_alg».proof.Proof.KernelIdeal.R2Pieces
import proofs.«180055_j73289321939109_2_alg».proof.Proof.KernelIdeal.PayReal2
import proofs.«180055_j73289321939109_2_alg».proof.Proof.LibOnlineIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.PayReal2 Cert.Online Cert.IdealReal

/-! ## Each case's four buffers as the step's named values (any float values) -/

section AnyF
variable {F : FTy → Type} [FloatOps F]
variable (V : (c : Dev nD) → (b : Ref sig .tc) → Buf (Elt F) ((c : Thread nD τ).loc b))

theorem caseA2_m (c : Dev nD) (t : Fin cfg2.N) (h0 : t.val % 8 = 0) (h1 : ¬t.val % 8 = 7) :
    (caseA2 V c t h0 h1).2.1 = k2_pay2 (k2_pay9 (iblk2 V c 0 t) (iblk2 V c 1 t) k2_pay4) := by
  unfold caseA2
  dsimp only
  exact sout2_A_0_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t)
theorem caseA2_l (c : Dev nD) (t : Fin cfg2.N) (h0 : t.val % 8 = 0) (h1 : ¬t.val % 8 = 7) :
    (caseA2 V c t h0 h1).2.2.1 = k2_pay12 (iblk2 V c 0 t) (iblk2 V c 1 t) k2_pay4 k2_pay4 k2_pay5 := by
  unfold caseA2
  dsimp only
  exact sout2_A_1_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t)
theorem caseA2_acc (c : Dev nD) (t : Fin cfg2.N) (h0 : t.val % 8 = 0) (h1 : ¬t.val % 8 = 7) :
    (caseA2 V c t h0 h1).2.2.2 = k2_pay1 (k2_pay13 (iblk2 V c 0 t) (iblk2 V c 1 t) k2_pay4 k2_pay4 k2_pay6) := by
  unfold caseA2
  dsimp only
  exact sout2_A_2_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t)

theorem caseB2_m (c : Dev nD) (t : Fin cfg2.N) (h0 : ¬t.val % 8 = 0) (h1 : ¬t.val % 8 = 7) (prev : Out2 (F := F)) :
    (caseB2 V c t h0 h1 prev).2.1 = k2_pay2 (k2_pay9 (iblk2 V c 0 t) (iblk2 V c 1 t) prev.2.1) := by
  unfold caseB2
  dsimp only
  exact sout2_B_0_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2
theorem caseB2_l (c : Dev nD) (t : Fin cfg2.N) (h0 : ¬t.val % 8 = 0) (h1 : ¬t.val % 8 = 7) (prev : Out2 (F := F)) :
    (caseB2 V c t h0 h1 prev).2.2.1 = k2_pay12 (iblk2 V c 0 t) (iblk2 V c 1 t) prev.2.1 prev.2.1 prev.2.2.1 := by
  unfold caseB2
  dsimp only
  exact sout2_B_1_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2
theorem caseB2_acc (c : Dev nD) (t : Fin cfg2.N) (h0 : ¬t.val % 8 = 0) (h1 : ¬t.val % 8 = 7) (prev : Out2 (F := F)) :
    (caseB2 V c t h0 h1 prev).2.2.2 = k2_pay1 (k2_pay13 (iblk2 V c 0 t) (iblk2 V c 1 t) prev.2.1 prev.2.1 prev.2.2.2) := by
  unfold caseB2
  dsimp only
  exact sout2_B_2_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) prev.2.1 prev.2.2.1 prev.2.2.2

theorem caseC2_m (c : Dev nD) (t : Fin cfg2.N) (h0 : ¬t.val % 8 = 0) (h1 : t.val % 8 = 7) (prev : Out2 (F := F)) :
    (caseC2 V c t h0 h1 prev).2.1 = k2_pay2 (k2_pay9 (iblk2 V c 0 t) (iblk2 V c 1 t) prev.2.1) := by
  unfold caseC2
  dsimp only
  exact sout2_C_0_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2
theorem caseC2_l (c : Dev nD) (t : Fin cfg2.N) (h0 : ¬t.val % 8 = 0) (h1 : t.val % 8 = 7) (prev : Out2 (F := F)) :
    (caseC2 V c t h0 h1 prev).2.2.1 = k2_pay12 (iblk2 V c 0 t) (iblk2 V c 1 t) prev.2.1 prev.2.1 prev.2.2.1 := by
  unfold caseC2
  dsimp only
  exact sout2_C_1_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2
theorem caseC2_acc (c : Dev nD) (t : Fin cfg2.N) (h0 : ¬t.val % 8 = 0) (h1 : t.val % 8 = 7) (prev : Out2 (F := F)) :
    (caseC2 V c t h0 h1 prev).2.2.2 = k2_pay1 (k2_pay13 (iblk2 V c 0 t) (iblk2 V c 1 t) prev.2.1 prev.2.1 prev.2.2.2) := by
  unfold caseC2
  dsimp only
  exact sout2_C_2_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2
theorem caseC2_out (c : Dev nD) (t : Fin cfg2.N) (h0 : ¬t.val % 8 = 0) (h1 : t.val % 8 = 7) (prev : Out2 (F := F)) :
    (caseC2 V c t h0 h1 prev).1
      = k2_pay3 (k2_pay1 (k2_pay13 (iblk2 V c 0 t) (iblk2 V c 1 t) prev.2.1 prev.2.1 prev.2.2.2)) (k2_pay12 (iblk2 V c 0 t) (iblk2 V c 1 t) prev.2.1 prev.2.1 prev.2.2.1) := by
  unfold caseC2
  dsimp only
  exact out2_C_2_eq c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) prev.2.1 prev.2.2.1 prev.2.2.2

end AnyF

/-! ## On real data -/

namespace Reg2

section Real

variable (V : (c : Dev nD) → (b : Ref sig .tc) → Buf (Elt Ideal) ((c : Thread nD τ).loc b)) (c : Dev nD)
variable (hR : Fin 4096 → Fin 1024 → ℝ)

/-- The table's rows, extended by zero beyond the last one. -/
def rowN (n : ℕ) (e : Fin 1024) : ℝ := if h : n < 4096 then hR ⟨n, h⟩ e else 0
theorem rowN_of_lt {n : ℕ} (h : n < 4096) (e : Fin 1024) : rowN hR n e = hR ⟨n, h⟩ e := dif_pos h

/-- Query block `qi`'s rows and key block `b`'s rows. -/
def qRow (qi : ℕ) (a : Fin 1024) (e : Fin 1024) : ℝ := rowN hR (1024 * qi + a.val) e
def kRow (b : ℕ) (r : Fin 512) (e : Fin 1024) : ℝ := rowN hR (512 * b + r.val) e
/-- Row `a` of query block `qi`: its scores by key block, the values at feature `d` by key block, the running maximum. -/
def fS (qi : ℕ) (a : Fin 1024) (b : ℕ) (r : Fin 512) : ℝ := sc (qRow hR qi) (kRow hR b) a r
def vS (d : Fin 1024) (b : ℕ) (r : Fin 512) : ℝ := kRow hR b r d
def μS (qi : ℕ) (a : Fin 1024) : ℕ → ℝ := rmax (fS hR qi a) negBig
theorem μS_zero (qi : ℕ) (a : Fin 1024) : μS hR qi a 0 = negBig := rmax_zero _ _

/-! ### The blocks the windows hold -/

theorem idx2_0 : ∀ t : Fin cfg2.N, win2_0.index t (0 : Fin 2) = t.val / 8 ∧ win2_0.index t (1 : Fin 2) = 0 :=
  (by decide +kernel : ∀ t : Fin grid2.N, win2_0.index t (0 : Fin 2) = t.val / 8 ∧ win2_0.index t (1 : Fin 2) = 0)
theorem idx2_1 : ∀ t : Fin cfg2.N, win2_1.index t (0 : Fin 2) = t.val % 8 ∧ win2_1.index t (1 : Fin 2) = 0 :=
  (by decide +kernel : ∀ t : Fin grid2.N, win2_1.index t (0 : Fin 2) = t.val % 8 ∧ win2_1.index t (1 : Fin 2) = 0)
theorem idx2_2 : ∀ t : Fin cfg2.N, win2_2.index t (0 : Fin 2) = t.val / 8 ∧ win2_2.index t (1 : Fin 2) = 0 :=
  (by decide +kernel : ∀ t : Fin grid2.N, win2_2.index t (0 : Fin 2) = t.val / 8 ∧ win2_2.index t (1 : Fin 2) = 0)

theorem lt32 (t : Fin cfg2.N) : t.val < 32 := Nat.lt_of_lt_of_eq t.isLt N_2

/-- The query window's block at point `t` is rows `1024 · (t / 8) + a` of its array. -/
theorem iblk2_0_apply (t : Fin cfg2.N) (a : Fin 1024) (e : Fin 1024) (p : Fin 4096)
    (hp : p.val = 1024 * (t.val / 8) + a.val) :
    (iblk2 (F := Ideal) V c 0 t : Vec Ideal S1024x1024 .bf16) (ix2 a e) = V c main_v2 (ix2 p e) := by
  unfold iblk2
  rw [View.read_apply]
  show V c main_v2 _ = V c main_v2 _
  congr 1
  funext ax
  apply Fin.ext
  obtain ⟨h0, h1⟩ := idx2_0 t
  match ax with
  | ⟨0, _⟩ => show win2_0.index t (0 : Fin 2) * 1024 + 1 * a.val = p.val; rw [h0, hp]; omega
  | ⟨1, _⟩ => show win2_0.index t (1 : Fin 2) * 1024 + 1 * e.val = e.val; rw [h1]; omega

/-- The key window's block at point `t` is rows `512 · (t % 8) + r` of its array. -/
theorem iblk2_1_apply (t : Fin cfg2.N) (r : Fin 512) (e : Fin 1024) (p : Fin 4096)
    (hp : p.val = 512 * (t.val % 8) + r.val) :
    (iblk2 (F := Ideal) V c 1 t : Vec Ideal S512x1024 .bf16) (ix2 r e) = V c main_v2 (ix2 p e) := by
  unfold iblk2
  rw [View.read_apply]
  show V c main_v2 _ = V c main_v2 _
  congr 1
  funext ax
  apply Fin.ext
  obtain ⟨h0, h1⟩ := idx2_1 t
  match ax with
  | ⟨0, _⟩ => show win2_1.index t (0 : Fin 2) * 512 + 1 * r.val = p.val; rw [h0, hp]; omega
  | ⟨1, _⟩ => show win2_1.index t (1 : Fin 2) * 1024 + 1 * e.val = e.val; rw [h1]; omega

theorem iblk2_0_real (hV : ∀ p q, V c main_v2 (ix2 p q) = ((hR p q : ℝ) : EReal)) (t : Fin cfg2.N) (a e : Fin 1024) :
    (iblk2 (F := Ideal) V c 0 t : Vec Ideal S1024x1024 .bf16) (ix2 a e) = ((qRow hR (t.val / 8) a e : ℝ) : EReal) := by
  have ht := lt32 t
  have hp : 1024 * (t.val / 8) + a.val < 4096 := by have := a.isLt; omega
  rw [iblk2_0_apply V c t a e ⟨_, hp⟩ rfl, hV]
  unfold qRow
  rw [rowN_of_lt hR hp]

theorem iblk2_1_real (hV : ∀ p q, V c main_v2 (ix2 p q) = ((hR p q : ℝ) : EReal)) (t : Fin cfg2.N) (r : Fin 512) (e : Fin 1024) :
    (iblk2 (F := Ideal) V c 1 t : Vec Ideal S512x1024 .bf16) (ix2 r e) = ((kRow hR (t.val % 8) r e : ℝ) : EReal) := by
  have hp : 512 * (t.val % 8) + r.val < 4096 := by have := r.isLt; omega
  rw [iblk2_1_apply V c t r e ⟨_, hp⟩ rfl, hV]
  unfold kRow
  rw [rowN_of_lt hR hp]

/-! ### One step on real data -/

theorem step_real (x0 : Vec Ideal S1024x1024 .bf16) (x1 : Vec Ideal S512x1024 .bf16) (m0 l0 : Vec Ideal S1024x1 .f32)
    (acc0 : Vec Ideal S1024x1024 .f32) (qi k : ℕ)
    (hx0 : ∀ a e, x0 (ix2 a e) = ((qRow hR qi a e : ℝ) : EReal)) (hx1 : ∀ r e, x1 (ix2 r e) = ((kRow hR k r e : ℝ) : EReal))
    (hm : ∀ a, m0 (ix2 a (0 : Fin 1)) = ((μS hR qi a k : ℝ) : EReal))
    (hl : ∀ a, l0 (ix2 a (0 : Fin 1)) = ((lsum (fS hR qi a) (μS hR qi a) k : ℝ) : EReal))
    (hacc : ∀ a d, acc0 (ix2 a d) = ((asum (fS hR qi a) (vS hR d) (μS hR qi a) k : ℝ) : EReal)) :
    (∀ a, k2_pay2 (F := Ideal) (k2_pay9 (F := Ideal) x0 x1 m0) (ix2 a (0 : Fin 1)) = ((μS hR qi a (k + 1) : ℝ) : EReal))
    ∧ (∀ a, k2_pay12 (F := Ideal) x0 x1 m0 m0 l0 (ix2 a (0 : Fin 1))
        = ((lsum (fS hR qi a) (μS hR qi a) (k + 1) : ℝ) : EReal))
    ∧ (∀ a d, k2_pay1 (F := Ideal) (k2_pay13 (F := Ideal) x0 x1 m0 m0 acc0) (ix2 a d)
        = ((asum (fS hR qi a) (vS hR d) (μS hR qi a) (k + 1) : ℝ) : EReal)) := by
  refine ⟨fun a => ?_, fun a => ?_, fun a d => ?_⟩
  · rw [pay2_eq, pay9_apply x0 x1 m0 (qRow hR qi) (kRow hR k) (fun a => μS hR qi a k) hx0 hx1 hm a]
    rfl
  · rw [pay12_apply x0 x1 m0 l0 (qRow hR qi) (kRow hR k) (fun a => μS hR qi a k)
      (fun a => lsum (fS hR qi a) (μS hR qi a) k) hx0 hx1 hm hl a]
    rfl
  · rw [pay1_eq, pay13_apply x0 x1 m0 acc0 (qRow hR qi) (kRow hR k) (fun a => μS hR qi a k)
      (fun a d => asum (fS hR qi a) (vS hR d) (μS hR qi a) k) hx0 hx1 hm hacc a d]
    rfl

end Real

/-! ### The three cases on real data -/

section Cases

variable (V : (c : Dev nD) → (b : Ref sig .tc) → Buf (Elt Ideal) ((c : Thread nD τ).loc b)) (c : Dev nD)
variable (hR : Fin 4096 → Fin 1024 → ℝ)

/-- The carried buffers hold, at every row, the blockwise state of query block `qi` after `k` key blocks. -/
def StateAt (st : Out2 (F := Ideal)) (qi k : ℕ) : Prop :=
  (∀ a : Fin 1024, st.2.1 (ix2 a (0 : Fin 1)) = ((μS hR qi a k : ℝ) : EReal))
  ∧ (∀ a : Fin 1024, st.2.2.1 (ix2 a (0 : Fin 1)) = ((lsum (fS hR qi a) (μS hR qi a) k : ℝ) : EReal))
  ∧ (∀ a d : Fin 1024, st.2.2.2 (ix2 a d) = ((asum (fS hR qi a) (vS hR d) (μS hR qi a) k : ℝ) : EReal))

/-- A first key block: from the reset values. -/
theorem caseA_real (hV : ∀ p q, V c main_v2 (ix2 p q) = ((hR p q : ℝ) : EReal)) (t : Fin cfg2.N)
    (h0 : t.val % 8 = 0) (h1 : ¬t.val % 8 = 7) :
    StateAt hR (caseA2 V c t h0 h1) (t.val / 8) (t.val % 8 + 1) := by
  unfold StateAt
  rw [caseA2_m, caseA2_l, caseA2_acc, h0]
  exact step_real hR (iblk2 V c 0 t) (iblk2 V c 1 t) (k2_pay4 (F := Ideal)) (k2_pay5 (F := Ideal)) (k2_pay6 (F := Ideal)) (t.val / 8) 0
    (iblk2_0_real V c hR hV t) (fun r e => by rw [iblk2_1_real V c hR hV t r e, h0])
    (fun a => by rw [μS_zero]; exact pay4_apply (ix2 a (0 : Fin 1)))
    (fun a => by rw [lsum_zero]; exact pay5_apply (ix2 a (0 : Fin 1)))
    (fun a d => by rw [asum_zero]; exact pay6_apply (ix2 a d))

/-- A middle key block: from the state the point before left. -/
theorem caseB_real (hV : ∀ p q, V c main_v2 (ix2 p q) = ((hR p q : ℝ) : EReal)) (t : Fin cfg2.N)
    (h0 : ¬t.val % 8 = 0) (h1 : ¬t.val % 8 = 7) (prev : Out2 (F := Ideal))
    (hp : StateAt hR prev (t.val / 8) (t.val % 8)) :
    StateAt hR (caseB2 V c t h0 h1 prev) (t.val / 8) (t.val % 8 + 1) := by
  unfold StateAt
  rw [caseB2_m, caseB2_l, caseB2_acc]
  exact step_real hR (iblk2 V c 0 t) (iblk2 V c 1 t) prev.2.1 prev.2.2.1 prev.2.2.2 (t.val / 8) (t.val % 8)
    (iblk2_0_real V c hR hV t) (iblk2_1_real V c hR hV t) hp.1 hp.2.1 hp.2.2

/-- A last key block: the same, and the output buffer holds the quotient cut off at zero. -/
theorem caseC_real (hV : ∀ p q, V c main_v2 (ix2 p q) = ((hR p q : ℝ) : EReal)) (t : Fin cfg2.N)
    (h0 : ¬t.val % 8 = 0) (h1 : t.val % 8 = 7) (prev : Out2 (F := Ideal))
    (hp : StateAt hR prev (t.val / 8) (t.val % 8)) :
    StateAt hR (caseC2 V c t h0 h1 prev) (t.val / 8) (t.val % 8 + 1)
    ∧ ∀ a d : Fin 1024, (caseC2 V c t h0 h1 prev).1 (ix2 a d)
        = ((max (asum (fS hR (t.val / 8) a) (vS hR d) (μS hR (t.val / 8) a) (t.val % 8 + 1)
                  / lsum (fS hR (t.val / 8) a) (μS hR (t.val / 8) a) (t.val % 8 + 1)) 0 : ℝ) : EReal) := by
  have hs := step_real hR (iblk2 V c 0 t) (iblk2 V c 1 t) prev.2.1 prev.2.2.1 prev.2.2.2 (t.val / 8) (t.val % 8)
    (iblk2_0_real V c hR hV t) (iblk2_1_real V c hR hV t) hp.1 hp.2.1 hp.2.2
  refine ⟨?_, fun a d => ?_⟩
  · unfold StateAt
    rw [caseC2_m, caseC2_l, caseC2_acc]
    exact hs
  · rw [caseC2_out]
    exact pay3_apply
      (k2_pay1 (F := Ideal) (k2_pay13 (F := Ideal) (iblk2 V c 0 t) (iblk2 V c 1 t) prev.2.1 prev.2.1 prev.2.2.2))
      (k2_pay12 (F := Ideal) (iblk2 V c 0 t) (iblk2 V c 1 t) prev.2.1 prev.2.1 prev.2.2.1)
      (fun a d => asum (fS hR (t.val / 8) a) (vS hR d) (μS hR (t.val / 8) a) (t.val % 8 + 1))
      (fun a => lsum (fS hR (t.val / 8) a) (μS hR (t.val / 8) a) (t.val % 8 + 1))
      hs.2.2 hs.2.1 a d (lsum_ne_zero _ _ (Nat.succ_pos _))

/-! ### Every point -/

/-- After point `n` the carried buffers hold the blockwise state of query block `n / 8` after `n % 8 + 1` key blocks. -/
theorem state_at_point (hV : ∀ p q, V c main_v2 (ix2 p q) = ((hR p q : ℝ) : EReal)) :
    ∀ (n : ℕ) (hn : n < cfg2.N), StateAt hR (outsAt2 V c n hn) (n / 8) (n % 8 + 1) := by
  intro n
  induction n with
  | zero =>
    intro hn
    have e := outsAt2_A V c ⟨0, hn⟩ (Nat.zero_mod _) (by show ¬ (0 % 8 = 7); decide)
    rw [show outsAt2 V c 0 hn = _ from e]
    exact caseA_real V c hR hV ⟨0, hn⟩ (Nat.zero_mod _) (by show ¬ (0 % 8 = 7); decide)
  | succ n ih =>
    intro hn
    by_cases h0 : (n + 1) % 8 = 0
    · have h1 : ¬(n + 1) % 8 = 7 := by omega
      have e := outsAt2_A V c ⟨n + 1, hn⟩ h0 h1
      rw [show outsAt2 V c (n + 1) hn = _ from e]
      exact caseA_real V c hR hV ⟨n + 1, hn⟩ h0 h1
    · have ih' := ih (Nat.lt_of_succ_lt hn)
      have e1 : n / 8 = (n + 1) / 8 := by omega
      have e2 : n % 8 + 1 = (n + 1) % 8 := by omega
      rw [e1, e2] at ih'
      by_cases h1 : (n + 1) % 8 = 7
      · have e := outsAt2_C V c ⟨n + 1, hn⟩ h0 h1
        rw [show outsAt2 V c (n + 1) hn = caseC2 V c ⟨n + 1, hn⟩ h0 h1 (outsAt2 V c n (Nat.lt_of_succ_lt hn)) from e]
        exact (caseC_real V c hR hV ⟨n + 1, hn⟩ h0 h1 (outsAt2 V c n (Nat.lt_of_succ_lt hn)) ih').1
      · have e := outsAt2_B V c ⟨n + 1, hn⟩ h0 h1
        rw [show outsAt2 V c (n + 1) hn = caseB2 V c ⟨n + 1, hn⟩ h0 h1 (outsAt2 V c n (Nat.lt_of_succ_lt hn)) from e]
        exact caseB_real V c hR hV ⟨n + 1, hn⟩ h0 h1 (outsAt2 V c n (Nat.lt_of_succ_lt hn)) ih'

/-- At a last key block the output buffer holds the quotient of the full blockwise sums, cut off at zero. -/
theorem out_at_last (hV : ∀ p q, V c main_v2 (ix2 p q) = ((hR p q : ℝ) : EReal)) (t : Fin cfg2.N) (h7 : t.val % 8 = 7)
    (a d : Fin 1024) :
    (outsAt2 V c t.val t.isLt).1 (ix2 a d)
      = ((max (asum (fS hR (t.val / 8) a) (vS hR d) (μS hR (t.val / 8) a) 8
                / lsum (fS hR (t.val / 8) a) (μS hR (t.val / 8) a) 8) 0 : ℝ) : EReal) := by
  have h0 : ¬t.val % 8 = 0 := by omega
  have hpos : 0 < t.val := by omega
  have hprev := state_at_point V c hR hV (t.val - 1) (Nat.lt_of_le_of_lt (Nat.sub_le _ _) t.isLt)
  have e1 : (t.val - 1) / 8 = t.val / 8 := by omega
  have e2 : (t.val - 1) % 8 + 1 = t.val % 8 := by omega
  rw [e1, e2] at hprev
  rw [outsAt2_C V c t h0 h7]
  have h := (caseC_real V c hR hV t h0 h7 _ hprev).2 a d
  rw [h7] at h
  exact h

end Cases

/-! ### The output block is the layer's -/

section Block

variable (V : (c : Dev nD) → (b : Ref sig .tc) → Buf (Elt Ideal) ((c : Thread nD τ).loc b)) (c : Dev nD)
variable (hR : Fin 4096 → Fin 1024 → ℝ)

/-- The scores by key block are the layer's scores of the row against the keys `512 · b + r`. -/
theorem fS_eq_score (qi : ℕ) (hqi : qi < 4) (a : Fin 1024) (b : ℕ) (hb : b < 8) (r : Fin 512) :
    fS hR qi a b r = Cert.Attn.score (1 / 32) hR ⟨1024 * qi + a.val, by have := a.isLt; omega⟩
      ⟨512 * b + r.val, by have := r.isLt; omega⟩ := by
  have h1 : 1024 * qi + a.val < 4096 := by have := a.isLt; omega
  have h2 : 512 * b + r.val < 4096 := by have := r.isLt; omega
  show (∑ e : Fin 1024, rowN hR (1024 * qi + a.val) e * rowN hR (512 * b + r.val) e) * (1 / 32) = _
  simp only [rowN_of_lt hR h1, rowN_of_lt hR h2]
  rfl

theorem vS_eq (d : Fin 1024) (b : ℕ) (hb : b < 8) (r : Fin 512) :
    vS hR d b r = hR ⟨512 * b + r.val, by have := r.isLt; omega⟩ d :=
  rowN_of_lt hR _ d

/-- One layer at a row as the blockwise quotient over the 8 key blocks, in the reals. -/
theorem layer_real_4096 (κ : ℝ) (h : Fin 4096 → Fin 1024 → ℝ) (i : Fin 4096) (d : Fin 1024)
    (f v : ℕ → Fin 512 → ℝ) (μ : ℕ → ℝ)
    (hf : ∀ b (hb : b < 8) (r : Fin 512), f b r = Cert.Attn.score κ h i ⟨512 * b + r.val, by have := r.isLt; omega⟩)
    (hv : ∀ b (hb : b < 8) (r : Fin 512), v b r = h ⟨512 * b + r.val, by have := r.isLt; omega⟩ d) :
    Cert.Attn.layer κ h i d = max (asum f v μ 8 / lsum f μ 8) 0 := by
  have h1 := Cert.Attn.layer_coe_online_4096 κ h i d f v μ hf hv
  rw [final_coe f v μ (by norm_num)] at h1
  exact (EReal.coe_eq_coe_iff.mp h1).symm

/-- THE OUTPUT BLOCK: after the last key block of query block `t / 8` the output buffer holds, at row `a` and
    feature `d`, the layer's value at row `1024 · (t / 8) + a`. -/
theorem out_block2 (hV : ∀ p q, V c main_v2 (ix2 p q) = ((hR p q : ℝ) : EReal)) (t : Fin cfg2.N) (h7 : t.val % 8 = 7)
    (a d : Fin 1024) :
    (outsAt2 (F := Ideal) V c t.val t.isLt).1 (ix2 a d)
      = ((Cert.Attn.layer (1 / 32) hR ⟨1024 * (t.val / 8) + a.val, by have := lt32 t; have := a.isLt; omega⟩ d : ℝ) : EReal) := by
  have ht := lt32 t
  have hqi : t.val / 8 < 4 := by omega
  rw [out_at_last V c hR hV t h7 a d]
  exact congrArg (fun x : ℝ => (x : EReal))
    (layer_real_4096 (1 / 32) hR ⟨1024 * (t.val / 8) + a.val, by have := a.isLt; omega⟩ d
      (fS hR (t.val / 8) a) (vS hR d) (μS hR (t.val / 8) a)
      (fun b hb r => fS_eq_score hR (t.val / 8) hqi a b hb r) (fun b hb r => vS_eq hR d b hb r)).symm

end Block

end Reg2

end Cert.KernelIdeal.Hand

end
-- ==== Proof.KernelIdeal.Chain.lean ====
/-
  The kernel program's result: each region leaves one layer of the table it reads, so the three regions leave three
  layers of the argument's real entries.
-/
import proofs.«180055_j73289321939109_2_alg».proof.Proof.KernelIdeal.Entry
import proofs.«180055_j73289321939109_2_alg».proof.Proof.KernelIdeal.R0Final
import proofs.«180055_j73289321939109_2_alg».proof.Proof.KernelIdeal.R1Final
import proofs.«180055_j73289321939109_2_alg».proof.Proof.KernelIdeal.R2Final
import proofs.«180055_j73289321939109_2_alg».proof.Proof.KernelIdeal.R0Invariant
import proofs.«180055_j73289321939109_2_alg».proof.Proof.KernelIdeal.R1Invariant
import proofs.«180055_j73289321939109_2_alg».proof.Proof.KernelIdeal.R2Invariant
import proofs.«180055_j73289321939109_2_alg».proof.Proof.LibAttnSpec
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Region 0 leaves one layer of the real table it reads. -/
theorem region0_value (V : (c : Dev nD) → (b : Ref sig .tc) → Buf (Elt Ideal) ((c : Thread nD τ).loc b)) (c : Dev nD) (hR : Fin 4096 → Fin 1024 → ℝ)
    (hV : ∀ p q, V c main_v0 (ix2 p q) = ((hR p q : ℝ) : EReal)) :
    ∀ p q, (dat0 (F := Ideal) V c).arrAt 2 cfg0.N (ix2 p q) = ((Cert.Attn.layer (1 / 32) hR p q : ℝ) : EReal) :=
  region0_value_of_blocks V c (Cert.Attn.layer (1 / 32) hR) (fun t h7 a d => Reg0.out_block0 V c hR hV t h7 a d)
/-- Region 1 likewise. -/
theorem region1_value (V : (c : Dev nD) → (b : Ref sig .tc) → Buf (Elt Ideal) ((c : Thread nD τ).loc b)) (c : Dev nD) (hR : Fin 4096 → Fin 1024 → ℝ)
    (hV : ∀ p q, V c main_v1 (ix2 p q) = ((hR p q : ℝ) : EReal)) :
    ∀ p q, (dat1 (F := Ideal) V c).arrAt 2 cfg1.N (ix2 p q) = ((Cert.Attn.layer (1 / 32) hR p q : ℝ) : EReal) :=
  region1_value_of_blocks V c (Cert.Attn.layer (1 / 32) hR) (fun t h7 a d => Reg1.out_block1 V c hR hV t h7 a d)
/-- Region 2 likewise. -/
theorem region2_value (V : (c : Dev nD) → (b : Ref sig .tc) → Buf (Elt Ideal) ((c : Thread nD τ).loc b)) (c : Dev nD) (hR : Fin 4096 → Fin 1024 → ℝ)
    (hV : ∀ p q, V c main_v2 (ix2 p q) = ((hR p q : ℝ) : EReal)) :
    ∀ p q, (dat2 (F := Ideal) V c).arrAt 2 cfg2.N (ix2 p q) = ((Cert.Attn.layer (1 / 32) hR p q : ℝ) : EReal) :=
  region2_value_of_blocks V c (Cert.Attn.layer (1 / 32) hR) (fun t h7 a d => Reg2.out_block2 V c hR hV t h7 a d)

/-- The kernel program's result table: three layers of the argument's real entries. -/
theorem kernel_result (m : (ℓ : Loc nD τ sig) → Buf (Elt Ideal) ℓ) (c : Dev nD) (hR : Fin 4096 → Fin 1024 → ℝ)
    (harg : ∀ p q, m ((c.tc : Thread nD τ).loc main_arg0) (ix2 p q) = ((hR p q : ℝ) : EReal)) (p : Fin 4096) (q : Fin 1024) :
    V4 (F := Ideal) m c main_v3 (ix2 p q)
      = ((Cert.Attn.layer (1 / 32) (Cert.Attn.layer (1 / 32) (Cert.Attn.layer (1 / 32) hR)) p q : ℝ) : EReal) := by
  have h1 : ∀ p q, V2 (F := Ideal) m c main_v1 (ix2 p q) = ((Cert.Attn.layer (1 / 32) hR p q : ℝ) : EReal) := fun p q => by
    rw [W2_out]
    exact region0_value (V1 m) c hR (fun p q => (V1_main_v0_apply m c _).trans (harg p q)) p q
  have h2 : ∀ p q, V3 (F := Ideal) m c main_v2 (ix2 p q) = ((Cert.Attn.layer (1 / 32) (Cert.Attn.layer (1 / 32) hR) p q : ℝ) : EReal) := fun p q => by
    rw [W3_out]
    exact region1_value (V2 m) c _ h1 p q
  rw [W4_out]
  exact region2_value (V3 m) c _ h2 p q

end Cert.KernelIdeal.Hand

end
-- ==== Proof.lean ====
/-
  The certificate: a three-layer self-attention network, each layer `h ↦ relu (softmax (h hᵀ / 32) h)` over a table of
  4096 rows and 1024 columns, computed by a pipelined kernel per layer (query blocks of 1024 rows, key blocks of 512 rows,
  the softmax accumulated block by block against a running reference point) and, for comparison, by the plain two-pass
  formula. Over the extended reals and for a table of finite entries both are the same real function of the table:
  a common factor `exp (-μ)` cancels between a softmax's numerator and denominator whatever reference point `μ` is
  used, so the block-by-block accumulation, the two-pass form and the unshifted quotient agree; `1 / sqrt 1024` is `1/32`.
  The three frames: each program runs to the end without a fault and leaves its argument as launched.
-/
import proofs.«180055_j73289321939109_2_alg».proof.Defs
import proofs.«180055_j73289321939109_2_alg».proof.Proof.Gen.Kernel
import proofs.«180055_j73289321939109_2_alg».proof.Proof.Gen.KernelIdeal
import proofs.«180055_j73289321939109_2_alg».proof.Proof.Gen.ReferenceIdeal
import proofs.«180055_j73289321939109_2_alg».proof.Proof.Gen.Pre_finite_inputs
import proofs.«180055_j73289321939109_2_alg».proof.Proof.Kernel.Run
import proofs.«180055_j73289321939109_2_alg».proof.Proof.KernelIdeal.Run
import proofs.«180055_j73289321939109_2_alg».proof.Proof.RefFrame
import proofs.«180055_j73289321939109_2_alg».proof.Proof.RefResult
import proofs.«180055_j73289321939109_2_alg».proof.Proof.RefPreUse
import proofs.«180055_j73289321939109_2_alg».proof.Proof.KernelIdeal.Chain
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ

/-- Both idealized programs end with the table `layer (layer (layer h))` of the argument's real entries `h`. -/
theorem algebraic : Cert.algebraic_KernelIdeal_ReferenceIdeal := by
  intro m ρ m' ρ' hpre hagree
  refine ⟨fun c => Cert.KernelIdeal.Hand.V4 (F := Ideal) m c Cert.KernelIdeal.main_v3, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hR, hhR⟩ := Cert.FiniteInputs.kernel_arg_real m hpre c
  funext j
  obtain ⟨p, q, rfl⟩ : ∃ (p : Fin 4096) (q : Fin 1024), j = ValueIdx.ix2 p q := ⟨j 0, j 1, ValueIdx.eq_ix2 j⟩
  exact (Cert.ReferenceIdeal.RefValue.ref_result m' c hR (fun p q => by rw [hagree c]; exact hhR p q) p q).trans
    (Cert.KernelIdeal.Hand.kernel_result m c hR hhR p q).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
